-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x1000000 : Shape := ⟨2, ![2, 1000000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x256 .f32) (main_arg14 : FVec F S128x256 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x256 .f32 := Host.absf main_arg13
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128x256 .f32 := Host.absf main_arg14
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S256 .f32) (main_arg10 : FVec F S128x256 .f32) (main_arg11 : FVec F S128x256 .f32) (main_arg12 : FVec F S128 .f32) (main_arg13 : FVec F S128x256 .f32) (main_arg14 : FVec F S128x256 .f32) (main_arg15 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x256 .f32 := Host.absf main_arg11
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S256 .f32) (main_arg7 : FVec F S256x128 .f32) (main_arg8 : FVec F S256x128 .f32) (main_arg9 : FVec F S256 .f32) (main_arg10 : FVec F S128x256 .f32) (main_arg11 : FVec F S128x256 .f32) (main_arg12 : FVec F S128 .f32) (main_arg13 : FVec F S128x256 .f32) (main_arg14 : FVec F S128x256 .f32) (main_arg15 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S200000x128 .f32) (main_arg1 : FVec F S200000x128 .f32) (main_arg2 : IVec S2x1000000 32) (main_arg3 : IVec S2x1000000 32) (main_arg4 : FVec F S256x128 .f32) (main_arg5 : FVec F S256x128 .f32) (main_arg6 : FVec F S256 .f32) (main_arg7 : FVec F S256x128 .f32) (main_arg8 : FVec F S256x128 .f32) (main_arg9 : FVec F S256 .f32) (main_arg10 : FVec F S128x256 .f32) (main_arg11 : FVec F S128x256 .f32) (main_arg12 : FVec F S128 .f32) (main_arg13 : FVec F S128x256 .f32) (main_arg14 : FVec F S128x256 .f32) (main_arg15 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S200000x128 : Shape := ⟨2, ![200000, 128]⟩
abbrev S2x1000000 : Shape := ⟨2, ![2, 1000000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S200000x1 : Shape := ⟨2, ![200000, 1]⟩
abbrev S1000000x128 : Shape := ⟨2, ![1000000, 128]⟩
abbrev S200000x256 : Shape := ⟨2, ![200000, 256]⟩
abbrev S4000x128 : Shape := ⟨2, ![4000, 128]⟩
abbrev S4000x1 : Shape := ⟨2, ![4000, 1]⟩
abbrev S4000x256 : Shape := ⟨2, ![4000, 256]⟩
abbrev S1x256 : Shape := ⟨2, ![1, 256]⟩
abbrev S1x128 : Shape := ⟨2, ![1, 128]⟩

abbrev nBuf : Space → Nat
  | .hbm => 116
  | .vmem => 52
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S2x1000000, .i32⟩
  | .hbm, ⟨3, _⟩ => ⟨S2x1000000, .i32⟩
  | .hbm, ⟨4, _⟩ => ⟨S256x128, .f32⟩
  | .hbm, ⟨5, _⟩ => ⟨S256x128, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S256, .f32⟩
  | .hbm, ⟨10, _⟩ => ⟨S128x256, .f32⟩
  | .hbm, ⟨11, _⟩ => ⟨S128x256, .f32⟩
  | .hbm, ⟨12, _⟩ => ⟨S128, .f32⟩
  | .hbm, ⟨13, _⟩ => ⟨S128x256, .f32⟩
  | .hbm, ⟨14, _⟩ => ⟨S128x256, .f32⟩
  | .hbm, ⟨15, _⟩ => ⟨S128, .f32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S1x1000000, .i32⟩
  | .hbm, ⟨21, _⟩ => ⟨S1000000, .i32⟩
  | .hbm, ⟨22, _⟩ => ⟨S1x1000000, .i32⟩
  | .hbm, ⟨23, _⟩ => ⟨S1000000, .i32⟩
  | .hbm, ⟨24, _⟩ => ⟨S_, .f32⟩
  | .hbm, ⟨25, _⟩ => ⟨S1000000, .f32⟩
  | .hbm, ⟨26, _⟩ => ⟨S_, .f32⟩
  | .hbm, ⟨27, _⟩ => ⟨S200000, .f32⟩
  | .hbm, ⟨28, _⟩ => ⟨S1000000x1, .i32⟩
  | .hbm, ⟨29, _⟩ => ⟨S200000, .f32⟩
  | .hbm, ⟨30, _⟩ => ⟨S_, .f32⟩
  | .hbm, ⟨31, _⟩ => ⟨S200000, .f32⟩
  | .hbm, ⟨32, _⟩ => ⟨S200000, .f32⟩
  | .hbm, ⟨33, _⟩ => ⟨S_, .f32⟩
  | .hbm, ⟨34, _⟩ => ⟨S200000, .f32⟩
  | .hbm, ⟨35, _⟩ => ⟨S200000, .f32⟩
  | .hbm, ⟨36, _⟩ => ⟨S200000x1, .f32⟩
  | .hbm, ⟨37, _⟩ => ⟨S_, .f32⟩
  | .hbm, ⟨38, _⟩ => ⟨S1000000, .f32⟩
  | .hbm, ⟨39, _⟩ => ⟨S_, .f32⟩
  | .hbm, ⟨40, _⟩ => ⟨S200000, .f32⟩
  | .hbm, ⟨41, _⟩ => ⟨S1000000x1, .i32⟩
  | .hbm, ⟨42, _⟩ => ⟨S200000, .f32⟩
  | .hbm, ⟨43, _⟩ => ⟨S_, .f32⟩
  | .hbm, ⟨44, _⟩ => ⟨S200000, .f32⟩
  | .hbm, ⟨45, _⟩ => ⟨S200000, .f32⟩
  | .hbm, ⟨46, _⟩ => ⟨S_, .f32⟩
  | .hbm, ⟨47, _⟩ => ⟨S200000, .f32⟩
  | .hbm, ⟨48, _⟩ => ⟨S200000, .f32⟩
  | .hbm, ⟨49, _⟩ => ⟨S200000x1, .f32⟩
  | .hbm, ⟨50, _⟩ => ⟨S_, .i32⟩
  | .hbm, ⟨51, _⟩ => ⟨S1000000, .i32⟩
  | .hbm, ⟨52, _⟩ => ⟨S1000000, .i1⟩
  | .hbm, ⟨53, _⟩ => ⟨S_, .i32⟩
  | .hbm, ⟨54, _⟩ => ⟨S1000000, .i32⟩
  | .hbm, ⟨55, _⟩ => ⟨S1000000, .i32⟩
  | .hbm, ⟨56, _⟩ => ⟨S1000000, .i32⟩
  | .hbm, ⟨57, _⟩ => ⟨S1000000x1, .i32⟩
  | .hbm, ⟨58, _⟩ => ⟨S1000000x128, .f32⟩
  | .hbm, ⟨59, _⟩ => ⟨S_, .f32⟩
  | .hbm, ⟨60, _⟩ => ⟨S200000x128, .f32⟩
  | .hbm, ⟨61, _⟩ => ⟨S1000000x1, .i32⟩
  | .hbm, ⟨62, _⟩ => ⟨S200000x128, .f32⟩
  | .hbm, ⟨63, _⟩ => ⟨S128x256, .f32⟩
  | .hbm, ⟨64, _⟩ => ⟨S128x256, .f32⟩
  | .hbm, ⟨65, _⟩ => ⟨S200000x256, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x128, .f32⟩
  | .hbm, ⟨75, _⟩ => ⟨S_, .f32⟩
  | .hbm, ⟨76, _⟩ => ⟨S200000x128, .f32⟩
  | .hbm, ⟨77, _⟩ => ⟨S1000000x1, .i32⟩
  | .hbm, ⟨78, _⟩ => ⟨S200000x128, .f32⟩
  | .hbm, ⟨79, _⟩ => ⟨S128x256, .f32⟩
  | .hbm, ⟨80, _⟩ => ⟨S128x256, .f32⟩
  | .hbm, ⟨81, _⟩ => ⟨S200000x256, .f32⟩
  | .hbm, ⟨82, _⟩ => ⟨S256x128, .f32⟩
  | .hbm, ⟨83, _⟩ => ⟨S200000x128, .f32⟩
  | .hbm, ⟨84, _⟩ => ⟨S256x128, .f32⟩
  | .hbm, ⟨85, _⟩ => ⟨S200000x128, .f32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1000000x128, .f32⟩
  | .hbm, ⟨95, _⟩ => ⟨S_, .f32⟩
  | .hbm, ⟨96, _⟩ => ⟨S200000x128, .f32⟩
  | .hbm, ⟨97, _⟩ => ⟨S1000000x1, .i32⟩
  | .hbm, ⟨98, _⟩ => ⟨S200000x128, .f32⟩
  | .hbm, ⟨99, _⟩ => ⟨S256x128, .f32⟩
  | .hbm, ⟨100, _⟩ => ⟨S200000x128, .f32⟩
  | .hbm, ⟨101, _⟩ => ⟨S_, .i32⟩
  | .hbm, ⟨102, _⟩ => ⟨S1000000, .i32⟩
  | .hbm, ⟨103, _⟩ => ⟨S1000000, .i1⟩
  | .hbm, ⟨104, _⟩ => ⟨S_, .i32⟩
  | .hbm, ⟨105, _⟩ => ⟨S1000000, .i32⟩
  | .hbm, ⟨106, _⟩ => ⟨S1000000, .i32⟩
  | .hbm, ⟨107, _⟩ => ⟨S1000000, .i32⟩
  | .hbm, ⟨108, _⟩ => ⟨S1000000x1, .i32⟩
  | .hbm, ⟨109, _⟩ => ⟨S1000000x128, .f32⟩
  | .hbm, ⟨110, _⟩ => ⟨S_, .f32⟩
  | .hbm, ⟨111, _⟩ => ⟨S200000x128, .f32⟩
  | .hbm, ⟨112, _⟩ => ⟨S1000000x1, .i32⟩
  | .hbm, ⟨113, _⟩ => ⟨S200000x128, .f32⟩
  | .hbm, ⟨114, _⟩ => ⟨S256x128, .f32⟩
  | .hbm, ⟨115, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S4000x256, .f32⟩
  | .local _ .vmem, ⟨10, _⟩ => ⟨S4000x256, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x256, .f32⟩
  | .local _ .vmem, ⟨18, _⟩ => ⟨S128x256, .f32⟩
  | .local _ .vmem, ⟨19, _⟩ => ⟨S256, .f32⟩
  | .local _ .vmem, ⟨20, _⟩ => ⟨S4000x256, .f32⟩
  | .local _ .vmem, ⟨21, _⟩ => ⟨S4000x256, .f32⟩
  | .local _ .vmem, ⟨22, _⟩ => ⟨S4000x256, .f32⟩
  | .local _ .vmem, ⟨23, _⟩ => ⟨S4000x256, .f32⟩
  | .local _ .vmem, ⟨24, _⟩ => ⟨S256x128, .f32⟩
  | .local _ .vmem, ⟨25, _⟩ => ⟨S4000x128, .f32⟩
  | .local _ .vmem, ⟨26, _⟩ => ⟨S4000x128, .f32⟩
  | .local _ .vmem, ⟨27, _⟩ => ⟨S4000x256, .f32⟩
  | .local _ .vmem, ⟨28, _⟩ => ⟨S4000x256, .f32⟩
  | .local _ .vmem, ⟨29, _⟩ => ⟨S256x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x1, .f32⟩
  | .local _ .vmem, ⟨35, _⟩ => ⟨S4000x1, .f32⟩
  | .local _ .vmem, ⟨36, _⟩ => ⟨S4000x256, .f32⟩
  | .local _ .vmem, ⟨37, _⟩ => ⟨S4000x256, .f32⟩
  | .local _ .vmem, ⟨38, _⟩ => ⟨S256x128, .f32⟩
  | .local _ .vmem, ⟨39, _⟩ => ⟨S128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S4000x128, .f32⟩
  | .local _ .vmem, ⟨44, _⟩ => ⟨S4000x1, .f32⟩
  | .local _ .vmem, ⟨45, _⟩ => ⟨S4000x1, .f32⟩
  | .local _ .vmem, ⟨46, _⟩ => ⟨S4000x256, .f32⟩
  | .local _ .vmem, ⟨47, _⟩ => ⟨S4000x256, .f32⟩
  | .local _ .vmem, ⟨48, _⟩ => ⟨S256x128, .f32⟩
  | .local _ .vmem, ⟨49, _⟩ => ⟨S128, .f32⟩
  | .local _ .vmem, ⟨50, _⟩ => ⟨S4000x128, .f32⟩
  | .local _ .vmem, ⟨51, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_cst_6 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_c_10 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem5_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S4000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S200000_S200000x1_0 : S200000.BroadcastsInDim S200000x1 (![0] : Fin 1 → Fin S200000x1.rank)
  bcast_S_S200000x128 : S_.BroadcastsInDim S200000x128 (![] : Fin 0 → Fin S200000x128.rank)
  transposes_S256x128_S128x256_1_0 : S256x128.Transposes [1, 0] S128x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  transposes_S128x256_S256x128_1_0 : S128x256.Transposes [1, 0] S256x128
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S200000_S1000000x1_S1000000_n_0_0_1_wf : ScatterDims.WF S200000 S1000000x1 S1000000 [] [0] [0] 1
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  dot_S4000x128_S128x256_S4000x256_1_0_0_1_n_n_wf : DotDims.WF S4000x128 S128x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S200000x1.size a
  hwx0_1 : ∀ i : grid0.Coords, EltTy.bits .f32 = 32 ∨ (Rect.block (s := S200000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S200000x256.size a
  hwx0_6 : ∀ i : grid0.Coords, EltTy.bits .f32 = 32 ∨ (Rect.block (s := S200000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S200000x1.size a
  hwx1_1 : ∀ i : grid1.Coords, EltTy.bits .f32 = 32 ∨ (Rect.block (s := S200000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S200000x128.size a
  hwx1_2 : ∀ i : grid1.Coords, EltTy.bits .f32 = 32 ∨ (Rect.block (s := S200000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x256.size a ≤ S200000x256.size a
  hwx1_6 : ∀ i : grid1.Coords, EltTy.bits .f32 = 32 ∨ (Rect.block (s := S200000x256) S4000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S200000x128.size a
  hwx2_2 : ∀ i : grid2.Coords, EltTy.bits .f32 = 32 ∨ (Rect.block (s := S200000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S200000x256.size a
  hwx3_0 : ∀ i : grid3.Coords, EltTy.bits .f32 = 32 ∨ (Rect.block (s := S200000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S200000x128.size a
  hwx3_2 : ∀ i : grid3.Coords, EltTy.bits .f32 = 32 ∨ (Rect.block (s := S200000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S200000x128.size a
  hwx4_0 : ∀ i : grid4.Coords, EltTy.bits .f32 = 32 ∨ (Rect.block (s := S200000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S200000x1.size a
  hwx4_1 : ∀ i : grid4.Coords, EltTy.bits .f32 = 32 ∨ (Rect.block (s := S200000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x256.size a ≤ S200000x256.size a
  hwx4_2 : ∀ i : grid4.Coords, EltTy.bits .f32 = 32 ∨ (Rect.block (s := S200000x256) S4000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x128.size a ≤ S200000x128.size a
  hwx4_5 : ∀ i : grid4.Coords, EltTy.bits .f32 = 32 ∨ (Rect.block (s := S200000x128) S4000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S200000x128.size a
  hwx5_0 : ∀ i : grid5.Coords, EltTy.bits .f32 = 32 ∨ (Rect.block (s := S200000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S200000x1.size a
  hwx5_1 : ∀ i : grid5.Coords, EltTy.bits .f32 = 32 ∨ (Rect.block (s := S200000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x256.size a ≤ S200000x256.size a
  hwx5_2 : ∀ i : grid5.Coords, EltTy.bits .f32 = 32 ∨ (Rect.block (s := S200000x256) S4000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S4000x128.size a ≤ S200000x128.size a
  hwx5_5 : ∀ i : grid5.Coords, EltTy.bits .f32 = 32 ∨ (Rect.block (s := S200000x128) S4000x128.size (cc5_transform_5 i) (hinb5_5 i)).WholeWords (EltTy.packing .f32)

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v35) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v48) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S4000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S4000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S4000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v77) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S4000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v78) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg15) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S4000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S200000x128 : Shape := ⟨2, ![200000, 128]⟩
abbrev S2x1000000 : Shape := ⟨2, ![2, 1000000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S200000x256 : Shape := ⟨2, ![200000, 256]⟩
abbrev S1x256 : Shape := ⟨2, ![1, 256]⟩
abbrev S1000000x256 : Shape := ⟨2, ![1000000, 256]⟩
abbrev S1x128 : Shape := ⟨2, ![1, 128]⟩

abbrev nBuf : Space → Nat
  | .hbm => 170
  | .vmem => 0
  | .smem => 0
  | _ => 0

abbrev hbmTy0_0 (i : Nat) : BufTy := match i % 128 with
  | 0 => ⟨S200000x128, .f32⟩
  | 1 => ⟨S200000x128, .f32⟩
  | 2 => ⟨S2x1000000, .i32⟩
  | 3 => ⟨S2x1000000, .i32⟩
  | 4 => ⟨S256x128, .f32⟩
  | 5 => ⟨S256x128, .f32⟩
  | 6 => ⟨S256, .f32⟩
  | 7 => ⟨S256x128, .f32⟩
  | 8 => ⟨S256x128, .f32⟩
  | 9 => ⟨S256, .f32⟩
  | 10 => ⟨S128x256, .f32⟩
  | 11 => ⟨S128x256, .f32⟩
  | 12 => ⟨S128, .f32⟩
  | 13 => ⟨S128x256, .f32⟩
  | 14 => ⟨S128x256, .f32⟩
  | 15 => ⟨S128, .f32⟩
  | 16 => ⟨S1x1000000, .i32⟩
  | 17 => ⟨S1000000, .i32⟩
  | 18 => ⟨S1x1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x128, .f32⟩
  | 29 => ⟨S_, .f32⟩
  | 30 => ⟨S200000x128, .f32⟩
  | 31 => ⟨S1000000x1, .i32⟩
  | 32 => ⟨S200000x128, .f32⟩
  | 33 => ⟨S_, .f32⟩
  | 34 => ⟨S1000000, .f32⟩
  | 35 => ⟨S_, .f32⟩
  | 36 => ⟨S200000, .f32⟩
  | 37 => ⟨S1000000x1, .i32⟩
  | 38 => ⟨S200000, .f32⟩
  | 39 => ⟨S_, .f32⟩
  | 40 => ⟨S200000, .f32⟩
  | 41 => ⟨S200000, .f32⟩
  | 42 => ⟨S200000x1, .f32⟩
  | 43 => ⟨S200000x128, .f32⟩
  | 44 => ⟨S200000x128, .f32⟩
  | 45 => ⟨S128x256, .f32⟩
  | 46 => ⟨S200000x256, .f32⟩
  | 47 => ⟨S1x256, .f32⟩
  | 48 => ⟨S200000x256, .f32⟩
  | 49 => ⟨S200000x256, .f32⟩
  | 50 => ⟨S128x256, .f32⟩
  | 51 => ⟨S200000x256, .f32⟩
  | 52 => ⟨S200000x256, .f32⟩
  | 53 => ⟨S_, .f32⟩
  | 54 => ⟨S200000x256, .f32⟩
  | 55 => ⟨S200000x256, .f32⟩
  | 56 => ⟨S1x1000000, .i32⟩
  | 57 => ⟨S1000000, .i32⟩
  | 58 => ⟨S1x1000000, .i32⟩
  | 59 => ⟨S1000000, .i32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x128, .f32⟩
  | 69 => ⟨S_, .f32⟩
  | 70 => ⟨S200000x128, .f32⟩
  | 71 => ⟨S1000000x1, .i32⟩
  | 72 => ⟨S200000x128, .f32⟩
  | 73 => ⟨S_, .f32⟩
  | 74 => ⟨S1000000, .f32⟩
  | 75 => ⟨S_, .f32⟩
  | 76 => ⟨S200000, .f32⟩
  | 77 => ⟨S1000000x1, .i32⟩
  | 78 => ⟨S200000, .f32⟩
  | 79 => ⟨S_, .f32⟩
  | 80 => ⟨S200000, .f32⟩
  | 81 => ⟨S200000, .f32⟩
  | 82 => ⟨S200000x1, .f32⟩
  | 83 => ⟨S200000x128, .f32⟩
  | 84 => ⟨S200000x128, .f32⟩
  | 85 => ⟨S128x256, .f32⟩
  | 86 => ⟨S200000x256, .f32⟩
  | 87 => ⟨S1x256, .f32⟩
  | 88 => ⟨S200000x256, .f32⟩
  | 89 => ⟨S200000x256, .f32⟩
  | 90 => ⟨S128x256, .f32⟩
  | 91 => ⟨S200000x256, .f32⟩
  | 92 => ⟨S200000x256, .f32⟩
  | 93 => ⟨S_, .f32⟩
  | 94 => ⟨S200000x256, .f32⟩
  | 95 => ⟨S200000x256, .f32⟩
  | 96 => ⟨S1x1000000, .i32⟩
  | 97 => ⟨S1000000, .i32⟩
  | 98 => ⟨S1x1000000, .i32⟩
  | 99 => ⟨S1000000, .i32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000x256, .f32⟩
  | 109 => ⟨S_, .f32⟩
  | 110 => ⟨S200000x256, .f32⟩
  | 111 => ⟨S1000000x1, .i32⟩
  | 112 => ⟨S200000x256, .f32⟩
  | 113 => ⟨S_, .f32⟩
  | 114 => ⟨S1000000, .f32⟩
  | 115 => ⟨S_, .f32⟩
  | 116 => ⟨S200000, .f32⟩
  | 117 => ⟨S1000000x1, .i32⟩
  | 118 => ⟨S200000, .f32⟩
  | 119 => ⟨S_, .f32⟩
  | 120 => ⟨S200000, .f32⟩
  | 121 => ⟨S200000, .f32⟩
  | 122 => ⟨S200000x1, .f32⟩
  | 123 => ⟨S200000x256, .f32⟩
  | 124 => ⟨S200000x256, .f32⟩
  | 125 => ⟨S256x128, .f32⟩
  | 126 => ⟨S200000x128, .f32⟩
  | 127 => ⟨S1x128, .f32⟩
  | _ => ⟨S200000x128, .f32⟩

abbrev hbmTy0_1 (i : Nat) : BufTy := match i % 128 with
  | 0 => ⟨S200000x128, .f32⟩
  | 1 => ⟨S200000x128, .f32⟩
  | 2 => ⟨S256x128, .f32⟩
  | 3 => ⟨S200000x128, .f32⟩
  | 4 => ⟨S200000x128, .f32⟩
  | 5 => ⟨S1x1000000, .i32⟩
  | 6 => ⟨S1000000, .i32⟩
  | 7 => ⟨S1x1000000, .i32⟩
  | 8 => ⟨S1000000, .i32⟩
  | 9 => ⟨S_, .i32⟩
  | 10 => ⟨S1000000, .i32⟩
  | 11 => ⟨S1000000, .i1⟩
  | 12 => ⟨S_, .i32⟩
  | 13 => ⟨S1000000, .i32⟩
  | 14 => ⟨S1000000, .i32⟩
  | 15 => ⟨S1000000, .i32⟩
  | 16 => ⟨S1000000x1, .i32⟩
  | 17 => ⟨S1000000x256, .f32⟩
  | 18 => ⟨S_, .f32⟩
  | 19 => ⟨S200000x256, .f32⟩
  | 20 => ⟨S1000000x1, .i32⟩
  | 21 => ⟨S200000x256, .f32⟩
  | 22 => ⟨S_, .f32⟩
  | 23 => ⟨S1000000, .f32⟩
  | 24 => ⟨S_, .f32⟩
  | 25 => ⟨S200000, .f32⟩
  | 26 => ⟨S1000000x1, .i32⟩
  | 27 => ⟨S200000, .f32⟩
  | 28 => ⟨S_, .f32⟩
  | 29 => ⟨S200000, .f32⟩
  | 30 => ⟨S200000, .f32⟩
  | 31 => ⟨S200000x1, .f32⟩
  | 32 => ⟨S200000x256, .f32⟩
  | 33 => ⟨S200000x256, .f32⟩
  | 34 => ⟨S256x128, .f32⟩
  | 35 => ⟨S200000x128, .f32⟩
  | 36 => ⟨S1x128, .f32⟩
  | 37 => ⟨S200000x128, .f32⟩
  | 38 => ⟨S200000x128, .f32⟩
  | 39 => ⟨S256x128, .f32⟩
  | 40 => ⟨S200000x128, .f32⟩
  | 41 => ⟨S200000x128, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_4 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_call1_cst : Ref sig .tc := ⟨.hbm, 93, rfl⟩
abbrev main_call1_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_10 : Ref sig .tc := ⟨.hbm, 100, rfl⟩
abbrev main_v68 : Ref sig .tc := ⟨.hbm, 101, rfl⟩
abbrev main_v69 : Ref sig .tc := ⟨.hbm, 102, rfl⟩
abbrev main_c_11 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_13 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_16 : Ref sig .tc := ⟨.hbm, 137, rfl⟩
abbrev main_v99 : Ref sig .tc := ⟨.hbm, 138, rfl⟩
abbrev main_v100 : Ref sig .tc := ⟨.hbm, 139, rfl⟩
abbrev main_c_17 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_18 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_19 : Ref sig .tc := ⟨.hbm, 150, rfl⟩
abbrev main_v109 : Ref sig .tc := ⟨.hbm, 151, rfl⟩
abbrev main_cst_20 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_21 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S256x128_S128x256_1_0 : S256x128.Transposes [1, 0] S128x256
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S200000x1_S200000x256_0_1 : S200000x1.BroadcastsInDim S200000x256 (![0, 1] : Fin 2 → Fin S200000x256.rank)
  transposes_S128x256_S256x128_1_0 : S128x256.Transposes [1, 0] S256x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x256_S200000x256_1_0_0_1_n_n_wf : DotDims.WF S200000x128 S128x256 S200000x256 [1] [0] [0] [1] [] []
  gather_S200000x256_S1000000x1_S1000000x256_1_0_n_n_0_1_1256_wf : GatherDims.WF S200000x256 S1000000x1 S1000000x256 [1] [0] [] [0] [] 1 ![1, 256]
  scatter_S200000x256_S1000000x1_S1000000x256_1_0_0_1_wf : ScatterDims.WF S200000x256 S1000000x1 S1000000x256 [1] [0] [0] 1
  dot_S200000x256_S256x128_S200000x128_1_0_0_1_n_n_wf : DotDims.WF S200000x256 S256x128 S200000x128 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S1000000x1_S1000000x256_1_0_n_n_0_1_1256 : GatherDims S200000x256 S1000000x1 S1000000x256 where
  offsetDims := [1]
  collapsedSliceDims := [0]
  operandBatchingDims := []
  startIndicesBatchingDims := []
  startIndexMap := [0]
  indexVectorDim := 1
  sliceSizes := ![1, 256]
  wf := gather_S200000x256_S1000000x1_S1000000x256_1_0_n_n_0_1_1256_wf
def scatter_S200000x256_S1000000x1_S1000000x256_1_0_0_1 : ScatterDims S200000x256 S1000000x1 S1000000x256 where
  updateWindowDims := [1]
  insertedWindowDims := [0]
  scatterDimsToOperandDims := [0]
  indexVectorDim := 1
  wf := scatter_S200000x256_S1000000x1_S1000000x256_1_0_0_1_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf

class Facts : Prop extends Facts₀ where

variable [Facts]
-- ==== Proof.KRun.lean ====
/-
  The tiled program's run, with its two results named: every weakly fair execution of @main ends, without a fault,
  with each result array at the contents the last boundary of the run assigns to it (the fold of the host stretches
  and of the six regions' write-backs from the launch memory), and with the argument arrays as launched.
-/
import proofs.«117736_j69020124446814_2_alg».proof.Proof.Gen.KernelIdeal.Frame

set_option maxRecDepth 16384

noncomputable section

namespace Cert.KernelIdeal.Tiled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the two result arrays at the last boundary's contents. -/
theorem run_results : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_v67) = W12 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       h c _ (mem_uc main_v67 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Tiled

end
-- ==== Proof.Spec.lean ====
/-
  The two-layer mean-aggregating graph convolution, written entry by entry on the extended reals.

  For one edge type the destination row `p` receives the sum, over the edges that point at `p`, of the source rows;
  `c p ≥ 1` is the number of those edges clamped below by one. One layer's result at `(p, q)` is
      (mean of the incoming rows) · Wl + (the destination row) · Wr + b,
  with a rectifier after the first layer.

  The tiled program multiplies the summed rows by the reciprocal `1 / c p` and, in the second layer, applies `Wl` to the
  source rows BEFORE they are summed over the edges; the reference divides the summed rows by `c p` and applies `Wl` after.
  The entry functions of both arrangements are stated here over arrays indexed by coordinates.
-/
import Idealize.ShloMosaic.PureOps.Ideal
import Idealize.ShloMosaic.Lib.ValueIdx

noncomputable section

namespace Cert.Spec

open Idealize.ShloMosaic Idealize.ShloMosaic.ValueIdx

/-- A matrix of extended reals with `n` rows and `c` columns. -/
abbrev Mat (n c : ℕ) := (⟨2, ![n, c]⟩ : Shape).Idx → EReal
/-- A vector of extended reals of length `n`. -/
abbrev Vect (n : ℕ) := (⟨1, ![n]⟩ : Shape).Idx → EReal

/-- A matrix from its entry function. -/
def ofEntries {n c : ℕ} (f : Fin n → Fin c → EReal) : Mat n c := fun i => f (i 0) (i 1)

@[simp] theorem ofEntries_ix2 {n c : ℕ} (f : Fin n → Fin c → EReal) (p : Fin n) (q : Fin c) :
    ofEntries f (ix2 p q) = f p q := rfl

/-- The plain product of two matrices at an entry. -/
def prod {N K C : ℕ} (x : Mat N K) (w : Mat K C) (p : Fin N) (q : Fin C) : EReal :=
  ∑ k : Fin K, x (ix2 p k) * w (ix2 k q)

/-- First layer as the tiled program computes it: the summed rows `ms` scaled by the per-row reciprocal `inv` (a column),
    times `wl`, plus the destination rows times `wr`, plus the bias, rectified. -/
def tiledFirst {N K C : ℕ} (ms : Mat N K) (inv : Mat N 1) (xd : Mat N K) (wl wr : Mat K C) (b : Vect C)
    (p : Fin N) (q : Fin C) : EReal :=
  max ((∑ k : Fin K, (ms (ix2 p k) * inv (ix2 p (0 : Fin 1))) * wl (ix2 k q)) + prod xd wr p q + b (ix1 q)) 0

/-- Second layer as the tiled program computes it: the destination rows times `wr`, plus the summed PROJECTED rows
    `mp` scaled by the per-row reciprocal, plus the bias. -/
def tiledSecond {N K C : ℕ} (mp : Mat N C) (inv : Mat N 1) (xd : Mat N K) (wr : Mat K C) (b : Vect C)
    (p : Fin N) (q : Fin C) : EReal :=
  prod xd wr p q + mp (ix2 p q) * inv (ix2 p (0 : Fin 1)) + b (ix1 q)

/-- One layer as the reference computes it (before any rectifier): the summed rows divided by the per-row count `c`
    (a vector), times `wl`, plus the bias, plus the destination rows times `wr`. -/
def refLayer {N K C : ℕ} (ms : Mat N K) (c : Vect N) (xd : Mat N K) (wl wr : Mat K C) (b : Vect C)
    (p : Fin N) (q : Fin C) : EReal :=
  (∑ k : Fin K, Ideal.div (ms (ix2 p k)) (c (ix1 p)) * wl (ix2 k q)) + b (ix1 q) + prod xd wr p q

/-! ## Sums over the edges that point at a row -/

/-- The source row edge `e` reads: the entry of the index column read as a signed integer and clamped into
    `[0, N − 1]`. -/
def rowOf {E : ℕ} (N : ℕ) (hN : 0 < N) (sc : IVec ⟨2, ![E, 1]⟩ 32) (e : Fin E) : Fin N :=
  ⟨min (sc (ix2 e (0 : Fin 1))).toInt.toNat (N - 1), by omega⟩

/-- Edge `e` points at destination row `p`: the entry of the index column, read as a signed integer, is `p`
    (an entry outside `[0, N)` points at no row). -/
def Hits {E N : ℕ} (dc : IVec ⟨2, ![E, 1]⟩ 32) (e : Fin E) (p : Fin N) : Prop :=
  (dc (ix2 e (0 : Fin 1))).toInt = (p.val : Int)

instance {E N : ℕ} (dc : IVec ⟨2, ![E, 1]⟩ 32) (e : Fin E) (p : Fin N) : Decidable (Hits dc e p) := by
  unfold Hits; infer_instance

/-- Row `p` of the segment sum: the sum, over the edges that point at `p`, of the source rows they read. -/
def segSum {E N K : ℕ} (hN : 0 < N) (sc dc : IVec ⟨2, ![E, 1]⟩ 32) (x : Mat N K) : Mat N K :=
  ofEntries fun p k => ∑ e : Fin E, if Hits dc e p then x (ix2 (rowOf N hN sc e) k) else 0

/-- An extended real that is a real number. -/
def Fin' (x : EReal) : Prop := x ≠ ⊤ ∧ x ≠ ⊥

/-! ## The two arrangements of a layer, as whole matrices -/

/-- The hidden layer in the reference's arrangement: rectified `refLayer` of the segment sum. -/
def refHidden {E N K C : ℕ} (hN : 0 < N) (sc dc : IVec ⟨2, ![E, 1]⟩ 32) (c : Vect N) (xs xd : Mat N K)
    (wl wr : Mat K C) (b : Vect C) : Mat N C :=
  ofEntries fun p q => max (refLayer (segSum hN sc dc xs) c xd wl wr b p q) 0

/-- The output layer in the reference's arrangement. -/
def refOut {E N K C : ℕ} (hN : 0 < N) (sc dc : IVec ⟨2, ![E, 1]⟩ 32) (c : Vect N) (hs hd : Mat N K)
    (wl wr : Mat K C) (b : Vect C) : Mat N C :=
  ofEntries (refLayer (segSum hN sc dc hs) c hd wl wr b)

/-- The hidden layer in the tiled arrangement. -/
def tiledHidden {E N K C : ℕ} (hN : 0 < N) (sc dc : IVec ⟨2, ![E, 1]⟩ 32) (inv : Mat N 1) (xs xd : Mat N K)
    (wl wr : Mat K C) (b : Vect C) : Mat N C :=
  ofEntries (tiledFirst (segSum hN sc dc xs) inv xd wl wr b)

/-- The output layer in the tiled arrangement: the source rows are projected by `wl` first, then summed over the edges. -/
def tiledOut {E N K C : ℕ} (hN : 0 < N) (sc dc : IVec ⟨2, ![E, 1]⟩ 32) (inv : Mat N 1) (hs hd : Mat N K)
    (wl wr : Mat K C) (b : Vect C) : Mat N C :=
  ofEntries (tiledSecond (segSum hN sc dc (ofEntries (prod hs wl))) inv hd wr b)

end Cert.Spec

end
-- ==== Proof.HostDefs.lean ====
/-
  The host-side pieces both programs compute in the same way from an edge list `edge : [2, E]` (row 0 the source
  indices, row 1 the destination indices) and from a weight matrix, as whole arrays:

  * `srcCol`: row 0, with a negative index moved up by the number of rows `N`, laid as a column `[E, 1]`;
  * `dstCol`: row 1 laid as a column `[E, 1]`;
  * `cmax`: per destination row, the number of edges that point at it, clamped below by one;
  * `invCol`: the reciprocals `1 / cmax`, laid as a column `[N, 1]`;
  * `trA`, `trB`: a weight matrix transposed.
-/
import Idealize.ShloMosaic.PureOps.Ideal
import Idealize.ShloMosaic.PureOps.ShapeOps
import Idealize.ShloMosaic.Lib.ValueIdx

noncomputable section

namespace Cert.HostDefs

open Idealize.ShloMosaic

abbrev SEdge : Shape := ⟨2, ![2, 1000000]⟩
abbrev SRow : Shape := ⟨2, ![1, 1000000]⟩
abbrev SE : Shape := ⟨1, ![1000000]⟩
abbrev SECol : Shape := ⟨2, ![1000000, 1]⟩
abbrev SN : Shape := ⟨1, ![200000]⟩
abbrev SNCol : Shape := ⟨2, ![200000, 1]⟩
abbrev S0 : Shape := ⟨0, ![]⟩

theorem slices0 : SEdge.Slices ![0, 0] SRow := by decide
theorem slices1 : SEdge.Slices ![1, 0] SRow := by decide
theorem castRow : SRow.ShapeCasts SE := by decide
theorem bcastE : S0.BroadcastsInDim SE (![] : Fin 0 → Fin SE.rank) := by decide
theorem bcastECol : SE.BroadcastsInDim SECol (![0] : Fin 1 → Fin SECol.rank) := by decide
theorem bcastN : S0.BroadcastsInDim SN (![] : Fin 0 → Fin SN.rank) := by decide
theorem bcastNCol : SN.BroadcastsInDim SNCol (![0] : Fin 1 → Fin SNCol.rank) := by decide
theorem flatWf : ScatterDims.WF SN SECol SE [] [0] [0] 1 := by decide
theorem trAh : (⟨2, ![256, 128]⟩ : Shape).Transposes [1, 0] ⟨2, ![128, 256]⟩ := by decide
theorem trBh : (⟨2, ![128, 256]⟩ : Shape).Transposes [1, 0] ⟨2, ![256, 128]⟩ := by decide

/-- The dimension numbers of the counting scatter: a flat `[N]` operand, one index per update. -/
def flatScatter : ScatterDims SN SECol SE where
  updateWindowDims := []
  insertedWindowDims := [0]
  scatterDimsToOperandDims := [0]
  indexVectorDim := 1
  wf := flatWf

/-- Row 0 of the edge list as a flat array. -/
def srcRow (edge : IVec SEdge 32) : IVec SE 32 := shapeCast _ (extractStridedSlice SRow ![0, 0] edge slices0) castRow
/-- Row 1 of the edge list as a flat array. -/
def dstRow (edge : IVec SEdge 32) : IVec SE 32 := shapeCast _ (extractStridedSlice SRow ![1, 0] edge slices1) castRow

/-- The source indices, a negative one moved up by 200000, as a column. -/
def srcCol (edge : IVec SEdge 32) : IVec SECol 32 :=
  broadcastInDim SECol ![0] bcastECol
    (select (cmpi .slt (srcRow edge) (broadcastInDim SE ![] bcastE (constantI S0 32 0#32)))
      (addi (srcRow edge) (broadcastInDim SE ![] bcastE (constantI S0 32 200000#32))) (srcRow edge))

/-- The destination indices as a column. -/
def dstCol (edge : IVec SEdge 32) : IVec SECol 32 := broadcastInDim SECol ![0] bcastECol (dstRow edge)

/-- Per destination row: the number of edges pointing at it (ones scatter-added into zeros), clamped below by one. -/
def cmax (edge : IVec SEdge 32) : FVec Ideal SN .f32 :=
  maximumf
    (Host.scatterAdd flatScatter (broadcastInDim SN ![] bcastN (constant S0 .f32 0x00000000#32)) (dstCol edge)
      (broadcastInDim SE ![] bcastE (constant S0 .f32 0x3F800000#32)))
    (broadcastInDim SN ![] bcastN (constant S0 .f32 0x3F800000#32))

/-- The reciprocals `1 / cmax` as a column. -/
def invCol (edge : IVec SEdge 32) : FVec Ideal SNCol .f32 :=
  broadcastInDim SNCol ![0] bcastNCol
    (Host.divf (broadcastInDim SN ![] bcastN (constant S0 .f32 0x3F800000#32)) (cmax edge))

/-- A `[256, 128]` weight matrix transposed. -/
def trA (W : FVec Ideal ⟨2, ![256, 128]⟩ .f32) : FVec Ideal ⟨2, ![128, 256]⟩ .f32 := transpose ⟨2, ![128, 256]⟩ [1, 0] W trAh
/-- A `[128, 256]` weight matrix transposed. -/
def trB (W : FVec Ideal ⟨2, ![128, 256]⟩ .f32) : FVec Ideal ⟨2, ![256, 128]⟩ .f32 := transpose ⟨2, ![256, 128]⟩ [1, 0] W trBh

end Cert.HostDefs

end
-- ==== Proof.LibSegmentIndex.lean ====
/-
  Indexing by a column of integers, read at an entry: the two halves of a segment sum.

  `x[idx]` for a flat array `x : [N]` and a column of signed integers `idx : [E, 1]` is a gather: entry `e` of the
  result is `x` at `idx[e, 0]` read as a signed integer and clamped into `[0, N − 1]`.

  Rows `upd : [E, C]` added into `[N, C]` at the rows a column `idx : [E, 1]` names is a scatter: update `(e, j)`
  lands on `(idx[e, 0], j)` with `idx[e, 0]` read signed and NOT clamped, and is dropped when that row is outside
  `[0, N)`. So whenever update `(e, j)` lands on `(n, k)`, the signed value of `idx[e, 0]` is `n` and `j = k`.

  Together: a gather through the same column at an entry whose update lands on row `n` reads `x` at `n` — the
  clamp is the identity on a row that is in range.
-/
import Idealize.ShloMosaic.Lib.ValueIdx
import Idealize.ShloMosaic.PureOps.ShapeOps

namespace Cert.Lib.SegmentIndex

open Idealize.ShloMosaic Idealize.ShloMosaic.ValueIdx

variable {α : Type}

/-! ## The gather of a flat array through a column of indices -/

/-- The dimension numbers of `x[idx]` for `x : [N]`, `idx : [E, 1]`, result `[E]`: the operand's one axis collapsed
    and indexed, one-element slices, the index vector along axis 1. -/
abbrev colGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the operand at `idx[e, 0]`, read signed and clamped into `[0, N − 1]`. -/
theorem gather_col_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (colGatherDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (colGatherDims N E wf).start (ix1 e) idx 0 + (colGatherDims N E wf).batchCoord (ix1 e) 0
    + (colGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colGatherDims N E wf).startIndexMap from List.mem_singleton.mpr rfl)]
  have hsi : (colGatherDims N E wf).siIdx (ix1 e) ⟨List.idxOf (0 : Fin 1) (colGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scattered at the rows a column of indices names -/

/-- The dimension numbers of `zeros([N, C]).at[idx].add(upd)` for `idx : [E, 1]`, `upd : [E, C]`: the updates' axis 1
    is the window axis, the operand's axis 0 is inserted and indexed, the index vector along axis 1. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update `(e, j)` lands: if on `(n, k)`, then `idx[e, 0]` read signed is `n`, and `j = k`. -/
theorem resultIdx_rows {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) (n : Fin N) (k : Fin C)
    (h : (rowScatterDims N C E wf).resultIdx? (ix2 e j) idx = some (ix2 n k)) :
    (idx (ix2 e (0 : Fin 1))).toInt = (n.val : Int) ∧ j = k := by
  have hs0 : (rowScatterDims N C E wf).start (ix2 e j) idx 0 = (idx (ix2 e (0 : Fin 1))).toInt := by
    unfold ScatterDims.start
    rw [dif_pos (show (0 : Fin 2) ∈ (rowScatterDims N C E wf).scatterDimsToOperandDims from List.mem_singleton.mpr rfl)]
    have hsi : (rowScatterDims N C E wf).siIdx (ix2 e j)
        ⟨List.idxOf (0 : Fin 2) (rowScatterDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N C E wf).start (ix2 e j) idx 1 = 0 := by
    unfold ScatterDims.start
    have hmem : (1 : Fin 2) ∉ (rowScatterDims N C E wf).scatterDimsToOperandDims := by
      show (1 : Fin 2) ∉ ([0] : List (Fin 2)); decide
    rw [dif_neg hmem]
  have hw0 : (rowScatterDims N C E wf).window (ix2 e j) 0 = 0 := by
    unfold ScatterDims.window
    have hmem : (0 : Fin 2) ∉ (rowScatterDims N C E wf).sKept := by
      show (0 : Fin 2) ∉ (List.finRange 2).filter (· ∉ ([0] : List (Fin 2))); decide
    rw [dif_neg hmem]
  have hw1 : (rowScatterDims N C E wf).window (ix2 e j) 1 = j.val := by
    unfold ScatterDims.window
    have hmem : (1 : Fin 2) ∈ (rowScatterDims N C E wf).sKept := by
      show (1 : Fin 2) ∈ (List.finRange 2).filter (· ∉ ([0] : List (Fin 2))); decide
    rw [dif_pos hmem]
    rfl
  unfold ScatterDims.resultIdx? at h
  split at h
  · have hi := Option.some.inj h
    have h0 : ((rowScatterDims N C E wf).start (ix2 e j) idx 0 + (rowScatterDims N C E wf).window (ix2 e j) 0).toNat
        = n.val := congrArg (fun f : (⟨2, ![N, C]⟩ : Shape).Idx => (f 0).val) hi
    have h1 : ((rowScatterDims N C E wf).start (ix2 e j) idx 1 + (rowScatterDims N C E wf).window (ix2 e j) 1).toNat
        = k.val := congrArg (fun f : (⟨2, ![N, C]⟩ : Shape).Idx => (f 1).val) hi
    rename_i hall
    have hb0 := (hall 0).1
    rw [hs0, hw0] at h0 hb0
    rw [hs1, hw1] at h1
    refine ⟨by omega, Fin.ext (by omega)⟩
  · cases h

end Cert.Lib.SegmentIndex
-- ==== Proof.LibScatterRows.lean ====
/-
  Rows scattered at the rows a column of integers names, read at an entry.

  For `upd : [E, C]` added into `x : [N, C]` at the rows a column `idx : [E, 1]` names, update `(e, j)` lands on
  `(n, k)` exactly when `idx[e, 0]` read signed is `n` and `j = k`. Hence entry `(n, c)` of the result is
  `x[n, c] + ∑ e, if idx[e, 0] = n then upd[e, c] else 0`: each column is scattered independently of the others, so
  a window of columns of the result is the scatter of the same window of columns of the operand and of the updates.
-/
import Idealize.ShloMosaic.Lib.ValueIdx
import Idealize.ShloMosaic.PureOps.Ideal
import Idealize.ShloMosaic.PureOps.Contract
import Idealize.ShloMosaic.Lib.Pipeline.Value
import proofs.«117736_j69020124446814_2_alg».proof.Proof.LibSegmentIndex

noncomputable section

namespace Cert.Lib.ScatterRows

open Idealize.ShloMosaic Idealize.ShloMosaic.ValueIdx Cert.Lib.SegmentIndex

/-! ## Where an update lands -/

private theorem start0 {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) :
    (rowScatterDims N C E wf).start (ix2 e j) idx 0 = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e j)
      ⟨List.idxOf (0 : Fin 2) (rowScatterDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem start1 {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) :
    (rowScatterDims N C E wf).start (ix2 e j) idx 1 = 0 := by
  unfold ScatterDims.start
  have hmem : (1 : Fin 2) ∉ (rowScatterDims N C E wf).scatterDimsToOperandDims := by
    show (1 : Fin 2) ∉ ([0] : List (Fin 2)); decide
  rw [dif_neg hmem]

private theorem window0 {N C E : Nat}
    (wf : ScatterDims.WF ⟨2, ![N, C]⟩ ⟨2, ![E, 1]⟩ ⟨2, ![E, C]⟩ [1] [0] [0] 1)
    (e : Fin E) (j : Fin C) :
    (rowScatterDims N C E wf).window (ix2 e j) 0 = 0 := by
  unfold ScatterDims.window
  have hmem : (0 : Fin 2) ∉ (rowScatterDims N C E wf).sKept := by
    show (0 : Fin 2) ∉ (List.finRange 2).filter (· ∉ ([0] : List (Fin 2))); decide
  rw [dif_neg hmem]

private theorem window1 {N C E : Nat}
    (wf : ScatterDims.WF ⟨2, ![N, C]⟩ ⟨2, ![E, 1]⟩ ⟨2, ![E, C]⟩ [1] [0] [0] 1)
    (e : Fin E) (j : Fin C) :
    (rowScatterDims N C E wf).window (ix2 e j) 1 = j.val := by
  unfold ScatterDims.window
  have hmem : (1 : Fin 2) ∈ (rowScatterDims N C E wf).sKept := by
    show (1 : Fin 2) ∈ (List.finRange 2).filter (· ∉ ([0] : List (Fin 2))); decide
  rw [dif_pos hmem]
  rfl

/-- Update `(e, j)` lands on `(n, k)` exactly when `idx[e, 0]` read signed is `n` and `j = k`. -/
theorem resultIdx_rows_iff {N C E w : Nat}
    (wf : ScatterDims.WF ⟨2, ![N, C]⟩ ⟨2, ![E, 1]⟩ ⟨2, ![E, C]⟩ [1] [0] [0] 1)
    (idx : IVec ⟨2, ![E, 1]⟩ w) (e : Fin E) (j : Fin C) (n : Fin N) (k : Fin C) :
    (rowScatterDims N C E wf).resultIdx? (ix2 e j) idx = some (ix2 n k)
      ↔ (idx (ix2 e (0 : Fin 1))).toInt = (n.val : Int) ∧ j = k := by
  refine ⟨resultIdx_rows wf idx e j n k, ?_⟩
  rintro ⟨hn, rfl⟩
  have hall : ∀ a : Fin 2,
      0 ≤ (rowScatterDims N C E wf).start (ix2 e j) idx a + (rowScatterDims N C E wf).window (ix2 e j) a
      ∧ (rowScatterDims N C E wf).start (ix2 e j) idx a + (rowScatterDims N C E wf).window (ix2 e j) a
          < (⟨2, ![N, C]⟩ : Shape).size a := by
    intro a
    match a with
    | ⟨0, _⟩ =>
      have h0 := start0 wf idx e j
      have w0 := window0 wf e j
      show 0 ≤ (rowScatterDims N C E wf).start (ix2 e j) idx 0 + ((rowScatterDims N C E wf).window (ix2 e j) 0 : Nat)
        ∧ (rowScatterDims N C E wf).start (ix2 e j) idx 0 + ((rowScatterDims N C E wf).window (ix2 e j) 0 : Nat) < (N : Int)
      rw [h0, w0, hn]
      have := n.isLt
      omega
    | ⟨1, _⟩ =>
      have h1 := start1 wf idx e j
      have w1 := window1 wf e j
      show 0 ≤ (rowScatterDims N C E wf).start (ix2 e j) idx 1 + ((rowScatterDims N C E wf).window (ix2 e j) 1 : Nat)
        ∧ (rowScatterDims N C E wf).start (ix2 e j) idx 1 + ((rowScatterDims N C E wf).window (ix2 e j) 1 : Nat) < (C : Int)
      rw [h1, w1]
      have := j.isLt
      omega
  unfold ScatterDims.resultIdx?
  rw [dif_pos hall]
  congr 1
  funext a
  refine Fin.ext ?_
  match a with
  | ⟨0, _⟩ =>
    show ((rowScatterDims N C E wf).start (ix2 e j) idx 0 + ((rowScatterDims N C E wf).window (ix2 e j) 0 : Nat)).toNat = n.val
    rw [start0 wf idx e j, window0 wf e j, hn]
    omega
  | ⟨1, _⟩ =>
    show ((rowScatterDims N C E wf).start (ix2 e j) idx 1 + ((rowScatterDims N C E wf).window (ix2 e j) 1 : Nat)).toNat = j.val
    rw [start1 wf idx e j, window1 wf e j]
    omega

/-! ## The scatter read at an entry -/

/-- Entry `(n, c)` of the scatter: the operand's entry plus the sum of `upd[e, c]` over the rows `e` whose index, read
    signed, is `n`. -/
theorem hostScatterAdd_rows_apply {N C E w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N C E wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl (fun e _ => ?_)
  simp only [resultIdx_rows_iff]
  by_cases h : (idx (ix2 e (0 : Fin 1))).toInt = (n.val : Int)
  · simp only [h, true_and, if_true]
    exact Finset.sum_ite_eq' Finset.univ c (fun b => upd (ix2 e b)) |>.trans (by simp)
  · simp only [h, false_and, if_false]
    exact Finset.sum_const_zero

/-! ## Columns are scattered independently -/

/-- A window of columns `[o, o + C')` of the scatter into `C` columns is the scatter, through the same index column, of
    that window of columns of the operand and of the updates. -/
theorem hostScatterAdd_cols {N C C' E w o : Nat}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (ho : o + C' ≤ C)
    (x : (⟨2, ![N, C]⟩ : Shape).Idx → EReal) (x' : (⟨2, ![N, C']⟩ : Shape).Idx → EReal)
    (idx : IVec ⟨2, ![E, 1]⟩ w)
    (upd : (⟨2, ![E, C]⟩ : Shape).Idx → EReal) (upd' : (⟨2, ![E, C']⟩ : Shape).Idx → EReal)
    (hx : ∀ (n : Fin N) (k : Fin C'), x' (ix2 n k) = x (ix2 n (⟨o + k.val, by omega⟩ : Fin C)))
    (hu : ∀ (e : Fin E) (k : Fin C'), upd' (ix2 e k) = upd (ix2 e (⟨o + k.val, by omega⟩ : Fin C)))
    (n : Fin N) (k : Fin C') :
    Ideal.hostScatterAdd (rowScatterDims N C E wf) x idx upd (ix2 n (⟨o + k.val, by omega⟩ : Fin C))
      = Ideal.hostScatterAdd (rowScatterDims N C' E wf') x' idx upd' (ix2 n k) := by
  rw [hostScatterAdd_rows_apply, hostScatterAdd_rows_apply, hx]
  congr 1
  refine Finset.sum_congr rfl (fun e _ => ?_)
  rw [hu]

/-! ## The printed forms -/

/-- At the ideal instance the host's accumulating scatter is the exact sum of the updates that land on each entry. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Dimension numbers with window axis `[1]`, inserted axis `[0]`, index map `[0]` and the index vector along axis 1 are
    the row scatter's. -/
theorem eq_rowScatterDims {N C E : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) :
    ∃ wf : ScatterDims.WF ⟨2, ![N, C]⟩ ⟨2, ![E, 1]⟩ ⟨2, ![E, C]⟩ [1] [0] [0] 1, d = rowScatterDims N C E wf := by
  obtain ⟨uw, iw, sd, iv, wf⟩ := d
  dsimp only at h1 h2 h3 h4
  subst h1 h2 h3 h4
  exact ⟨wf, rfl⟩

/-- The scalar constant with all bits zero, broadcast to any shape, is the zero array. -/
theorem zeros_apply {s t : Shape} (dims : Fin s.rank → Fin t.rank) (h : s.BroadcastsInDim t dims) (j : t.Idx) :
    broadcastInDim t dims h (constant s .f32 0x00000000#32 : FVec Ideal s .f32) j = 0 := by
  show Ideal.ofBits .f32 0x00000000#32 = 0
  simp [Ideal.ofBits, Ideal.ieee]

/-- A window of columns `[o, o + C')` sliced out of a row scatter into `C` columns is the row scatter, through the same
    index column, of operands and updates that are that window of columns of the wide ones. -/
theorem slice_scatterAdd_cols {N C C' E w o : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (ho : o + C' ≤ C)
    (d : ScatterDims ⟨2, ![N, C]⟩ ⟨2, ![E, 1]⟩ ⟨2, ![E, C]⟩) (d' : ScatterDims ⟨2, ![N, C']⟩ ⟨2, ![E, 1]⟩ ⟨2, ![E, C']⟩)
    (hd : d = rowScatterDims N C E wf) (hd' : d' = rowScatterDims N C' E wf')
    (x : FVec Ideal ⟨2, ![N, C]⟩ φ) (x' : FVec Ideal ⟨2, ![N, C']⟩ φ) (idx : IVec ⟨2, ![E, 1]⟩ w)
    (upd : FVec Ideal ⟨2, ![E, C]⟩ φ) (upd' : FVec Ideal ⟨2, ![E, C']⟩ φ)
    (hx : ∀ (n : Fin N) (k : Fin C'), x' (ix2 n k) = x (ix2 n (⟨o + k.val, by omega⟩ : Fin C)))
    (hu : ∀ (e : Fin E) (k : Fin C'), upd' (ix2 e k) = upd (ix2 e (⟨o + k.val, by omega⟩ : Fin C)))
    (hs : (⟨2, ![N, C]⟩ : Shape).Slices ![0, o] ⟨2, ![N, C']⟩) :
    extractStridedSlice ⟨2, ![N, C']⟩ ![0, o] (Host.scatterAdd (F := Ideal) d x idx upd) hs
      = Host.scatterAdd (F := Ideal) d' x' idx upd' := by
  subst hd hd'
  funext i
  obtain ⟨n, k, rfl⟩ : ∃ (n : Fin N) (k : Fin C'), i = ix2 n k := ⟨i 0, i 1, eq_ix2 i⟩
  have hk := k.isLt
  refine (extractStridedSlice_apply _ _ hs (ix2 n k) (ix2 n (⟨o + k.val, by omega⟩ : Fin C)) ?_).trans ?_
  · intro a
    match a with
    | ⟨0, _⟩ => show n.val = 0 + n.val; omega
    | ⟨1, _⟩ => rfl
  · exact hostScatterAdd_cols wf wf' ho x x' idx upd upd' hx hu n k

/-- The same with both operands the zero arrays a broadcast scalar constant gives: only the updates need to be
    related. -/
theorem slice_scatterAdd_cols_zero {N C C' E w o : Nat} {s0 : Shape}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (ho : o + C' ≤ C)
    (d : ScatterDims ⟨2, ![N, C]⟩ ⟨2, ![E, 1]⟩ ⟨2, ![E, C]⟩) (d' : ScatterDims ⟨2, ![N, C']⟩ ⟨2, ![E, 1]⟩ ⟨2, ![E, C']⟩)
    (hd : d = rowScatterDims N C E wf) (hd' : d' = rowScatterDims N C' E wf')
    (dims : Fin s0.rank → Fin 2) (hb : s0.BroadcastsInDim ⟨2, ![N, C]⟩ dims) (hb' : s0.BroadcastsInDim ⟨2, ![N, C']⟩ dims)
    (b : BitVec FTy.f32.bits) (idx : IVec ⟨2, ![E, 1]⟩ w)
    (upd : FVec Ideal ⟨2, ![E, C]⟩ .f32) (upd' : FVec Ideal ⟨2, ![E, C']⟩ .f32)
    (hu : ∀ (e : Fin E) (k : Fin C'), upd' (ix2 e k) = upd (ix2 e (⟨o + k.val, by omega⟩ : Fin C)))
    (hs : (⟨2, ![N, C]⟩ : Shape).Slices ![0, o] ⟨2, ![N, C']⟩) :
    extractStridedSlice ⟨2, ![N, C']⟩ ![0, o]
        (Host.scatterAdd (F := Ideal) d (broadcastInDim ⟨2, ![N, C]⟩ dims hb (constant s0 .f32 b)) idx upd) hs
      = Host.scatterAdd (F := Ideal) d' (broadcastInDim ⟨2, ![N, C']⟩ dims hb' (constant s0 .f32 b)) idx upd' :=
  slice_scatterAdd_cols wf wf' ho d d' hd hd' _ _ idx upd upd' (fun _ _ => rfl) hu hs

end Cert.Lib.ScatterRows

end
-- ==== Proof.LibGatherRows.lean ====
/-
  Rows of a matrix gathered through a column of integers, read at an entry.

  `x[idx]` for a matrix `x : [N, K]` and a column of signed integers `idx : [E, 1]` is a gather of whole rows: the
  operand's axis 0 is collapsed and indexed with one-element slices, its axis 1 is taken whole (slice size `K`) and
  becomes the result's offset axis 1. Entry `(e, j)` of the result is `x` at row `idx[e, 0]`, read as a signed integer
  and clamped into `[0, N − 1]`, and column `j`: on axis 1 nothing is indexed, so the start is `0` and the offset
  coordinate is `j`.
-/
import Idealize.ShloMosaic.Lib.ValueIdx
import Idealize.ShloMosaic.PureOps.ShapeOps

namespace Cert.Lib.GatherRows

open Idealize.ShloMosaic Idealize.ShloMosaic.ValueIdx

variable {α : Type}

/-- The dimension numbers of `x[idx]` for `x : [N, K]`, `idx : [E, 1]`, result `[E, K]`: the operand's axis 0
    collapsed and indexed with one-element slices, its axis 1 whole and the result's offset axis, the index vector along
    axis 1. -/
abbrev rowGatherDims (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Entry `(e, j)` of the gather is the operand at row `idx[e, 0]`, read signed and clamped into `[0, N − 1]`, and
    column `j`. -/
theorem gather_rows_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (j : Fin K) :
    Host.gather (rowGatherDims N K E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    -- the indexed axis: no batching, collapsed (so no offset), the start is the clamped entry of the column
    show (rowGatherDims N K E wf).start (ix2 e j) idx 0 + (rowGatherDims N K E wf).batchCoord (ix2 e j) 0
      + (rowGatherDims N K E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K E wf).startIndexMap from List.mem_singleton.mpr rfl)]
    have hsi : (rowGatherDims N K E wf).siIdx (ix2 e j) ⟨List.idxOf (0 : Fin 2) (rowGatherDims N K E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the whole axis: not indexed (start 0), no batching, the offset coordinate is the result's column
    show (rowGatherDims N K E wf).start (ix2 e j) idx 1 + (rowGatherDims N K E wf).batchCoord (ix2 e j) 1
      + (rowGatherDims N K E wf).offCoord (ix2 e j) 1 = j.val
    have hstart : (rowGatherDims N K E wf).start (ix2 e j) idx 1 = 0 := by
      unfold GatherDims.start
      have hmem : (1 : Fin 2) ∉ (rowGatherDims N K E wf).startIndexMap := by
        show (1 : Fin 2) ∉ ([0] : List (Fin 2)); decide
      rw [dif_neg hmem]
    have hoff : (rowGatherDims N K E wf).offCoord (ix2 e j) 1 = j.val := by
      unfold GatherDims.offCoord
      have hne : (1 : Fin 2) ∉ (rowGatherDims N K E wf).collapsedSliceDims := by
        show (1 : Fin 2) ∉ ([0] : List (Fin 2)); decide
      have hmem : (1 : Fin 2) ∈ (rowGatherDims N K E wf).sKept :=
        (GatherDims.mem_sKept _ _).mpr ⟨hne, List.not_mem_nil⟩
      rw [dif_pos hmem]
      rfl
    rw [hstart, GatherDims.batchCoord_eq_zero _ _ _ List.not_mem_nil, hoff]
    omega

/-- Dimension numbers with offset axis `[1]`, collapsed axis `[0]`, no batching axes, index map `[0]`, the index vector
    along axis 1 and slice sizes `[1, K]` are the row gather's. -/
theorem eq_rowGatherDims {N K E : Nat} (d : GatherDims ⟨2, ![N, K]⟩ ⟨2, ![E, 1]⟩ ⟨2, ![E, K]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, K]) :
    ∃ wf : GatherDims.WF ⟨2, ![N, K]⟩ ⟨2, ![E, 1]⟩ ⟨2, ![E, K]⟩ [1] [0] [] [0] [] 1 ![1, K],
      d = rowGatherDims N K E wf := by
  obtain ⟨od, cd, ob, sb, sm, iv, ss, wf⟩ := d
  dsimp only at h1 h2 h3 h4 h5 h6 h7
  subst h1 h2 h3 h4 h5 h6 h7
  exact ⟨wf, rfl⟩

end Cert.Lib.GatherRows
-- ==== Proof.LibSegSum.lean ====
/-
  A segment sum as the host computes it — the rows of `x` gathered through one column of integers, then added into a
  zero matrix at the rows another column names — read as the sum over the edges (Spec.lean's `segSum`).
-/
import proofs.«117736_j69020124446814_2_alg».proof.Proof.Spec
import proofs.«117736_j69020124446814_2_alg».proof.Proof.LibScatterRows
import proofs.«117736_j69020124446814_2_alg».proof.Proof.LibGatherRows

noncomputable section

namespace Cert.Lib.SegSum

open Idealize.ShloMosaic Idealize.ShloMosaic.ValueIdx Cert.Spec

/-- Rows gathered through the column `sc` and scatter-added into zeros at the rows the column `dc` names are the
    segment sum. The dimension records are parameters, with equations to the row-gather / row-scatter numbers a
    printed program's own records satisfy by `rfl`. -/
theorem segsum_eq {N K E : ℕ} (hN : 0 < N)
    (Dg : GatherDims ⟨2, ![N, K]⟩ ⟨2, ![E, 1]⟩ ⟨2, ![E, K]⟩)
    (hg1 : Dg.offsetDims = [1]) (hg2 : Dg.collapsedSliceDims = [0]) (hg3 : Dg.operandBatchingDims = [])
    (hg4 : Dg.startIndicesBatchingDims = []) (hg5 : Dg.startIndexMap = [0]) (hg6 : Dg.indexVectorDim = 1)
    (hg7 : Dg.sliceSizes = ![1, K])
    (Ds : ScatterDims ⟨2, ![N, K]⟩ ⟨2, ![E, 1]⟩ ⟨2, ![E, K]⟩)
    (hs1 : Ds.updateWindowDims = [1]) (hs2 : Ds.insertedWindowDims = [0]) (hs3 : Ds.scatterDimsToOperandDims = [0])
    (hs4 : Ds.indexVectorDim = 1)
    (dims : Fin 0 → Fin 2) (hb : (⟨0, ![]⟩ : Shape).BroadcastsInDim ⟨2, ![N, K]⟩ dims)
    (x : FVec Ideal ⟨2, ![N, K]⟩ .f32) (sc dc : IVec ⟨2, ![E, 1]⟩ 32) :
    Host.scatterAdd (F := Ideal) Ds
        (broadcastInDim ⟨2, ![N, K]⟩ dims hb (constant (F := Ideal) ⟨0, ![]⟩ .f32 0x00000000#32)) dc
        (Host.gather Dg x sc)
      = segSum hN sc dc x := by
  obtain ⟨wfg, rfl⟩ := Cert.Lib.GatherRows.eq_rowGatherDims Dg hg1 hg2 hg3 hg4 hg5 hg6 hg7
  obtain ⟨wfs, rfl⟩ := Cert.Lib.ScatterRows.eq_rowScatterDims Ds hs1 hs2 hs3 hs4
  funext i
  obtain ⟨p, k, rfl⟩ : ∃ (p : Fin N) (k : Fin K), i = ix2 p k := ⟨i 0, i 1, eq_ix2 i⟩
  -- entry (p, k) of the scatter into zeros: the sum of the gathered entries (e, k) over the edges that point at p
  rw [Cert.Lib.ScatterRows.scatterAdd_ideal, Cert.Lib.ScatterRows.hostScatterAdd_rows_apply,
    Cert.Lib.ScatterRows.zeros_apply, zero_add]
  simp only [segSum, ofEntries_ix2]
  refine Finset.sum_congr rfl fun e _ => ?_
  by_cases h : Hits dc e p
  · -- the gathered entry (e, k) is the operand at the clamped row the column names, and column k
    rw [if_pos h, if_pos (show (dc (ix2 e (0 : Fin 1))).toInt = (p.val : Int) from h)]
    exact Cert.Lib.GatherRows.gather_rows_apply hN wfg x sc e k
  · rw [if_neg h, if_neg (show ¬ (dc (ix2 e (0 : Fin 1))).toInt = (p.val : Int) from h)]

end Cert.Lib.SegSum

end
-- ==== Proof.KCarry.lean ====
/-
  The buffer contents along the tiled program's run: a buffer that is read several boundaries after it was written
  still holds what was written, because nothing in between writes it.
-/
import proofs.«117736_j69020124446814_2_alg».proof.Proof.Gen.KernelIdeal.Frame
import proofs.«117736_j69020124446814_2_alg».proof.Proof.Spec
import proofs.«117736_j69020124446814_2_alg».proof.Proof.HostDefs
import proofs.«117736_j69020124446814_2_alg».proof.Proof.LibSegSum
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.Spec Cert.HostDefs

variable (m : (ℓ : Loc nD τ sig) → Buf (Elt Ideal) ℓ) (ρ : Dev nD → PrngReg)

/-- The number of rows is positive. -/
theorem pos : (0 : ℕ) < 200000 := by norm_num

/-- A host stretch does not write the buffer: none of its operations names it as a result. -/
macro "nw_tac " ops:ident : tactic => `(tactic| (
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## A buffer carried unchanged from one boundary of the run to a later one

Between the boundary where a buffer is written (or the launch, for an argument) and the boundary where it is read,
no host operation names it as a result and no region has it as its output window, so its contents are the same. -/

theorem cr_v1_1_8 (c : Dev nD) : W8 m ρ c (Proc.devRef .tc main_v1) = W1 m ρ c (Proc.devRef .tc main_v1) :=
    (W8_of_ne m ρ c main_v1 (by decide)).trans
    ((StableHlo.after_of_forall_not_mem (b := Proc.devRef .tc main_v1) _ _ (List.forall_iff_forall_mem.mp (by nw_tac hostOps3))).trans
    ((W6_of_ne m ρ c main_v1 (by decide)).trans
    ((StableHlo.after_of_forall_not_mem (b := Proc.devRef .tc main_v1) _ _ (List.forall_iff_forall_mem.mp (by nw_tac hostOps2))).trans
    ((W4_of_ne m ρ c main_v1 (by decide)).trans
    ((StableHlo.after_of_forall_not_mem (b := Proc.devRef .tc main_v1) _ _ (List.forall_iff_forall_mem.mp (by nw_tac hostOps1))).trans
    ((W2_of_ne m ρ c main_v1 (by decide))))))))

theorem cr_v3_1_8 (c : Dev nD) : W8 m ρ c (Proc.devRef .tc main_v3) = W1 m ρ c (Proc.devRef .tc main_v3) :=
    (W8_of_ne m ρ c main_v3 (by decide)).trans
    ((StableHlo.after_of_forall_not_mem (b := Proc.devRef .tc main_v3) _ _ (List.forall_iff_forall_mem.mp (by nw_tac hostOps3))).trans
    ((W6_of_ne m ρ c main_v3 (by decide)).trans
    ((StableHlo.after_of_forall_not_mem (b := Proc.devRef .tc main_v3) _ _ (List.forall_iff_forall_mem.mp (by nw_tac hostOps2))).trans
    ((W4_of_ne m ρ c main_v3 (by decide)).trans
    ((StableHlo.after_of_forall_not_mem (b := Proc.devRef .tc main_v3) _ _ (List.forall_iff_forall_mem.mp (by nw_tac hostOps1))).trans
    ((W2_of_ne m ρ c main_v3 (by decide))))))))

theorem cr_v5_1_2 (c : Dev nD) : W2 m ρ c (Proc.devRef .tc main_v5) = W1 m ρ c (Proc.devRef .tc main_v5) :=
    (W2_of_ne m ρ c main_v5 (by decide))

theorem cr_v7_1_2 (c : Dev nD) : W2 m ρ c (Proc.devRef .tc main_v7) = W1 m ρ c (Proc.devRef .tc main_v7) :=
    (W2_of_ne m ρ c main_v7 (by decide))

theorem cr_v5_1_10 (c : Dev nD) : W10 m ρ c (Proc.devRef .tc main_v5) = W1 m ρ c (Proc.devRef .tc main_v5) :=
    (W10_of_ne m ρ c main_v5 (by decide)).trans
    ((StableHlo.after_of_forall_not_mem (b := Proc.devRef .tc main_v5) _ _ (List.forall_iff_forall_mem.mp (by nw_tac hostOps4))).trans
    ((W8_of_ne m ρ c main_v5 (by decide)).trans
    ((StableHlo.after_of_forall_not_mem (b := Proc.devRef .tc main_v5) _ _ (List.forall_iff_forall_mem.mp (by nw_tac hostOps3))).trans
    ((W6_of_ne m ρ c main_v5 (by decide)).trans
    ((StableHlo.after_of_forall_not_mem (b := Proc.devRef .tc main_v5) _ _ (List.forall_iff_forall_mem.mp (by nw_tac hostOps2))).trans
    ((W4_of_ne m ρ c main_v5 (by decide)).trans
    ((StableHlo.after_of_forall_not_mem (b := Proc.devRef .tc main_v5) _ _ (List.forall_iff_forall_mem.mp (by nw_tac hostOps1))).trans
    ((W2_of_ne m ρ c main_v5 (by decide))))))))))

theorem cr_v7_1_10 (c : Dev nD) : W10 m ρ c (Proc.devRef .tc main_v7) = W1 m ρ c (Proc.devRef .tc main_v7) :=
    (W10_of_ne m ρ c main_v7 (by decide)).trans
    ((StableHlo.after_of_forall_not_mem (b := Proc.devRef .tc main_v7) _ _ (List.forall_iff_forall_mem.mp (by nw_tac hostOps4))).trans
    ((W8_of_ne m ρ c main_v7 (by decide)).trans
    ((StableHlo.after_of_forall_not_mem (b := Proc.devRef .tc main_v7) _ _ (List.forall_iff_forall_mem.mp (by nw_tac hostOps3))).trans
    ((W6_of_ne m ρ c main_v7 (by decide)).trans
    ((StableHlo.after_of_forall_not_mem (b := Proc.devRef .tc main_v7) _ _ (List.forall_iff_forall_mem.mp (by nw_tac hostOps2))).trans
    ((W4_of_ne m ρ c main_v7 (by decide)).trans
    ((StableHlo.after_of_forall_not_mem (b := Proc.devRef .tc main_v7) _ _ (List.forall_iff_forall_mem.mp (by nw_tac hostOps1))).trans
    ((W2_of_ne m ρ c main_v7 (by decide))))))))))

theorem cr_v16_1_9 (c : Dev nD) : W9 m ρ c (Proc.devRef .tc main_v16) = W1 m ρ c (Proc.devRef .tc main_v16) :=
    (StableHlo.after_of_forall_not_mem (b := Proc.devRef .tc main_v16) _ _ (List.forall_iff_forall_mem.mp (by nw_tac hostOps4))).trans
    ((W8_of_ne m ρ c main_v16 (by decide)).trans
    ((StableHlo.after_of_forall_not_mem (b := Proc.devRef .tc main_v16) _ _ (List.forall_iff_forall_mem.mp (by nw_tac hostOps3))).trans
    ((W6_of_ne m ρ c main_v16 (by decide)).trans
    ((StableHlo.after_of_forall_not_mem (b := Proc.devRef .tc main_v16) _ _ (List.forall_iff_forall_mem.mp (by nw_tac hostOps2))).trans
    ((W4_of_ne m ρ c main_v16 (by decide)).trans
    ((StableHlo.after_of_forall_not_mem (b := Proc.devRef .tc main_v16) _ _ (List.forall_iff_forall_mem.mp (by nw_tac hostOps1))).trans
    (((W2_arr m ρ c 1).trans (((dat0 (V1 m ρ) c).arrAt_in 1 rfl _).trans (A_eq0 (V1 m ρ) c 1))))))))))

theorem cr_v25_1_3 (c : Dev nD) : W3 m ρ c (Proc.devRef .tc main_v25) = W1 m ρ c (Proc.devRef .tc main_v25) :=
    (StableHlo.after_of_forall_not_mem (b := Proc.devRef .tc main_v25) _ _ (List.forall_iff_forall_mem.mp (by nw_tac hostOps1))).trans
    ((W2_of_ne m ρ c main_v25 (by decide)))

theorem cr_v25_1_11 (c : Dev nD) : W11 m ρ c (Proc.devRef .tc main_v25) = W1 m ρ c (Proc.devRef .tc main_v25) :=
    (StableHlo.after_of_forall_not_mem (b := Proc.devRef .tc main_v25) _ _ (List.forall_iff_forall_mem.mp (by nw_tac hostOps5))).trans
    ((W10_of_ne m ρ c main_v25 (by decide)).trans
    ((StableHlo.after_of_forall_not_mem (b := Proc.devRef .tc main_v25) _ _ (List.forall_iff_forall_mem.mp (by nw_tac hostOps4))).trans
    ((W8_of_ne m ρ c main_v25 (by decide)).trans
    ((StableHlo.after_of_forall_not_mem (b := Proc.devRef .tc main_v25) _ _ (List.forall_iff_forall_mem.mp (by nw_tac hostOps3))).trans
    ((W6_of_ne m ρ c main_v25 (by decide)).trans
    ((StableHlo.after_of_forall_not_mem (b := Proc.devRef .tc main_v25) _ _ (List.forall_iff_forall_mem.mp (by nw_tac hostOps2))).trans
    (((W4_arr m ρ c 1).trans (((dat1 (V3 m ρ) c).arrAt_in 1 rfl _).trans (A_eq1 (V3 m ρ) c 1))).trans
    ((StableHlo.after_of_forall_not_mem (b := Proc.devRef .tc main_v25) _ _ (List.forall_iff_forall_mem.mp (by nw_tac hostOps1))).trans
    ((W2_of_ne m ρ c main_v25 (by decide)))))))))))

theorem cr_v38_2_7 (c : Dev nD) : W7 m ρ c (Proc.devRef .tc main_v38) = W2 m ρ c (Proc.devRef .tc main_v38) :=
    (StableHlo.after_of_forall_not_mem (b := Proc.devRef .tc main_v38) _ _ (List.forall_iff_forall_mem.mp (by nw_tac hostOps3))).trans
    ((W6_of_ne m ρ c main_v38 (by decide)).trans
    ((StableHlo.after_of_forall_not_mem (b := Proc.devRef .tc main_v38) _ _ (List.forall_iff_forall_mem.mp (by nw_tac hostOps2))).trans
    ((W4_of_ne m ρ c main_v38 (by decide)).trans
    ((StableHlo.after_of_forall_not_mem (b := Proc.devRef .tc main_v38) _ _ (List.forall_iff_forall_mem.mp (by nw_tac hostOps1)))))))

theorem cr_v38_2_9 (c : Dev nD) : W9 m ρ c (Proc.devRef .tc main_v38) = W2 m ρ c (Proc.devRef .tc main_v38) :=
    (StableHlo.after_of_forall_not_mem (b := Proc.devRef .tc main_v38) _ _ (List.forall_iff_forall_mem.mp (by nw_tac hostOps4))).trans
    (((W8_arr m ρ c 0).trans (((dat3 (V7 m ρ) c).arrAt_in 0 rfl _).trans (A_eq3 (V7 m ρ) c 0))).trans
    ((StableHlo.after_of_forall_not_mem (b := Proc.devRef .tc main_v38) _ _ (List.forall_iff_forall_mem.mp (by nw_tac hostOps3))).trans
    ((W6_of_ne m ρ c main_v38 (by decide)).trans
    ((StableHlo.after_of_forall_not_mem (b := Proc.devRef .tc main_v38) _ _ (List.forall_iff_forall_mem.mp (by nw_tac hostOps2))).trans
    ((W4_of_ne m ρ c main_v38 (by decide)).trans
    ((StableHlo.after_of_forall_not_mem (b := Proc.devRef .tc main_v38) _ _ (List.forall_iff_forall_mem.mp (by nw_tac hostOps1)))))))))

theorem cr_v51_4_5 (c : Dev nD) : W5 m ρ c (Proc.devRef .tc main_v51) = W4 m ρ c (Proc.devRef .tc main_v51) :=
    (StableHlo.after_of_forall_not_mem (b := Proc.devRef .tc main_v51) _ _ (List.forall_iff_forall_mem.mp (by nw_tac hostOps2)))

theorem cr_v51_4_11 (c : Dev nD) : W11 m ρ c (Proc.devRef .tc main_v51) = W4 m ρ c (Proc.devRef .tc main_v51) :=
    (StableHlo.after_of_forall_not_mem (b := Proc.devRef .tc main_v51) _ _ (List.forall_iff_forall_mem.mp (by nw_tac hostOps5))).trans
    ((W10_of_ne m ρ c main_v51 (by decide)).trans
    ((StableHlo.after_of_forall_not_mem (b := Proc.devRef .tc main_v51) _ _ (List.forall_iff_forall_mem.mp (by nw_tac hostOps4))).trans
    ((W8_of_ne m ρ c main_v51 (by decide)).trans
    ((StableHlo.after_of_forall_not_mem (b := Proc.devRef .tc main_v51) _ _ (List.forall_iff_forall_mem.mp (by nw_tac hostOps3))).trans
    (((W6_arr m ρ c 0).trans (((dat2 (V5 m ρ) c).arrAt_in 0 rfl _).trans (A_eq2 (V5 m ρ) c 0))).trans
    ((StableHlo.after_of_forall_not_mem (b := Proc.devRef .tc main_v51) _ _ (List.forall_iff_forall_mem.mp (by nw_tac hostOps2)))))))))

theorem cr_v53_6_8 (c : Dev nD) : W8 m ρ c (Proc.devRef .tc main_v53) = W6 m ρ c (Proc.devRef .tc main_v53) :=
    (W8_of_ne m ρ c main_v53 (by decide)).trans
    ((StableHlo.after_of_forall_not_mem (b := Proc.devRef .tc main_v53) _ _ (List.forall_iff_forall_mem.mp (by nw_tac hostOps3))))

theorem cr_v55_8_10 (c : Dev nD) : W10 m ρ c (Proc.devRef .tc main_v55) = W8 m ρ c (Proc.devRef .tc main_v55) :=
    (W10_of_ne m ρ c main_v55 (by decide)).trans
    ((StableHlo.after_of_forall_not_mem (b := Proc.devRef .tc main_v55) _ _ (List.forall_iff_forall_mem.mp (by nw_tac hostOps4))))

theorem cr_v67_10_12 (c : Dev nD) : W12 m ρ c (Proc.devRef .tc main_v67) = W10 m ρ c (Proc.devRef .tc main_v67) :=
    (W12_of_ne m ρ c main_v67 (by decide)).trans
    ((StableHlo.after_of_forall_not_mem (b := Proc.devRef .tc main_v67) _ _ (List.forall_iff_forall_mem.mp (by nw_tac hostOps5))))

theorem cr_arg0_0_3 (c : Dev nD) : W3 m ρ c (Proc.devRef .tc main_arg0) = W0 m ρ c (Proc.devRef .tc main_arg0) :=
    (StableHlo.after_of_forall_not_mem (b := Proc.devRef .tc main_arg0) _ _ (List.forall_iff_forall_mem.mp (by nw_tac hostOps1))).trans
    ((W2_of_ne m ρ c main_arg0 (by decide)).trans
    ((StableHlo.after_of_forall_not_mem (b := Proc.devRef .tc main_arg0) _ _ (List.forall_iff_forall_mem.mp (by nw_tac hostOps0)))))

theorem cr_arg1_0_1 (c : Dev nD) : W1 m ρ c (Proc.devRef .tc main_arg1) = W0 m ρ c (Proc.devRef .tc main_arg1) :=
    (StableHlo.after_of_forall_not_mem (b := Proc.devRef .tc main_arg1) _ _ (List.forall_iff_forall_mem.mp (by nw_tac hostOps0)))

theorem cr_arg1_0_2 (c : Dev nD) : W2 m ρ c (Proc.devRef .tc main_arg1) = W0 m ρ c (Proc.devRef .tc main_arg1) :=
    ((W2_arr m ρ c 2).trans (((dat0 (V1 m ρ) c).arrAt_in 2 rfl _).trans (A_eq0 (V1 m ρ) c 2))).trans
    ((StableHlo.after_of_forall_not_mem (b := Proc.devRef .tc main_arg1) _ _ (List.forall_iff_forall_mem.mp (by nw_tac hostOps0))))

theorem cr_arg6_0_1 (c : Dev nD) : W1 m ρ c (Proc.devRef .tc main_arg6) = W0 m ρ c (Proc.devRef .tc main_arg6) :=
    (StableHlo.after_of_forall_not_mem (b := Proc.devRef .tc main_arg6) _ _ (List.forall_iff_forall_mem.mp (by nw_tac hostOps0)))

theorem cr_arg7_0_2 (c : Dev nD) : W2 m ρ c (Proc.devRef .tc main_arg7) = W0 m ρ c (Proc.devRef .tc main_arg7) :=
    (W2_of_ne m ρ c main_arg7 (by decide)).trans
    ((StableHlo.after_of_forall_not_mem (b := Proc.devRef .tc main_arg7) _ _ (List.forall_iff_forall_mem.mp (by nw_tac hostOps0))))

theorem cr_arg8_0_2 (c : Dev nD) : W2 m ρ c (Proc.devRef .tc main_arg8) = W0 m ρ c (Proc.devRef .tc main_arg8) :=
    (W2_of_ne m ρ c main_arg8 (by decide)).trans
    ((StableHlo.after_of_forall_not_mem (b := Proc.devRef .tc main_arg8) _ _ (List.forall_iff_forall_mem.mp (by nw_tac hostOps0))))

theorem cr_arg9_0_3 (c : Dev nD) : W3 m ρ c (Proc.devRef .tc main_arg9) = W0 m ρ c (Proc.devRef .tc main_arg9) :=
    (StableHlo.after_of_forall_not_mem (b := Proc.devRef .tc main_arg9) _ _ (List.forall_iff_forall_mem.mp (by nw_tac hostOps1))).trans
    ((W2_of_ne m ρ c main_arg9 (by decide)).trans
    ((StableHlo.after_of_forall_not_mem (b := Proc.devRef .tc main_arg9) _ _ (List.forall_iff_forall_mem.mp (by nw_tac hostOps0)))))

theorem cr_arg10_0_4 (c : Dev nD) : W4 m ρ c (Proc.devRef .tc main_arg10) = W0 m ρ c (Proc.devRef .tc main_arg10) :=
    (W4_of_ne m ρ c main_arg10 (by decide)).trans
    ((StableHlo.after_of_forall_not_mem (b := Proc.devRef .tc main_arg10) _ _ (List.forall_iff_forall_mem.mp (by nw_tac hostOps1))).trans
    ((W2_of_ne m ρ c main_arg10 (by decide)).trans
    ((StableHlo.after_of_forall_not_mem (b := Proc.devRef .tc main_arg10) _ _ (List.forall_iff_forall_mem.mp (by nw_tac hostOps0))))))

theorem cr_arg13_0_6 (c : Dev nD) : W6 m ρ c (Proc.devRef .tc main_arg13) = W0 m ρ c (Proc.devRef .tc main_arg13) :=
    (W6_of_ne m ρ c main_arg13 (by decide)).trans
    ((StableHlo.after_of_forall_not_mem (b := Proc.devRef .tc main_arg13) _ _ (List.forall_iff_forall_mem.mp (by nw_tac hostOps2))).trans
    ((W4_of_ne m ρ c main_arg13 (by decide)).trans
    ((StableHlo.after_of_forall_not_mem (b := Proc.devRef .tc main_arg13) _ _ (List.forall_iff_forall_mem.mp (by nw_tac hostOps1))).trans
    ((W2_of_ne m ρ c main_arg13 (by decide)).trans
    ((StableHlo.after_of_forall_not_mem (b := Proc.devRef .tc main_arg13) _ _ (List.forall_iff_forall_mem.mp (by nw_tac hostOps0))))))))

theorem cr_arg11_0_8 (c : Dev nD) : W8 m ρ c (Proc.devRef .tc main_arg11) = W0 m ρ c (Proc.devRef .tc main_arg11) :=
    (W8_of_ne m ρ c main_arg11 (by decide)).trans
    ((StableHlo.after_of_forall_not_mem (b := Proc.devRef .tc main_arg11) _ _ (List.forall_iff_forall_mem.mp (by nw_tac hostOps3))).trans
    ((W6_of_ne m ρ c main_arg11 (by decide)).trans
    ((StableHlo.after_of_forall_not_mem (b := Proc.devRef .tc main_arg11) _ _ (List.forall_iff_forall_mem.mp (by nw_tac hostOps2))).trans
    ((W4_of_ne m ρ c main_arg11 (by decide)).trans
    ((StableHlo.after_of_forall_not_mem (b := Proc.devRef .tc main_arg11) _ _ (List.forall_iff_forall_mem.mp (by nw_tac hostOps1))).trans
    ((W2_of_ne m ρ c main_arg11 (by decide)).trans
    ((StableHlo.after_of_forall_not_mem (b := Proc.devRef .tc main_arg11) _ _ (List.forall_iff_forall_mem.mp (by nw_tac hostOps0))))))))))

theorem cr_arg12_0_9 (c : Dev nD) : W9 m ρ c (Proc.devRef .tc main_arg12) = W0 m ρ c (Proc.devRef .tc main_arg12) :=
    (StableHlo.after_of_forall_not_mem (b := Proc.devRef .tc main_arg12) _ _ (List.forall_iff_forall_mem.mp (by nw_tac hostOps4))).trans
    ((W8_of_ne m ρ c main_arg12 (by decide)).trans
    ((StableHlo.after_of_forall_not_mem (b := Proc.devRef .tc main_arg12) _ _ (List.forall_iff_forall_mem.mp (by nw_tac hostOps3))).trans
    ((W6_of_ne m ρ c main_arg12 (by decide)).trans
    ((StableHlo.after_of_forall_not_mem (b := Proc.devRef .tc main_arg12) _ _ (List.forall_iff_forall_mem.mp (by nw_tac hostOps2))).trans
    ((W4_of_ne m ρ c main_arg12 (by decide)).trans
    ((StableHlo.after_of_forall_not_mem (b := Proc.devRef .tc main_arg12) _ _ (List.forall_iff_forall_mem.mp (by nw_tac hostOps1))).trans
    ((W2_of_ne m ρ c main_arg12 (by decide)).trans
    ((StableHlo.after_of_forall_not_mem (b := Proc.devRef .tc main_arg12) _ _ (List.forall_iff_forall_mem.mp (by nw_tac hostOps0)))))))))))

theorem cr_arg14_0_10 (c : Dev nD) : W10 m ρ c (Proc.devRef .tc main_arg14) = W0 m ρ c (Proc.devRef .tc main_arg14) :=
    (W10_of_ne m ρ c main_arg14 (by decide)).trans
    ((StableHlo.after_of_forall_not_mem (b := Proc.devRef .tc main_arg14) _ _ (List.forall_iff_forall_mem.mp (by nw_tac hostOps4))).trans
    ((W8_of_ne m ρ c main_arg14 (by decide)).trans
    ((StableHlo.after_of_forall_not_mem (b := Proc.devRef .tc main_arg14) _ _ (List.forall_iff_forall_mem.mp (by nw_tac hostOps3))).trans
    ((W6_of_ne m ρ c main_arg14 (by decide)).trans
    ((StableHlo.after_of_forall_not_mem (b := Proc.devRef .tc main_arg14) _ _ (List.forall_iff_forall_mem.mp (by nw_tac hostOps2))).trans
    ((W4_of_ne m ρ c main_arg14 (by decide)).trans
    ((StableHlo.after_of_forall_not_mem (b := Proc.devRef .tc main_arg14) _ _ (List.forall_iff_forall_mem.mp (by nw_tac hostOps1))).trans
    ((W2_of_ne m ρ c main_arg14 (by decide)).trans
    ((StableHlo.after_of_forall_not_mem (b := Proc.devRef .tc main_arg14) _ _ (List.forall_iff_forall_mem.mp (by nw_tac hostOps0))))))))))))

theorem cr_arg15_0_11 (c : Dev nD) : W11 m ρ c (Proc.devRef .tc main_arg15) = W0 m ρ c (Proc.devRef .tc main_arg15) :=
    (StableHlo.after_of_forall_not_mem (b := Proc.devRef .tc main_arg15) _ _ (List.forall_iff_forall_mem.mp (by nw_tac hostOps5))).trans
    ((W10_of_ne m ρ c main_arg15 (by decide)).trans
    ((StableHlo.after_of_forall_not_mem (b := Proc.devRef .tc main_arg15) _ _ (List.forall_iff_forall_mem.mp (by nw_tac hostOps4))).trans
    ((W8_of_ne m ρ c main_arg15 (by decide)).trans
    ((StableHlo.after_of_forall_not_mem (b := Proc.devRef .tc main_arg15) _ _ (List.forall_iff_forall_mem.mp (by nw_tac hostOps3))).trans
    ((W6_of_ne m ρ c main_arg15 (by decide)).trans
    ((StableHlo.after_of_forall_not_mem (b := Proc.devRef .tc main_arg15) _ _ (List.forall_iff_forall_mem.mp (by nw_tac hostOps2))).trans
    ((W4_of_ne m ρ c main_arg15 (by decide)).trans
    ((StableHlo.after_of_forall_not_mem (b := Proc.devRef .tc main_arg15) _ _ (List.forall_iff_forall_mem.mp (by nw_tac hostOps1))).trans
    ((W2_of_ne m ρ c main_arg15 (by decide)).trans
    ((StableHlo.after_of_forall_not_mem (b := Proc.devRef .tc main_arg15) _ _ (List.forall_iff_forall_mem.mp (by nw_tac hostOps0)))))))))))))

end Cert.KernelIdeal.Chain

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KReg0.lean ====
/-
  Region 0 (the first-layer combine for one edge type): what its grid of 50 row tiles leaves in the output array.

  Tile `t` holds rows `[4000 t, 4000 t + 4000)` of the summed rows, of the reciprocal column and of the destination rows,
  and all of both weight matrices and of the bias. The body computes, entry by entry, the rectified
  `(ms · inv) · wl + xd · wr + b` of its tile (Spec.lean's `tiledFirst`), which depends on the row of the tile only
  through that same row of the whole arrays; the tiles cover every row, so the output array is `tiledFirst` of the
  whole arrays.
-/
import proofs.«117736_j69020124446814_2_alg».proof.Proof.Gen.KernelIdeal.Frame
import proofs.«117736_j69020124446814_2_alg».proof.Proof.Spec
import proofs.«117736_j69020124446814_2_alg».proof.Proof.LibContractPlain
import proofs.«117736_j69020124446814_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiled0

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The body's result at entry `(p, q)` of the tile, from the tile's loaded blocks. -/
theorem pay_apply (v0 : Vec Ideal S4000x128 .f32) (v2 : Vec Ideal S4000x1 .f32) (v7 : Vec Ideal S4000x128 .f32)
    (v9 v12 : Vec Ideal S128x256 .f32) (v18 : Vec Ideal S256 .f32) (p : Fin 4000) (q : Fin 256) :
    k0_pay1 v0 v2 v7 v9 v12 v18 (ix2 p q)
      = max ((∑ k : Fin 128, (v0 (ix2 p k) * v2 (ix2 p (0 : Fin 1))) * v9 (ix2 k q))
          + (∑ k : Fin 128, v7 (ix2 p k) * v12 (ix2 k q)) + v18 (ix1 q)) 0 := by
  unfold k0_pay1
  simp only [shapeCast_self]
  rw [maximumf_apply, addf_apply, addf_apply, broadcast_apply,
    Cert.Lib.ContractPlain.matmulZero_apply dot_S4000x128_S128x256_S4000x256_1_0_0_1_n_n rfl,
    Cert.Lib.ContractPlain.matmulZero_apply dot_S4000x128_S128x256_S4000x256_1_0_0_1_n_n rfl,
    broadcastTo_1b_ab_apply, shapeCast_a_1a_apply]
  simp only [truncf_apply, mulf_apply, Cert.Keepdims.broadcastTo_a1_ab_apply, Ideal.ofBits_def, Ideal.ofBits_zero_f32]

variable (V : (c : Dev nD) → (b : Ref sig .tc) → Buf (Elt Ideal) ((c : Thread nD τ).loc b))

/-- The output array as one function of the arrays the region finds. -/
def G (c : Dev nD) : Mat 200000 256 :=
  ofEntries (tiledFirst (V c main_v35) (V c main_v16) (V c main_arg1) (V c main_v36) (V c main_v37) (V c main_arg6))

/-- The printed index maps over the grid: tile `t` is block row `t` of the three row-tiled inputs and of the output, and
    block `(0, 0)` of the weights and of the bias. -/
theorem idx_facts : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Every block row is some tile's. -/
theorem idx_onto : ∀ q0 : Fin 50, ∃ t : Fin cfg0.N, win0_6.index t = ![q0.val, 0] :=
  (by decide +kernel : ∀ q0 : Fin 50, ∃ t : Fin grid0.N, win0_6.index t = ![q0.val, 0])

set_option maxHeartbeats 2000000 in
/-- What tile `t` writes back is block `t` of `G`. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero zero2]
  simp only [View.ld_unit_zero (S := S4000x128) zero2, View.ld_unit_zero (S := S4000x1) zero2,
    View.ld_unit_zero (S := S128x256) zero2, View.ld_unit_zero (S := S256) zero1]
  obtain ⟨ht, e00, e01, e10, e11, e20, e21, e30, e31, e40, e41, e50, e60, e61⟩ := idx_facts t
  funext j
  obtain ⟨p, q, rfl⟩ : ∃ (p : Fin 4000) (q : Fin 256), j = ix2 p q := ⟨j 0, j 1, eq_ix2 j⟩
  have hp := p.isLt
  show k0_pay1 (iblk0 V c 0 t) (iblk0 V c 1 t) (iblk0 V c 2 t) (iblk0 V c 3 t) (iblk0 V c 4 t) (iblk0 V c 5 t) (ix2 p q)
    = G V c (((cfg0.win 6).blk t).view.emb (ix2 p q))
  refine (pay_apply _ _ _ _ _ _ p q).trans ?_
  have h6 : ((cfg0.win 6).blk t).view.emb (ix2 p q) = ix2 (⟨t.val * 4000 + p.val, by omega⟩ : Fin 200000) q := by
    funext a; apply Fin.ext
    match a with
    | ⟨0, _⟩ => show win0_6.index t (0 : Fin 2) * 4000 + 1 * p.val = t.val * 4000 + p.val; omega
    | ⟨1, _⟩ => show win0_6.index t (1 : Fin 2) * 256 + 1 * q.val = q.val; omega
  have h0 : ∀ k : Fin 128, iblk0 V c 0 t (ix2 p k) = V c main_v35 (ix2 (⟨t.val * 4000 + p.val, by omega⟩ : Fin 200000) k) := by
    intro k
    refine congrArg (V c main_v35) (?_ : ((cfg0.win 0).blk t).view.emb (ix2 p k) = _)
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  have h1 : iblk0 V c 1 t (ix2 p (0 : Fin 1)) = V c main_v16 (ix2 (⟨t.val * 4000 + p.val, by omega⟩ : Fin 200000) (0 : Fin 1)) := by
    refine congrArg (V c main_v16) (?_ : ((cfg0.win 1).blk t).view.emb (ix2 p (0 : Fin 1)) = _)
    funext a; apply Fin.ext
    match a with
    | ⟨0, _⟩ => show win0_1.index t (0 : Fin 2) * 4000 + 1 * p.val = t.val * 4000 + p.val; omega
    | ⟨1, _⟩ => show win0_1.index t (1 : Fin 2) * 1 + 1 * 0 = 0; omega
  have h2 : ∀ k : Fin 128, iblk0 V c 2 t (ix2 p k) = V c main_arg1 (ix2 (⟨t.val * 4000 + p.val, by omega⟩ : Fin 200000) k) := by
    intro k
    refine congrArg (V c main_arg1) (?_ : ((cfg0.win 2).blk t).view.emb (ix2 p k) = _)
    funext a; apply Fin.ext
    match a with
    | ⟨0, _⟩ => show win0_2.index t (0 : Fin 2) * 4000 + 1 * p.val = t.val * 4000 + p.val; omega
    | ⟨1, _⟩ => show win0_2.index t (1 : Fin 2) * 128 + 1 * k.val = k.val; omega
  have h3 : ∀ k : Fin 128, iblk0 V c 3 t (ix2 k q) = V c main_v36 (ix2 k q) := by
    intro k
    refine congrArg (V c main_v36) (?_ : ((cfg0.win 3).blk t).view.emb (ix2 k q) = _)
    funext a; apply Fin.ext
    match a with
    | ⟨0, _⟩ => show win0_3.index t (0 : Fin 2) * 128 + 1 * k.val = k.val; omega
    | ⟨1, _⟩ => show win0_3.index t (1 : Fin 2) * 256 + 1 * q.val = q.val; omega
  have h4 : ∀ k : Fin 128, iblk0 V c 4 t (ix2 k q) = V c main_v37 (ix2 k q) := by
    intro k
    refine congrArg (V c main_v37) (?_ : ((cfg0.win 4).blk t).view.emb (ix2 k q) = _)
    funext a; apply Fin.ext
    match a with
    | ⟨0, _⟩ => show win0_4.index t (0 : Fin 2) * 128 + 1 * k.val = k.val; omega
    | ⟨1, _⟩ => show win0_4.index t (1 : Fin 2) * 256 + 1 * q.val = q.val; omega
  have h5 : iblk0 V c 5 t (ix1 q) = V c main_arg6 (ix1 q) := by
    refine congrArg (V c main_arg6) (?_ : ((cfg0.win 5).blk t).view.emb (ix1 q) = _)
    funext a; apply Fin.ext
    match a with
    | ⟨0, _⟩ => show win0_5.index t (0 : Fin 1) * 256 + 1 * q.val = q.val; omega
  rw [h6]
  unfold G
  rw [ofEntries_ix2]
  unfold tiledFirst prod
  simp only [h0, h1, h2, h3, h4, h5]

/-- An index of the output array is in tile `t`'s block iff each coordinate is in the block's range. -/
theorem mem_blk (t : Fin cfg0.N) (i : S200000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v38).slice (win0_6.rect t)).set ↔ _
  rw [View.set_slice_whole, Rect.mem_set_unit]
  exact Iff.rfl

/-- The tiles cover the output array: row `r` is in tile `r / 4000`. -/
theorem cover (i : S200000x256.Idx) :
    ∃ t : Fin cfg0.N, (cfg0.win 6).flush t = true ∧ i ∈ ((cfg0.win 6).blk t).view.set := by
  have hi0 : (i 0).val < 200000 := (i 0).isLt
  have hi1 : (i 1).val < 256 := (i 1).isLt
  obtain ⟨t, ht⟩ := idx_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 256 ≤ (i 1).val ∧ (i 1).val < win0_6.index t (1 : Fin 2) * 256 + 256; omega

/-- The output array after the region: `tiledFirst` of the arrays the region found. -/
theorem final (c : Dev nD) : (dat0 V c).arrAt 6 cfg0.N = G V c :=
  (dat0 V c).arrAt_eq_of_cover 6 (G V c) (fun t _ => flushed_eq V c t) (cover)

end Cert.KernelIdeal.Tiled0

end
-- ==== Proof.KReg1.lean ====
/-
  Region 1 (the first-layer combine for one edge type): what its grid of 50 row tiles leaves in the output array.

  Tile `t` holds rows `[4000 t, 4000 t + 4000)` of the summed rows, of the reciprocal column and of the destination rows,
  and all of both weight matrices and of the bias. The body computes, entry by entry, the rectified
  `(ms · inv) · wl + xd · wr + b` of its tile (Spec.lean's `tiledFirst`), which depends on the row of the tile only
  through that same row of the whole arrays; the tiles cover every row, so the output array is `tiledFirst` of the
  whole arrays.
-/
import proofs.«117736_j69020124446814_2_alg».proof.Proof.Gen.KernelIdeal.Frame
import proofs.«117736_j69020124446814_2_alg».proof.Proof.Spec
import proofs.«117736_j69020124446814_2_alg».proof.Proof.LibContractPlain
import proofs.«117736_j69020124446814_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiled1

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The body's result at entry `(p, q)` of the tile, from the tile's loaded blocks. -/
theorem pay_apply (v0 : Vec Ideal S4000x128 .f32) (v2 : Vec Ideal S4000x1 .f32) (v7 : Vec Ideal S4000x128 .f32)
    (v9 v12 : Vec Ideal S128x256 .f32) (v18 : Vec Ideal S256 .f32) (p : Fin 4000) (q : Fin 256) :
    k1_pay1 v0 v2 v7 v9 v12 v18 (ix2 p q)
      = max ((∑ k : Fin 128, (v0 (ix2 p k) * v2 (ix2 p (0 : Fin 1))) * v9 (ix2 k q))
          + (∑ k : Fin 128, v7 (ix2 p k) * v12 (ix2 k q)) + v18 (ix1 q)) 0 := by
  unfold k1_pay1
  simp only [shapeCast_self]
  rw [maximumf_apply, addf_apply, addf_apply, broadcast_apply,
    Cert.Lib.ContractPlain.matmulZero_apply dot_S4000x128_S128x256_S4000x256_1_0_0_1_n_n rfl,
    Cert.Lib.ContractPlain.matmulZero_apply dot_S4000x128_S128x256_S4000x256_1_0_0_1_n_n rfl,
    broadcastTo_1b_ab_apply, shapeCast_a_1a_apply]
  simp only [truncf_apply, mulf_apply, Cert.Keepdims.broadcastTo_a1_ab_apply, Ideal.ofBits_def, Ideal.ofBits_zero_f32]

variable (V : (c : Dev nD) → (b : Ref sig .tc) → Buf (Elt Ideal) ((c : Thread nD τ).loc b))

/-- The output array as one function of the arrays the region finds. -/
def G (c : Dev nD) : Mat 200000 256 :=
  ofEntries (tiledFirst (V c main_v48) (V c main_v25) (V c main_arg0) (V c main_v49) (V c main_v50) (V c main_arg9))

/-- The printed index maps over the grid: tile `t` is block row `t` of the three row-tiled inputs and of the output, and
    block `(0, 0)` of the weights and of the bias. -/
theorem idx_facts : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Every block row is some tile's. -/
theorem idx_onto : ∀ q0 : Fin 50, ∃ t : Fin cfg1.N, win1_6.index t = ![q0.val, 0] :=
  (by decide +kernel : ∀ q0 : Fin 50, ∃ t : Fin grid1.N, win1_6.index t = ![q0.val, 0])

set_option maxHeartbeats 2000000 in
/-- What tile `t` writes back is block `t` of `G`. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero zero2]
  simp only [View.ld_unit_zero (S := S4000x128) zero2, View.ld_unit_zero (S := S4000x1) zero2,
    View.ld_unit_zero (S := S128x256) zero2, View.ld_unit_zero (S := S256) zero1]
  obtain ⟨ht, e00, e01, e10, e11, e20, e21, e30, e31, e40, e41, e50, e60, e61⟩ := idx_facts t
  funext j
  obtain ⟨p, q, rfl⟩ : ∃ (p : Fin 4000) (q : Fin 256), j = ix2 p q := ⟨j 0, j 1, eq_ix2 j⟩
  have hp := p.isLt
  show k1_pay1 (iblk1 V c 0 t) (iblk1 V c 1 t) (iblk1 V c 2 t) (iblk1 V c 3 t) (iblk1 V c 4 t) (iblk1 V c 5 t) (ix2 p q)
    = G V c (((cfg1.win 6).blk t).view.emb (ix2 p q))
  refine (pay_apply _ _ _ _ _ _ p q).trans ?_
  have h6 : ((cfg1.win 6).blk t).view.emb (ix2 p q) = ix2 (⟨t.val * 4000 + p.val, by omega⟩ : Fin 200000) q := by
    funext a; apply Fin.ext
    match a with
    | ⟨0, _⟩ => show win1_6.index t (0 : Fin 2) * 4000 + 1 * p.val = t.val * 4000 + p.val; omega
    | ⟨1, _⟩ => show win1_6.index t (1 : Fin 2) * 256 + 1 * q.val = q.val; omega
  have h0 : ∀ k : Fin 128, iblk1 V c 0 t (ix2 p k) = V c main_v48 (ix2 (⟨t.val * 4000 + p.val, by omega⟩ : Fin 200000) k) := by
    intro k
    refine congrArg (V c main_v48) (?_ : ((cfg1.win 0).blk t).view.emb (ix2 p k) = _)
    funext a; apply Fin.ext
    match a with
    | ⟨0, _⟩ => show win1_0.index t (0 : Fin 2) * 4000 + 1 * p.val = t.val * 4000 + p.val; omega
    | ⟨1, _⟩ => show win1_0.index t (1 : Fin 2) * 128 + 1 * k.val = k.val; omega
  have h1 : iblk1 V c 1 t (ix2 p (0 : Fin 1)) = V c main_v25 (ix2 (⟨t.val * 4000 + p.val, by omega⟩ : Fin 200000) (0 : Fin 1)) := by
    refine congrArg (V c main_v25) (?_ : ((cfg1.win 1).blk t).view.emb (ix2 p (0 : Fin 1)) = _)
    funext a; apply Fin.ext
    match a with
    | ⟨0, _⟩ => show win1_1.index t (0 : Fin 2) * 4000 + 1 * p.val = t.val * 4000 + p.val; omega
    | ⟨1, _⟩ => show win1_1.index t (1 : Fin 2) * 1 + 1 * 0 = 0; omega
  have h2 : ∀ k : Fin 128, iblk1 V c 2 t (ix2 p k) = V c main_arg0 (ix2 (⟨t.val * 4000 + p.val, by omega⟩ : Fin 200000) k) := by
    intro k
    refine congrArg (V c main_arg0) (?_ : ((cfg1.win 2).blk t).view.emb (ix2 p k) = _)
    funext a; apply Fin.ext
    match a with
    | ⟨0, _⟩ => show win1_2.index t (0 : Fin 2) * 4000 + 1 * p.val = t.val * 4000 + p.val; omega
    | ⟨1, _⟩ => show win1_2.index t (1 : Fin 2) * 128 + 1 * k.val = k.val; omega
  have h3 : ∀ k : Fin 128, iblk1 V c 3 t (ix2 k q) = V c main_v49 (ix2 k q) := by
    intro k
    refine congrArg (V c main_v49) (?_ : ((cfg1.win 3).blk t).view.emb (ix2 k q) = _)
    funext a; apply Fin.ext
    match a with
    | ⟨0, _⟩ => show win1_3.index t (0 : Fin 2) * 128 + 1 * k.val = k.val; omega
    | ⟨1, _⟩ => show win1_3.index t (1 : Fin 2) * 256 + 1 * q.val = q.val; omega
  have h4 : ∀ k : Fin 128, iblk1 V c 4 t (ix2 k q) = V c main_v50 (ix2 k q) := by
    intro k
    refine congrArg (V c main_v50) (?_ : ((cfg1.win 4).blk t).view.emb (ix2 k q) = _)
    funext a; apply Fin.ext
    match a with
    | ⟨0, _⟩ => show win1_4.index t (0 : Fin 2) * 128 + 1 * k.val = k.val; omega
    | ⟨1, _⟩ => show win1_4.index t (1 : Fin 2) * 256 + 1 * q.val = q.val; omega
  have h5 : iblk1 V c 5 t (ix1 q) = V c main_arg9 (ix1 q) := by
    refine congrArg (V c main_arg9) (?_ : ((cfg1.win 5).blk t).view.emb (ix1 q) = _)
    funext a; apply Fin.ext
    match a with
    | ⟨0, _⟩ => show win1_5.index t (0 : Fin 1) * 256 + 1 * q.val = q.val; omega
  rw [h6]
  unfold G
  rw [ofEntries_ix2]
  unfold tiledFirst prod
  simp only [h0, h1, h2, h3, h4, h5]

/-- An index of the output array is in tile `t`'s block iff each coordinate is in the block's range. -/
theorem mem_blk (t : Fin cfg1.N) (i : S200000x256.Idx) :
    i ∈ ((cfg1.win 6).blk t).view.set ↔ ∀ a : Fin 2, win1_6.index t a * S4000x256.size a ≤ (i a).val ∧ (i a).val < win1_6.index t a * S4000x256.size a + S4000x256.size a := by
  show i ∈ ((View.whole main_v51).slice (win1_6.rect t)).set ↔ _
  rw [View.set_slice_whole, Rect.mem_set_unit]
  exact Iff.rfl

/-- The tiles cover the output array: row `r` is in tile `r / 4000`. -/
theorem cover (i : S200000x256.Idx) :
    ∃ t : Fin cfg1.N, (cfg1.win 6).flush t = true ∧ i ∈ ((cfg1.win 6).blk t).view.set := by
  have hi0 : (i 0).val < 200000 := (i 0).isLt
  have hi1 : (i 1).val < 256 := (i 1).isLt
  obtain ⟨t, ht⟩ := idx_onto ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 256 ≤ (i 1).val ∧ (i 1).val < win1_6.index t (1 : Fin 2) * 256 + 256; omega

/-- The output array after the region: `tiledFirst` of the arrays the region found. -/
theorem final (c : Dev nD) : (dat1 V c).arrAt 6 cfg1.N = G V c :=
  (dat1 V c).arrAt_eq_of_cover 6 (G V c) (fun t _ => flushed_eq V c t) (cover)

end Cert.KernelIdeal.Tiled1

end
-- ==== Proof.KReg2.lean ====
/-
  Region 2 (the projection of one edge type's hidden source rows by the second layer's weight matrix): what its grid of 50 row tiles leaves in the output array.

  Tile `t` holds rows `[4000 t, 4000 t + 4000)` of the hidden rows and all of the weight matrix. The body computes
  the plain product of its tile of rows by the weight matrix, entry by entry (Spec.lean's `prod`), which depends on
  the row of the tile only through that same row of the whole array; the tiles cover every row, so the output array
  is the plain product of the whole arrays.
-/
import proofs.«117736_j69020124446814_2_alg».proof.Proof.Gen.KernelIdeal.Frame
import proofs.«117736_j69020124446814_2_alg».proof.Proof.Spec
import proofs.«117736_j69020124446814_2_alg».proof.Proof.LibContractPlain
import Idealize.ShloMosaic.Lib.Pipeline.Value
import Idealize.ShloMosaic.Lib.ValueIdx
import Idealize.ShloMosaic.PureOps.Ideal.Laws

set_option maxRecDepth 16384

noncomputable section

namespace Cert.KernelIdeal.Tiled2

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero2 : (![0, 0] : Fin 2 → Nat) = fun _ => 0 := funext fun a => by fin_cases a <;> rfl

/-- The body's result at entry `(p, q)` of the tile, from the tile's loaded blocks: row `p` of the rows times column
    `q` of the weights. -/
theorem pay_apply (v0 : Vec Ideal S4000x256 .f32) (v3 : Vec Ideal S256x128 .f32) (p : Fin 4000) (q : Fin 128) :
    k2_pay1 v0 v3 (ix2 p q) = ∑ k : Fin 256, v0 (ix2 p k) * v3 (ix2 k q) := by
  unfold k2_pay1
  simp only [shapeCast_self]
  rw [Cert.Lib.ContractPlain.matmulZero_apply dot_S4000x256_S256x128_S4000x128_1_0_0_1_n_n rfl]
  simp only [truncf_apply]

variable (V : (c : Dev nD) → (b : Ref sig .tc) → Buf (Elt Ideal) ((c : Thread nD τ).loc b))

/-- The output array as one function of the arrays the region finds: the rows times the weights. -/
def G (c : Dev nD) : Mat 200000 128 :=
  ofEntries (prod (N := 200000) (K := 256) (C := 128) (V c main_v51) (V c main_v52))

/-- The printed index maps over the grid: tile `t` is block row `t` of the row-tiled input and of the output, and
    block `(0, 0)` of the weights. -/
theorem idx_facts : ∀ t : Fin cfg2.N, t.val < 50
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row is some tile's. -/
theorem idx_onto : ∀ q0 : Fin 50, ∃ t : Fin cfg2.N, win2_2.index t = ![q0.val, 0] :=
  (by decide +kernel : ∀ q0 : Fin 50, ∃ t : Fin grid2.N, win2_2.index t = ![q0.val, 0])

set_option maxHeartbeats 2000000 in
/-- What tile `t` writes back is block `t` of `G`. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero zero2]
  simp only [View.ld_unit_zero (S := S4000x256) zero2, View.ld_unit_zero (S := S256x128) zero2]
  obtain ⟨ht, e00, e01, e10, e11, e20, e21⟩ := idx_facts t
  funext j
  obtain ⟨p, q, rfl⟩ : ∃ (p : Fin 4000) (q : Fin 128), j = ix2 p q := ⟨j 0, j 1, eq_ix2 j⟩
  have hp := p.isLt
  show k2_pay1 (iblk2 V c 0 t) (iblk2 V c 1 t) (ix2 p q)
    = G V c (((cfg2.win 2).blk t).view.emb (ix2 p q))
  refine (pay_apply _ _ p q).trans ?_
  have h2 : ((cfg2.win 2).blk t).view.emb (ix2 p q) = ix2 (⟨t.val * 4000 + p.val, by omega⟩ : Fin 200000) q := by
    funext a; apply Fin.ext
    match a with
    | ⟨0, _⟩ => show win2_2.index t (0 : Fin 2) * 4000 + 1 * p.val = t.val * 4000 + p.val; omega
    | ⟨1, _⟩ => show win2_2.index t (1 : Fin 2) * 128 + 1 * q.val = q.val; omega
  have h0 : ∀ k : Fin 256, iblk2 V c 0 t (ix2 p k) = V c main_v51 (ix2 (⟨t.val * 4000 + p.val, by omega⟩ : Fin 200000) k) := by
    intro k
    refine congrArg (V c main_v51) (?_ : ((cfg2.win 0).blk t).view.emb (ix2 p k) = _)
    funext a; apply Fin.ext
    match a with
    | ⟨0, _⟩ => show win2_0.index t (0 : Fin 2) * 4000 + 1 * p.val = t.val * 4000 + p.val; omega
    | ⟨1, _⟩ => show win2_0.index t (1 : Fin 2) * 256 + 1 * k.val = k.val; omega
  have h1 : ∀ k : Fin 256, iblk2 V c 1 t (ix2 k q) = V c main_v52 (ix2 k q) := by
    intro k
    refine congrArg (V c main_v52) (?_ : ((cfg2.win 1).blk t).view.emb (ix2 k q) = _)
    funext a; apply Fin.ext
    match a with
    | ⟨0, _⟩ => show win2_1.index t (0 : Fin 2) * 256 + 1 * k.val = k.val; omega
    | ⟨1, _⟩ => show win2_1.index t (1 : Fin 2) * 128 + 1 * q.val = q.val; omega
  rw [h2]
  unfold G
  rw [ofEntries_ix2]
  unfold prod
  simp only [h0, h1]

/-- An index of the output array is in tile `t`'s block iff each coordinate is in the block's range. -/
theorem mem_blk (t : Fin cfg2.N) (i : S200000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v53).slice (win2_2.rect t)).set ↔ _
  rw [View.set_slice_whole, Rect.mem_set_unit]
  exact Iff.rfl

/-- The tiles cover the output array: row `r` is in tile `r / 4000`. -/
theorem cover (i : S200000x128.Idx) :
    ∃ t : Fin cfg2.N, (cfg2.win 2).flush t = true ∧ i ∈ ((cfg2.win 2).blk t).view.set := by
  have hi0 : (i 0).val < 200000 := (i 0).isLt
  have hi1 : (i 1).val < 128 := (i 1).isLt
  obtain ⟨t, ht⟩ := idx_onto ⟨(i 0).val / 4000, by omega⟩
  have q0 : win2_2.index t (0 : Fin 2) = (i 0).val / 4000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- The output array after the region: the plain product of the arrays the region found. -/
theorem final (c : Dev nD) : (dat2 V c).arrAt 2 cfg2.N = G V c :=
  (dat2 V c).arrAt_eq_of_cover 2 (G V c) (fun t _ => flushed_eq V c t) (cover)

end Cert.KernelIdeal.Tiled2

end
-- ==== Proof.KReg3.lean ====
/-
  Region 3 (the projection of the other edge type's hidden source rows by the second layer's weight matrix): what its grid of 50 row tiles leaves in the output array.

  Tile `t` holds rows `[4000 t, 4000 t + 4000)` of the hidden rows and all of the weight matrix. The body computes
  the plain product of its tile of rows by the weight matrix, entry by entry (Spec.lean's `prod`), which depends on
  the row of the tile only through that same row of the whole array; the tiles cover every row, so the output array
  is the plain product of the whole arrays.
-/
import proofs.«117736_j69020124446814_2_alg».proof.Proof.Gen.KernelIdeal.Frame
import proofs.«117736_j69020124446814_2_alg».proof.Proof.Spec
import proofs.«117736_j69020124446814_2_alg».proof.Proof.LibContractPlain
import Idealize.ShloMosaic.Lib.Pipeline.Value
import Idealize.ShloMosaic.Lib.ValueIdx
import Idealize.ShloMosaic.PureOps.Ideal.Laws

set_option maxRecDepth 16384

noncomputable section

namespace Cert.KernelIdeal.Tiled3

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero2 : (![0, 0] : Fin 2 → Nat) = fun _ => 0 := funext fun a => by fin_cases a <;> rfl

/-- The body's result at entry `(p, q)` of the tile, from the tile's loaded blocks: row `p` of the rows times column
    `q` of the weights. -/
theorem pay_apply (v0 : Vec Ideal S4000x256 .f32) (v3 : Vec Ideal S256x128 .f32) (p : Fin 4000) (q : Fin 128) :
    k3_pay1 v0 v3 (ix2 p q) = ∑ k : Fin 256, v0 (ix2 p k) * v3 (ix2 k q) := by
  unfold k3_pay1
  simp only [shapeCast_self]
  rw [Cert.Lib.ContractPlain.matmulZero_apply dot_S4000x256_S256x128_S4000x128_1_0_0_1_n_n rfl]
  simp only [truncf_apply]

variable (V : (c : Dev nD) → (b : Ref sig .tc) → Buf (Elt Ideal) ((c : Thread nD τ).loc b))

/-- The output array as one function of the arrays the region finds: the rows times the weights. -/
def G (c : Dev nD) : Mat 200000 128 :=
  ofEntries (prod (N := 200000) (K := 256) (C := 128) (V c main_v38) (V c main_v54))

/-- The printed index maps over the grid: tile `t` is block row `t` of the row-tiled input and of the output, and
    block `(0, 0)` of the weights. -/
theorem idx_facts : ∀ t : Fin cfg3.N, t.val < 50
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row is some tile's. -/
theorem idx_onto : ∀ q0 : Fin 50, ∃ t : Fin cfg3.N, win3_2.index t = ![q0.val, 0] :=
  (by decide +kernel : ∀ q0 : Fin 50, ∃ t : Fin grid3.N, win3_2.index t = ![q0.val, 0])

set_option maxHeartbeats 2000000 in
/-- What tile `t` writes back is block `t` of `G`. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero zero2]
  simp only [View.ld_unit_zero (S := S4000x256) zero2, View.ld_unit_zero (S := S256x128) zero2]
  obtain ⟨ht, e00, e01, e10, e11, e20, e21⟩ := idx_facts t
  funext j
  obtain ⟨p, q, rfl⟩ : ∃ (p : Fin 4000) (q : Fin 128), j = ix2 p q := ⟨j 0, j 1, eq_ix2 j⟩
  have hp := p.isLt
  show k3_pay1 (iblk3 V c 0 t) (iblk3 V c 1 t) (ix2 p q)
    = G V c (((cfg3.win 2).blk t).view.emb (ix2 p q))
  refine (pay_apply _ _ p q).trans ?_
  have h2 : ((cfg3.win 2).blk t).view.emb (ix2 p q) = ix2 (⟨t.val * 4000 + p.val, by omega⟩ : Fin 200000) q := by
    funext a; apply Fin.ext
    match a with
    | ⟨0, _⟩ => show win3_2.index t (0 : Fin 2) * 4000 + 1 * p.val = t.val * 4000 + p.val; omega
    | ⟨1, _⟩ => show win3_2.index t (1 : Fin 2) * 128 + 1 * q.val = q.val; omega
  have h0 : ∀ k : Fin 256, iblk3 V c 0 t (ix2 p k) = V c main_v38 (ix2 (⟨t.val * 4000 + p.val, by omega⟩ : Fin 200000) k) := by
    intro k
    refine congrArg (V c main_v38) (?_ : ((cfg3.win 0).blk t).view.emb (ix2 p k) = _)
    funext a; apply Fin.ext
    match a with
    | ⟨0, _⟩ => show win3_0.index t (0 : Fin 2) * 4000 + 1 * p.val = t.val * 4000 + p.val; omega
    | ⟨1, _⟩ => show win3_0.index t (1 : Fin 2) * 256 + 1 * k.val = k.val; omega
  have h1 : ∀ k : Fin 256, iblk3 V c 1 t (ix2 k q) = V c main_v54 (ix2 k q) := by
    intro k
    refine congrArg (V c main_v54) (?_ : ((cfg3.win 1).blk t).view.emb (ix2 k q) = _)
    funext a; apply Fin.ext
    match a with
    | ⟨0, _⟩ => show win3_1.index t (0 : Fin 2) * 256 + 1 * k.val = k.val; omega
    | ⟨1, _⟩ => show win3_1.index t (1 : Fin 2) * 128 + 1 * q.val = q.val; omega
  rw [h2]
  unfold G
  rw [ofEntries_ix2]
  unfold prod
  simp only [h0, h1]

/-- An index of the output array is in tile `t`'s block iff each coordinate is in the block's range. -/
theorem mem_blk (t : Fin cfg3.N) (i : S200000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v55).slice (win3_2.rect t)).set ↔ _
  rw [View.set_slice_whole, Rect.mem_set_unit]
  exact Iff.rfl

/-- The tiles cover the output array: row `r` is in tile `r / 4000`. -/
theorem cover (i : S200000x128.Idx) :
    ∃ t : Fin cfg3.N, (cfg3.win 2).flush t = true ∧ i ∈ ((cfg3.win 2).blk t).view.set := by
  have hi0 : (i 0).val < 200000 := (i 0).isLt
  have hi1 : (i 1).val < 128 := (i 1).isLt
  obtain ⟨t, ht⟩ := idx_onto ⟨(i 0).val / 4000, by omega⟩
  have q0 : win3_2.index t (0 : Fin 2) = (i 0).val / 4000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 128 ≤ (i 1).val ∧ (i 1).val < win3_2.index t (1 : Fin 2) * 128 + 128; omega

/-- The output array after the region: the plain product of the arrays the region found. -/
theorem final (c : Dev nD) : (dat3 V c).arrAt 2 cfg3.N = G V c :=
  (dat3 V c).arrAt_eq_of_cover 2 (G V c) (fun t _ => flushed_eq V c t) (cover)

end Cert.KernelIdeal.Tiled3

end
-- ==== Proof.KReg4.lean ====
/-
  Region 4 (the second-layer combine for one edge type): what its grid of 50 row tiles leaves in the output array.

  Tile `t` holds rows `[4000 t, 4000 t + 4000)` of the summed projected rows, of the reciprocal column and of the
  destination rows, and all of the weight matrix and of the bias. The body computes, entry by entry,
  `xd · wr + mp · inv + b` of its tile (Spec.lean's `tiledSecond`), which depends on the row of the tile only through that
  same row of the whole arrays; the tiles cover every row, so the output array is `tiledSecond` of the whole arrays.
-/
import proofs.«117736_j69020124446814_2_alg».proof.Proof.Gen.KernelIdeal.Frame
import proofs.«117736_j69020124446814_2_alg».proof.Proof.Spec
import proofs.«117736_j69020124446814_2_alg».proof.Proof.LibContractPlain
import proofs.«117736_j69020124446814_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiled4

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The body's result at entry `(p, q)` of the tile, from the tile's loaded blocks. -/
theorem pay_apply (v0 : Vec Ideal S4000x128 .f32) (v2 : Vec Ideal S4000x1 .f32) (v6 : Vec Ideal S4000x256 .f32)
    (v9 : Vec Ideal S256x128 .f32) (v14 : Vec Ideal S128 .f32) (p : Fin 4000) (q : Fin 128) :
    k4_pay1 v0 v2 v6 v9 v14 (ix2 p q)
      = (∑ k : Fin 256, v6 (ix2 p k) * v9 (ix2 k q)) + v0 (ix2 p q) * v2 (ix2 p (0 : Fin 1)) + v14 (ix1 q) := by
  unfold k4_pay1
  simp only [shapeCast_self]
  rw [addf_apply, addf_apply,
    Cert.Lib.ContractPlain.matmulZero_apply dot_S4000x256_S256x128_S4000x128_1_0_0_1_n_n rfl,
    broadcastTo_1b_ab_apply, shapeCast_a_1a_apply]
  simp only [truncf_apply, mulf_apply, Cert.Keepdims.broadcastTo_a1_ab_apply]

variable (V : (c : Dev nD) → (b : Ref sig .tc) → Buf (Elt Ideal) ((c : Thread nD τ).loc b))

/-- The output array as one function of the arrays the region finds. -/
def G (c : Dev nD) : Mat 200000 128 :=
  ofEntries (tiledSecond (V c main_v65) (V c main_v16) (V c main_v38) (V c main_v66) (V c main_arg12))

/-- The printed index maps over the grid: tile `t` is block row `t` of the three row-tiled inputs and of the output, and
    block `(0, 0)` of the weights and block `0` of the bias. -/
theorem idx_facts : ∀ t : Fin cfg4.N, t.val < 50
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = t.val ∧ win4_5.index t (1 : Fin 2) = 0 :=
  (by decide +kernel : ∀ t : Fin grid4.N, _)

/-- Every block row is some tile's. -/
theorem idx_onto : ∀ q0 : Fin 50, ∃ t : Fin cfg4.N, win4_5.index t = ![q0.val, 0] :=
  (by decide +kernel : ∀ q0 : Fin 50, ∃ t : Fin grid4.N, win4_5.index t = ![q0.val, 0])

set_option maxHeartbeats 2000000 in
/-- What tile `t` writes back is block `t` of `G`. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero zero2]
  simp only [View.ld_unit_zero (S := S4000x128) zero2, View.ld_unit_zero (S := S4000x1) zero2,
    View.ld_unit_zero (S := S4000x256) zero2, View.ld_unit_zero (S := S256x128) zero2,
    View.ld_unit_zero (S := S128) zero1]
  obtain ⟨ht, e00, e01, e10, e11, e20, e21, e30, e31, e40, e50, e51⟩ := idx_facts t
  funext j
  obtain ⟨p, q, rfl⟩ : ∃ (p : Fin 4000) (q : Fin 128), j = ix2 p q := ⟨j 0, j 1, eq_ix2 j⟩
  have hp := p.isLt
  show k4_pay1 (iblk4 V c 0 t) (iblk4 V c 1 t) (iblk4 V c 2 t) (iblk4 V c 3 t) (iblk4 V c 4 t) (ix2 p q)
    = G V c (((cfg4.win 5).blk t).view.emb (ix2 p q))
  refine (pay_apply _ _ _ _ _ p q).trans ?_
  have h5 : ((cfg4.win 5).blk t).view.emb (ix2 p q) = ix2 (⟨t.val * 4000 + p.val, by omega⟩ : Fin 200000) q := by
    funext a; apply Fin.ext
    match a with
    | ⟨0, _⟩ => show win4_5.index t (0 : Fin 2) * 4000 + 1 * p.val = t.val * 4000 + p.val; omega
    | ⟨1, _⟩ => show win4_5.index t (1 : Fin 2) * 128 + 1 * q.val = q.val; omega
  have h0 : iblk4 V c 0 t (ix2 p q) = V c main_v65 (ix2 (⟨t.val * 4000 + p.val, by omega⟩ : Fin 200000) q) := by
    refine congrArg (V c main_v65) (?_ : ((cfg4.win 0).blk t).view.emb (ix2 p q) = _)
    funext a; apply Fin.ext
    match a with
    | ⟨0, _⟩ => show win4_0.index t (0 : Fin 2) * 4000 + 1 * p.val = t.val * 4000 + p.val; omega
    | ⟨1, _⟩ => show win4_0.index t (1 : Fin 2) * 128 + 1 * q.val = q.val; omega
  have h1 : iblk4 V c 1 t (ix2 p (0 : Fin 1)) = V c main_v16 (ix2 (⟨t.val * 4000 + p.val, by omega⟩ : Fin 200000) (0 : Fin 1)) := by
    refine congrArg (V c main_v16) (?_ : ((cfg4.win 1).blk t).view.emb (ix2 p (0 : Fin 1)) = _)
    funext a; apply Fin.ext
    match a with
    | ⟨0, _⟩ => show win4_1.index t (0 : Fin 2) * 4000 + 1 * p.val = t.val * 4000 + p.val; omega
    | ⟨1, _⟩ => show win4_1.index t (1 : Fin 2) * 1 + 1 * 0 = 0; omega
  have h2 : ∀ k : Fin 256, iblk4 V c 2 t (ix2 p k) = V c main_v38 (ix2 (⟨t.val * 4000 + p.val, by omega⟩ : Fin 200000) k) := by
    intro k
    refine congrArg (V c main_v38) (?_ : ((cfg4.win 2).blk t).view.emb (ix2 p k) = _)
    funext a; apply Fin.ext
    match a with
    | ⟨0, _⟩ => show win4_2.index t (0 : Fin 2) * 4000 + 1 * p.val = t.val * 4000 + p.val; omega
    | ⟨1, _⟩ => show win4_2.index t (1 : Fin 2) * 256 + 1 * k.val = k.val; omega
  have h3 : ∀ k : Fin 256, iblk4 V c 3 t (ix2 k q) = V c main_v66 (ix2 k q) := by
    intro k
    refine congrArg (V c main_v66) (?_ : ((cfg4.win 3).blk t).view.emb (ix2 k q) = _)
    funext a; apply Fin.ext
    match a with
    | ⟨0, _⟩ => show win4_3.index t (0 : Fin 2) * 256 + 1 * k.val = k.val; omega
    | ⟨1, _⟩ => show win4_3.index t (1 : Fin 2) * 128 + 1 * q.val = q.val; omega
  have h4 : iblk4 V c 4 t (ix1 q) = V c main_arg12 (ix1 q) := by
    refine congrArg (V c main_arg12) (?_ : ((cfg4.win 4).blk t).view.emb (ix1 q) = _)
    funext a; apply Fin.ext
    match a with
    | ⟨0, _⟩ => show win4_4.index t (0 : Fin 1) * 128 + 1 * q.val = q.val; omega
  rw [h5]
  unfold G
  rw [ofEntries_ix2]
  unfold tiledSecond prod
  simp only [h0, h1, h2, h3, h4]

/-- An index of the output array is in tile `t`'s block iff each coordinate is in the block's range. -/
theorem mem_blk (t : Fin cfg4.N) (i : S200000x128.Idx) :
    i ∈ ((cfg4.win 5).blk t).view.set ↔ ∀ a : Fin 2, win4_5.index t a * S4000x128.size a ≤ (i a).val ∧ (i a).val < win4_5.index t a * S4000x128.size a + S4000x128.size a := by
  show i ∈ ((View.whole main_v67).slice (win4_5.rect t)).set ↔ _
  rw [View.set_slice_whole, Rect.mem_set_unit]
  exact Iff.rfl

/-- The tiles cover the output array: row `r` is in tile `r / 4000`. -/
theorem cover (i : S200000x128.Idx) :
    ∃ t : Fin cfg4.N, (cfg4.win 5).flush t = true ∧ i ∈ ((cfg4.win 5).blk t).view.set := by
  have hi0 : (i 0).val < 200000 := (i 0).isLt
  have hi1 : (i 1).val < 128 := (i 1).isLt
  obtain ⟨t, ht⟩ := idx_onto ⟨(i 0).val / 4000, by omega⟩
  have q0 : win4_5.index t (0 : Fin 2) = (i 0).val / 4000 := congrFun ht 0
  have q1 : win4_5.index t (1 : Fin 2) = 0 := congrFun ht 1
  refine ⟨t, flush4_5 t, ?_⟩
  rw [mem_blk]
  intro a
  match a with
  | ⟨0, _⟩ => show win4_5.index t (0 : Fin 2) * 4000 ≤ (i 0).val ∧ (i 0).val < win4_5.index t (0 : Fin 2) * 4000 + 4000; omega
  | ⟨1, _⟩ => show win4_5.index t (1 : Fin 2) * 128 ≤ (i 1).val ∧ (i 1).val < win4_5.index t (1 : Fin 2) * 128 + 128; omega

/-- The output array after the region: `tiledSecond` of the arrays the region found. -/
theorem final (c : Dev nD) : (dat4 V c).arrAt 5 cfg4.N = G V c :=
  (dat4 V c).arrAt_eq_of_cover 5 (G V c) (fun t _ => flushed_eq V c t) (cover)

end Cert.KernelIdeal.Tiled4

end
-- ==== Proof.KReg5.lean ====
/-
  Region 5 (the second-layer combine for one edge type): what its grid of 50 row tiles leaves in the output array.

  Tile `t` holds rows `[4000 t, 4000 t + 4000)` of the summed projected rows, of the reciprocal column and of the
  destination rows, and all of the weight matrix and of the bias. The body computes, entry by entry,
  `xd · wr + mp · inv + b` of its tile (Spec.lean's `tiledSecond`), which depends on the row of the tile only through that
  same row of the whole arrays; the tiles cover every row, so the output array is `tiledSecond` of the whole arrays.
-/
import proofs.«117736_j69020124446814_2_alg».proof.Proof.Gen.KernelIdeal.Frame
import proofs.«117736_j69020124446814_2_alg».proof.Proof.Spec
import proofs.«117736_j69020124446814_2_alg».proof.Proof.LibContractPlain
import proofs.«117736_j69020124446814_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tiled5

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

theorem zero2 : (![0, 0] : Fin 2 → Nat) = fun _ => 0 := funext fun a => by fin_cases a <;> rfl
theorem zero1 : (![0] : Fin 1 → Nat) = fun _ => 0 := funext fun a => by fin_cases a <;> rfl

/-- The body's result at entry `(p, q)` of the tile, from the tile's loaded blocks. -/
theorem pay_apply (v0 : Vec Ideal S4000x128 .f32) (v2 : Vec Ideal S4000x1 .f32) (v6 : Vec Ideal S4000x256 .f32)
    (v9 : Vec Ideal S256x128 .f32) (v14 : Vec Ideal S128 .f32) (p : Fin 4000) (q : Fin 128) :
    k5_pay1 v0 v2 v6 v9 v14 (ix2 p q)
      = (∑ k : Fin 256, v6 (ix2 p k) * v9 (ix2 k q)) + v0 (ix2 p q) * v2 (ix2 p (0 : Fin 1)) + v14 (ix1 q) := by
  unfold k5_pay1
  simp only [shapeCast_self]
  rw [addf_apply, addf_apply,
    Cert.Lib.ContractPlain.matmulZero_apply dot_S4000x256_S256x128_S4000x128_1_0_0_1_n_n rfl,
    broadcastTo_1b_ab_apply, shapeCast_a_1a_apply]
  simp only [truncf_apply, mulf_apply, Cert.Keepdims.broadcastTo_a1_ab_apply]

variable (V : (c : Dev nD) → (b : Ref sig .tc) → Buf (Elt Ideal) ((c : Thread nD τ).loc b))

/-- The output array as one function of the arrays the region finds. -/
def G (c : Dev nD) : Mat 200000 128 :=
  ofEntries (tiledSecond (V c main_v77) (V c main_v25) (V c main_v51) (V c main_v78) (V c main_arg15))

/-- The printed index maps over the grid: tile `t` is block row `t` of the three row-tiled inputs and of the output, and
    block `(0, 0)` of the weights and block `0` of the bias. -/
theorem idx_facts : ∀ t : Fin cfg5.N, t.val < 50
    ∧ win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

/-- Every block row is some tile's. -/
theorem idx_onto : ∀ q0 : Fin 50, ∃ t : Fin cfg5.N, win5_5.index t = ![q0.val, 0] :=
  (by decide +kernel : ∀ q0 : Fin 50, ∃ t : Fin grid5.N, win5_5.index t = ![q0.val, 0])

set_option maxHeartbeats 2000000 in
/-- What tile `t` writes back is block `t` of `G`. -/
theorem flushed_eq (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero zero2]
  simp only [View.ld_unit_zero (S := S4000x128) zero2, View.ld_unit_zero (S := S4000x1) zero2,
    View.ld_unit_zero (S := S4000x256) zero2, View.ld_unit_zero (S := S256x128) zero2,
    View.ld_unit_zero (S := S128) zero1]
  obtain ⟨ht, e00, e01, e10, e11, e20, e21, e30, e31, e40, e50, e51⟩ := idx_facts t
  funext j
  obtain ⟨p, q, rfl⟩ : ∃ (p : Fin 4000) (q : Fin 128), j = ix2 p q := ⟨j 0, j 1, eq_ix2 j⟩
  have hp := p.isLt
  show k5_pay1 (iblk5 V c 0 t) (iblk5 V c 1 t) (iblk5 V c 2 t) (iblk5 V c 3 t) (iblk5 V c 4 t) (ix2 p q)
    = G V c (((cfg5.win 5).blk t).view.emb (ix2 p q))
  refine (pay_apply _ _ _ _ _ p q).trans ?_
  have h5 : ((cfg5.win 5).blk t).view.emb (ix2 p q) = ix2 (⟨t.val * 4000 + p.val, by omega⟩ : Fin 200000) q := by
    funext a; apply Fin.ext
    match a with
    | ⟨0, _⟩ => show win5_5.index t (0 : Fin 2) * 4000 + 1 * p.val = t.val * 4000 + p.val; omega
    | ⟨1, _⟩ => show win5_5.index t (1 : Fin 2) * 128 + 1 * q.val = q.val; omega
  have h0 : iblk5 V c 0 t (ix2 p q) = V c main_v77 (ix2 (⟨t.val * 4000 + p.val, by omega⟩ : Fin 200000) q) := by
    refine congrArg (V c main_v77) (?_ : ((cfg5.win 0).blk t).view.emb (ix2 p q) = _)
    funext a; apply Fin.ext
    match a with
    | ⟨0, _⟩ => show win5_0.index t (0 : Fin 2) * 4000 + 1 * p.val = t.val * 4000 + p.val; omega
    | ⟨1, _⟩ => show win5_0.index t (1 : Fin 2) * 128 + 1 * q.val = q.val; omega
  have h1 : iblk5 V c 1 t (ix2 p (0 : Fin 1)) = V c main_v25 (ix2 (⟨t.val * 4000 + p.val, by omega⟩ : Fin 200000) (0 : Fin 1)) := by
    refine congrArg (V c main_v25) (?_ : ((cfg5.win 1).blk t).view.emb (ix2 p (0 : Fin 1)) = _)
    funext a; apply Fin.ext
    match a with
    | ⟨0, _⟩ => show win5_1.index t (0 : Fin 2) * 4000 + 1 * p.val = t.val * 4000 + p.val; omega
    | ⟨1, _⟩ => show win5_1.index t (1 : Fin 2) * 1 + 1 * 0 = 0; omega
  have h2 : ∀ k : Fin 256, iblk5 V c 2 t (ix2 p k) = V c main_v51 (ix2 (⟨t.val * 4000 + p.val, by omega⟩ : Fin 200000) k) := by
    intro k
    refine congrArg (V c main_v51) (?_ : ((cfg5.win 2).blk t).view.emb (ix2 p k) = _)
    funext a; apply Fin.ext
    match a with
    | ⟨0, _⟩ => show win5_2.index t (0 : Fin 2) * 4000 + 1 * p.val = t.val * 4000 + p.val; omega
    | ⟨1, _⟩ => show win5_2.index t (1 : Fin 2) * 256 + 1 * k.val = k.val; omega
  have h3 : ∀ k : Fin 256, iblk5 V c 3 t (ix2 k q) = V c main_v78 (ix2 k q) := by
    intro k
    refine congrArg (V c main_v78) (?_ : ((cfg5.win 3).blk t).view.emb (ix2 k q) = _)
    funext a; apply Fin.ext
    match a with
    | ⟨0, _⟩ => show win5_3.index t (0 : Fin 2) * 256 + 1 * k.val = k.val; omega
    | ⟨1, _⟩ => show win5_3.index t (1 : Fin 2) * 128 + 1 * q.val = q.val; omega
  have h4 : iblk5 V c 4 t (ix1 q) = V c main_arg15 (ix1 q) := by
    refine congrArg (V c main_arg15) (?_ : ((cfg5.win 4).blk t).view.emb (ix1 q) = _)
    funext a; apply Fin.ext
    match a with
    | ⟨0, _⟩ => show win5_4.index t (0 : Fin 1) * 128 + 1 * q.val = q.val; omega
  rw [h5]
  unfold G
  rw [ofEntries_ix2]
  unfold tiledSecond prod
  simp only [h0, h1, h2, h3, h4]

/-- An index of the output array is in tile `t`'s block iff each coordinate is in the block's range. -/
theorem mem_blk (t : Fin cfg5.N) (i : S200000x128.Idx) :
    i ∈ ((cfg5.win 5).blk t).view.set ↔ ∀ a : Fin 2, win5_5.index t a * S4000x128.size a ≤ (i a).val ∧ (i a).val < win5_5.index t a * S4000x128.size a + S4000x128.size a := by
  show i ∈ ((View.whole main_v79).slice (win5_5.rect t)).set ↔ _
  rw [View.set_slice_whole, Rect.mem_set_unit]
  exact Iff.rfl

/-- The tiles cover the output array: row `r` is in tile `r / 4000`. -/
theorem cover (i : S200000x128.Idx) :
    ∃ t : Fin cfg5.N, (cfg5.win 5).flush t = true ∧ i ∈ ((cfg5.win 5).blk t).view.set := by
  have hi0 : (i 0).val < 200000 := (i 0).isLt
  have hi1 : (i 1).val < 128 := (i 1).isLt
  obtain ⟨t, ht⟩ := idx_onto ⟨(i 0).val / 4000, by omega⟩
  have q0 : win5_5.index t (0 : Fin 2) = (i 0).val / 4000 := congrFun ht 0
  have q1 : win5_5.index t (1 : Fin 2) = 0 := congrFun ht 1
  refine ⟨t, flush5_5 t, ?_⟩
  rw [mem_blk]
  intro a
  match a with
  | ⟨0, _⟩ => show win5_5.index t (0 : Fin 2) * 4000 ≤ (i 0).val ∧ (i 0).val < win5_5.index t (0 : Fin 2) * 4000 + 4000; omega
  | ⟨1, _⟩ => show win5_5.index t (1 : Fin 2) * 128 ≤ (i 1).val ∧ (i 1).val < win5_5.index t (1 : Fin 2) * 128 + 128; omega

/-- The output array after the region: `tiledSecond` of the arrays the region found. -/
theorem final (c : Dev nD) : (dat5 V c).arrAt 5 cfg5.N = G V c :=
  (dat5 V c).arrAt_eq_of_cover 5 (G V c) (fun t _ => flushed_eq V c t) (cover)

end Cert.KernelIdeal.Tiled5

end
-- ==== Proof.KVals.lean ====
/-
  The tiled program's two results as functions of the arguments: the buffer contents at each boundary of the run,
  read from the launch to the return. A host stretch's results are its operations' terms of what the boundary
  before it holds; a region's output array is the tiled layer of the arrays it finds (the six regions' closed forms);
  an edge-indexed gather followed by a scatter-add into zeros is the segment sum.
-/
import proofs.«117736_j69020124446814_2_alg».proof.Proof.KCarry
import proofs.«117736_j69020124446814_2_alg».proof.Proof.KReg0
import proofs.«117736_j69020124446814_2_alg».proof.Proof.KReg1
import proofs.«117736_j69020124446814_2_alg».proof.Proof.KReg2
import proofs.«117736_j69020124446814_2_alg».proof.Proof.KReg3
import proofs.«117736_j69020124446814_2_alg».proof.Proof.KReg4
import proofs.«117736_j69020124446814_2_alg».proof.Proof.KReg5

set_option maxRecDepth 16384
-- reading a buffer back through a host stretch walks every operation the buffer depends on
set_option maxHeartbeats 8000000

noncomputable section

namespace Cert.KernelIdeal.Chain

open Cert.KernelIdeal Cert.KernelIdeal.Gen
open Idealize.ShloMosaic Idealize.ShloMosaic.TcCoe Idealize.ShloMosaic.Tactic Idealize.ShloMosaic.ValueIdx
open Idealize.SL.Sem Idealize.ShloMosaic.StableHlo
open Cert.Spec Cert.HostDefs

variable (m : (ℓ : Loc nD τ sig) → Buf (Elt Ideal) ℓ) (ρ : Dev nD → PrngReg)

/-- The hidden item rows in the tiled arrangement: the users' rows summed over the user→item edges. -/
def hItemK (c : Dev nD) : Mat 200000 256 := tiledHidden pos (srcCol (m ((c : Thread nD τ).loc main_arg2))) (dstCol (m ((c : Thread nD τ).loc main_arg2))) (invCol (m ((c : Thread nD τ).loc main_arg2))) (m ((c : Thread nD τ).loc main_arg0)) (m ((c : Thread nD τ).loc main_arg1)) (trA (m ((c : Thread nD τ).loc main_arg4))) (trA (m ((c : Thread nD τ).loc main_arg5))) (m ((c : Thread nD τ).loc main_arg6))
/-- The hidden user rows in the tiled arrangement. -/
def hUserK (c : Dev nD) : Mat 200000 256 := tiledHidden pos (srcCol (m ((c : Thread nD τ).loc main_arg3))) (dstCol (m ((c : Thread nD τ).loc main_arg3))) (invCol (m ((c : Thread nD τ).loc main_arg3))) (m ((c : Thread nD τ).loc main_arg1)) (m ((c : Thread nD τ).loc main_arg0)) (trA (m ((c : Thread nD τ).loc main_arg7))) (trA (m ((c : Thread nD τ).loc main_arg8))) (m ((c : Thread nD τ).loc main_arg9))
/-- The item outputs in the tiled arrangement. -/
def outItemK (c : Dev nD) : Mat 200000 128 :=
  tiledOut pos (srcCol (m ((c : Thread nD τ).loc main_arg2))) (dstCol (m ((c : Thread nD τ).loc main_arg2))) (invCol (m ((c : Thread nD τ).loc main_arg2))) (hUserK m c) (hItemK m c) (trB (m ((c : Thread nD τ).loc main_arg10))) (trB (m ((c : Thread nD τ).loc main_arg11))) (m ((c : Thread nD τ).loc main_arg12))
/-- The user outputs in the tiled arrangement. -/
def outUserK (c : Dev nD) : Mat 200000 128 :=
  tiledOut pos (srcCol (m ((c : Thread nD τ).loc main_arg3))) (dstCol (m ((c : Thread nD τ).loc main_arg3))) (invCol (m ((c : Thread nD τ).loc main_arg3))) (hItemK m c) (hUserK m c) (trB (m ((c : Thread nD τ).loc main_arg13))) (trB (m ((c : Thread nD τ).loc main_arg14))) (m ((c : Thread nD τ).loc main_arg15))

/-! ## The gather-then-scatter-add of one edge type, over variables

Stated over arbitrary index rows so that it applies to the printed term by matching, with nothing to unfold. -/

/-- The source column the printed program builds from a flat row of source indices. -/
abbrev colOfSrc (srow : IVec S1000000 32) : IVec S1000000x1 32 :=
  broadcastInDim S1000000x1 ![0] bcast_S1000000_S1000000x1_0
    (select (cmpi .slt srow (broadcastInDim S1000000 ![] bcast_S_S1000000 (constantI S_ 32 0#32)))
      (addi srow (broadcastInDim S1000000 ![] bcast_S_S1000000 (constantI S_ 32 200000#32))) srow)

/-- The destination column the printed program builds from a flat row of destination indices. -/
abbrev colOfDst (drow : IVec S1000000 32) : IVec S1000000x1 32 :=
  broadcastInDim S1000000x1 ![0] bcast_S1000000_S1000000x1_0 drow

/-- The printed gather of the rows of `x` through the source column, scatter-added into zeros at the destination column. -/
def segHost (x : FVec Ideal S200000x128 .f32) (srow drow : IVec S1000000 32) : FVec Ideal S200000x128 .f32 :=
  Host.scatterAdd scatter_S200000x128_S1000000x1_S1000000x128_1_0_0_1
    (broadcastInDim S200000x128 ![] bcast_S_S200000x128 (constant S_ .f32 0x00000000#32)) (colOfDst drow)
    (Host.gather gather_S200000x128_S1000000x1_S1000000x128_1_0_n_n_0_1_1128 x (colOfSrc srow))

theorem seg128 (x : FVec Ideal S200000x128 .f32) (srow drow : IVec S1000000 32) :
    segHost x srow drow = segSum pos (colOfSrc srow) (colOfDst drow) x :=
  Cert.Lib.SegSum.segsum_eq pos gather_S200000x128_S1000000x1_S1000000x128_1_0_n_n_0_1_1128 rfl rfl rfl rfl rfl rfl rfl
    scatter_S200000x128_S1000000x1_S1000000x128_1_0_0_1 rfl rfl rfl rfl _ bcast_S_S200000x128 x (colOfSrc srow) (colOfDst drow)

theorem colOfSrc_srcRow (e : IVec S2x1000000 32) : colOfSrc (srcRow e) = srcCol e := rfl
theorem colOfDst_dstRow (e : IVec S2x1000000 32) : colOfDst (dstRow e) = dstCol e := rfl

/-! ## After the first host stretch -/

theorem w1_v1 (c : Dev nD) : W1 m ρ c (Proc.devRef .tc main_v1) = srcRow (m ((c : Thread nD τ).loc main_arg2)) := by
  show StableHlo.after hostOps0 (W0 m ρ c) (Proc.devRef .tc main_v1) = _
  after_results; rfl
theorem w1_v3 (c : Dev nD) : W1 m ρ c (Proc.devRef .tc main_v3) = dstRow (m ((c : Thread nD τ).loc main_arg2)) := by
  show StableHlo.after hostOps0 (W0 m ρ c) (Proc.devRef .tc main_v3) = _
  after_results; rfl
theorem w1_v5 (c : Dev nD) : W1 m ρ c (Proc.devRef .tc main_v5) = srcRow (m ((c : Thread nD τ).loc main_arg3)) := by
  show StableHlo.after hostOps0 (W0 m ρ c) (Proc.devRef .tc main_v5) = _
  after_results; rfl
theorem w1_v7 (c : Dev nD) : W1 m ρ c (Proc.devRef .tc main_v7) = dstRow (m ((c : Thread nD τ).loc main_arg3)) := by
  show StableHlo.after hostOps0 (W0 m ρ c) (Proc.devRef .tc main_v7) = _
  after_results; rfl
theorem w1_v16 (c : Dev nD) : W1 m ρ c (Proc.devRef .tc main_v16) = invCol (m ((c : Thread nD τ).loc main_arg2)) := by
  show StableHlo.after hostOps0 (W0 m ρ c) (Proc.devRef .tc main_v16) = _
  after_results; rfl
theorem w1_v25 (c : Dev nD) : W1 m ρ c (Proc.devRef .tc main_v25) = invCol (m ((c : Thread nD τ).loc main_arg3)) := by
  show StableHlo.after hostOps0 (W0 m ρ c) (Proc.devRef .tc main_v25) = _
  after_results; rfl
theorem w1_v36 (c : Dev nD) : W1 m ρ c (Proc.devRef .tc main_v36) = trA (m ((c : Thread nD τ).loc main_arg4)) := by
  show StableHlo.after hostOps0 (W0 m ρ c) (Proc.devRef .tc main_v36) = _
  after_results; rfl
theorem w1_v37 (c : Dev nD) : W1 m ρ c (Proc.devRef .tc main_v37) = trA (m ((c : Thread nD τ).loc main_arg5)) := by
  show StableHlo.after hostOps0 (W0 m ρ c) (Proc.devRef .tc main_v37) = _
  after_results; rfl
theorem w1_v35 (c : Dev nD) : W1 m ρ c (Proc.devRef .tc main_v35) = segSum pos (srcCol (m ((c : Thread nD τ).loc main_arg2))) (dstCol (m ((c : Thread nD τ).loc main_arg2))) (m ((c : Thread nD τ).loc main_arg0)) := by
  have e : W1 m ρ c (Proc.devRef .tc main_v35) = segHost (m ((c : Thread nD τ).loc main_arg0)) (srcRow (m ((c : Thread nD τ).loc main_arg2))) (dstRow (m ((c : Thread nD τ).loc main_arg2))) := by
    show StableHlo.after hostOps0 (W0 m ρ c) (Proc.devRef .tc main_v35) = _
    after_results; rfl
  exact e.trans (seg128 _ _ _)

/-! ## Region 0: the hidden item rows -/

theorem w2_v38 (c : Dev nD) : W2 m ρ c (Proc.devRef .tc main_v38) = hItemK m c := by
  refine (W2_arr m ρ c 6).trans ((Tiled0.final (V1 m ρ) c).trans ?_)
  unfold Tiled0.G hItemK tiledHidden
  rw [show V1 m ρ c main_v35 = _ from w1_v35 m ρ c, show V1 m ρ c main_v16 = _ from w1_v16 m ρ c,
    show V1 m ρ c main_arg1 = _ from cr_arg1_0_1 m ρ c, show V1 m ρ c main_v36 = _ from w1_v36 m ρ c,
    show V1 m ρ c main_v37 = _ from w1_v37 m ρ c, show V1 m ρ c main_arg6 = _ from cr_arg6_0_1 m ρ c]

/-! ## The second host stretch and region 1: the hidden user rows -/

theorem w3_v48 (c : Dev nD) : W3 m ρ c (Proc.devRef .tc main_v48)
    = segSum pos (srcCol (m ((c : Thread nD τ).loc main_arg3))) (dstCol (m ((c : Thread nD τ).loc main_arg3))) (m ((c : Thread nD τ).loc main_arg1)) := by
  have e : W3 m ρ c (Proc.devRef .tc main_v48) = segHost (W2 m ρ c (Proc.devRef .tc main_arg1)) (W2 m ρ c (Proc.devRef .tc main_v5)) (W2 m ρ c (Proc.devRef .tc main_v7)) := by
    show StableHlo.after hostOps1 (W2 m ρ c) (Proc.devRef .tc main_v48) = _
    after_results; rfl
  rw [e, show W2 m ρ c (Proc.devRef .tc main_arg1) = (m ((c : Thread nD τ).loc main_arg1)) from cr_arg1_0_2 m ρ c,
    show W2 m ρ c (Proc.devRef .tc main_v5) = srcRow (m ((c : Thread nD τ).loc main_arg3)) from (cr_v5_1_2 m ρ c).trans (w1_v5 m ρ c),
    show W2 m ρ c (Proc.devRef .tc main_v7) = dstRow (m ((c : Thread nD τ).loc main_arg3)) from (cr_v7_1_2 m ρ c).trans (w1_v7 m ρ c)]
  exact seg128 _ _ _
theorem w3_v49 (c : Dev nD) : W3 m ρ c (Proc.devRef .tc main_v49) = trA (m ((c : Thread nD τ).loc main_arg7)) := by
  show StableHlo.after hostOps1 (W2 m ρ c) (Proc.devRef .tc main_v49) = _
  after_results
  rw [cr_arg7_0_2 m ρ c]; rfl
theorem w3_v50 (c : Dev nD) : W3 m ρ c (Proc.devRef .tc main_v50) = trA (m ((c : Thread nD τ).loc main_arg8)) := by
  show StableHlo.after hostOps1 (W2 m ρ c) (Proc.devRef .tc main_v50) = _
  after_results
  rw [cr_arg8_0_2 m ρ c]; rfl

theorem w4_v51 (c : Dev nD) : W4 m ρ c (Proc.devRef .tc main_v51) = hUserK m c := by
  refine (W4_arr m ρ c 6).trans ((Tiled1.final (V3 m ρ) c).trans ?_)
  unfold Tiled1.G hUserK tiledHidden
  rw [show V3 m ρ c main_v48 = _ from w3_v48 m ρ c, show V3 m ρ c main_v25 = _ from (cr_v25_1_3 m ρ c).trans (w1_v25 m ρ c),
    show V3 m ρ c main_arg0 = _ from cr_arg0_0_3 m ρ c, show V3 m ρ c main_v49 = _ from w3_v49 m ρ c,
    show V3 m ρ c main_v50 = _ from w3_v50 m ρ c, show V3 m ρ c main_arg9 = _ from cr_arg9_0_3 m ρ c]

/-! ## Regions 2 and 3: the hidden rows projected -/

theorem w5_v52 (c : Dev nD) : W5 m ρ c (Proc.devRef .tc main_v52) = trB (m ((c : Thread nD τ).loc main_arg10)) := by
  show StableHlo.after hostOps2 (W4 m ρ c) (Proc.devRef .tc main_v52) = _
  after_results
  rw [cr_arg10_0_4 m ρ c]; rfl

theorem w6_v53 (c : Dev nD) : W6 m ρ c (Proc.devRef .tc main_v53) = ofEntries (prod (hUserK m c) (trB (m ((c : Thread nD τ).loc main_arg10)))) := by
  refine (W6_arr m ρ c 2).trans ((Tiled2.final (V5 m ρ) c).trans ?_)
  unfold Tiled2.G
  rw [show V5 m ρ c main_v51 = _ from (cr_v51_4_5 m ρ c).trans (w4_v51 m ρ c), show V5 m ρ c main_v52 = _ from w5_v52 m ρ c]

theorem w7_v54 (c : Dev nD) : W7 m ρ c (Proc.devRef .tc main_v54) = trB (m ((c : Thread nD τ).loc main_arg13)) := by
  show StableHlo.after hostOps3 (W6 m ρ c) (Proc.devRef .tc main_v54) = _
  after_results
  rw [cr_arg13_0_6 m ρ c]; rfl

theorem w8_v55 (c : Dev nD) : W8 m ρ c (Proc.devRef .tc main_v55) = ofEntries (prod (hItemK m c) (trB (m ((c : Thread nD τ).loc main_arg13)))) := by
  refine (W8_arr m ρ c 2).trans ((Tiled3.final (V7 m ρ) c).trans ?_)
  unfold Tiled3.G
  rw [show V7 m ρ c main_v38 = _ from (cr_v38_2_7 m ρ c).trans (w2_v38 m ρ c), show V7 m ρ c main_v54 = _ from w7_v54 m ρ c]

/-! ## Region 4: the item outputs -/

theorem w9_v65 (c : Dev nD) : W9 m ρ c (Proc.devRef .tc main_v65)
    = segSum pos (srcCol (m ((c : Thread nD τ).loc main_arg2))) (dstCol (m ((c : Thread nD τ).loc main_arg2))) (ofEntries (prod (hUserK m c) (trB (m ((c : Thread nD τ).loc main_arg10))))) := by
  have e : W9 m ρ c (Proc.devRef .tc main_v65) = segHost (W8 m ρ c (Proc.devRef .tc main_v53)) (W8 m ρ c (Proc.devRef .tc main_v1)) (W8 m ρ c (Proc.devRef .tc main_v3)) := by
    show StableHlo.after hostOps4 (W8 m ρ c) (Proc.devRef .tc main_v65) = _
    after_results; rfl
  rw [e, show W8 m ρ c (Proc.devRef .tc main_v53) = (ofEntries (prod (hUserK m c) (trB (m ((c : Thread nD τ).loc main_arg10))))) from (cr_v53_6_8 m ρ c).trans (w6_v53 m ρ c),
    show W8 m ρ c (Proc.devRef .tc main_v1) = srcRow (m ((c : Thread nD τ).loc main_arg2)) from (cr_v1_1_8 m ρ c).trans (w1_v1 m ρ c),
    show W8 m ρ c (Proc.devRef .tc main_v3) = dstRow (m ((c : Thread nD τ).loc main_arg2)) from (cr_v3_1_8 m ρ c).trans (w1_v3 m ρ c)]
  exact seg128 _ _ _
theorem w9_v66 (c : Dev nD) : W9 m ρ c (Proc.devRef .tc main_v66) = trB (m ((c : Thread nD τ).loc main_arg11)) := by
  show StableHlo.after hostOps4 (W8 m ρ c) (Proc.devRef .tc main_v66) = _
  after_results
  rw [cr_arg11_0_8 m ρ c]; rfl

theorem w10_v67 (c : Dev nD) : W10 m ρ c (Proc.devRef .tc main_v67) = outItemK m c := by
  refine (W10_arr m ρ c 5).trans ((Tiled4.final (V9 m ρ) c).trans ?_)
  unfold Tiled4.G outItemK tiledOut
  rw [show V9 m ρ c main_v65 = _ from w9_v65 m ρ c, show V9 m ρ c main_v16 = _ from (cr_v16_1_9 m ρ c).trans (w1_v16 m ρ c),
    show V9 m ρ c main_v38 = _ from (cr_v38_2_9 m ρ c).trans (w2_v38 m ρ c), show V9 m ρ c main_v66 = _ from w9_v66 m ρ c,
    show V9 m ρ c main_arg12 = _ from cr_arg12_0_9 m ρ c]

/-! ## Region 5: the user outputs -/

theorem w11_v77 (c : Dev nD) : W11 m ρ c (Proc.devRef .tc main_v77)
    = segSum pos (srcCol (m ((c : Thread nD τ).loc main_arg3))) (dstCol (m ((c : Thread nD τ).loc main_arg3))) (ofEntries (prod (hItemK m c) (trB (m ((c : Thread nD τ).loc main_arg13))))) := by
  have e : W11 m ρ c (Proc.devRef .tc main_v77) = segHost (W10 m ρ c (Proc.devRef .tc main_v55)) (W10 m ρ c (Proc.devRef .tc main_v5)) (W10 m ρ c (Proc.devRef .tc main_v7)) := by
    show StableHlo.after hostOps5 (W10 m ρ c) (Proc.devRef .tc main_v77) = _
    after_results; rfl
  rw [e, show W10 m ρ c (Proc.devRef .tc main_v55) = (ofEntries (prod (hItemK m c) (trB (m ((c : Thread nD τ).loc main_arg13))))) from (cr_v55_8_10 m ρ c).trans (w8_v55 m ρ c),
    show W10 m ρ c (Proc.devRef .tc main_v5) = srcRow (m ((c : Thread nD τ).loc main_arg3)) from (cr_v5_1_10 m ρ c).trans (w1_v5 m ρ c),
    show W10 m ρ c (Proc.devRef .tc main_v7) = dstRow (m ((c : Thread nD τ).loc main_arg3)) from (cr_v7_1_10 m ρ c).trans (w1_v7 m ρ c)]
  exact seg128 _ _ _
theorem w11_v78 (c : Dev nD) : W11 m ρ c (Proc.devRef .tc main_v78) = trB (m ((c : Thread nD τ).loc main_arg14)) := by
  show StableHlo.after hostOps5 (W10 m ρ c) (Proc.devRef .tc main_v78) = _
  after_results
  rw [cr_arg14_0_10 m ρ c]; rfl

theorem w12_v79 (c : Dev nD) : W12 m ρ c (Proc.devRef .tc main_v79) = outUserK m c := by
  refine (W12_arr m ρ c 5).trans ((Tiled5.final (V11 m ρ) c).trans ?_)
  unfold Tiled5.G outUserK tiledOut
  rw [show V11 m ρ c main_v77 = _ from w11_v77 m ρ c, show V11 m ρ c main_v25 = _ from (cr_v25_1_11 m ρ c).trans (w1_v25 m ρ c),
    show V11 m ρ c main_v51 = _ from (cr_v51_4_11 m ρ c).trans (w4_v51 m ρ c), show V11 m ρ c main_v78 = _ from w11_v78 m ρ c,
    show V11 m ρ c main_arg15 = _ from cr_arg15_0_11 m ρ c]

theorem w12_v67 (c : Dev nD) : W12 m ρ c (Proc.devRef .tc main_v67) = outItemK m c :=
  (cr_v67_10_12 m ρ c).trans (w10_v67 m ρ c)

end Cert.KernelIdeal.Chain

end
-- ==== Proof.LibColumnInDim.lean ====
/-
  The column forms of `broadcast_in_dim`, read at an index given by coordinates: a vector `[n]` laid as the column
  `[n, 1]` (its axis sent to axis 0), and a column `[n, 1]` repeated along the rows to `[n, b]` (axes sent to
  themselves). This is how a per-row quantity — a row sum, a norm, a degree — is spread over a matrix when it is
  written `v[:, None]`: both read the operand at the row coordinate alone. (`n ≠ 1`: on an axis of extent one
  a broadcast reads coordinate 0 whatever the index, and the statements would need no hypothesis but another proof.)
-/
import Idealize.ShloMosaic.Lib.Pipeline.Value
import Idealize.ShloMosaic.Lib.ValueIdx

namespace Cert.Lib.ColumnInDim

open Idealize.ShloMosaic Idealize.ShloMosaic.ValueIdx

variable {α : Type}

/-- A vector `[n]` laid as the column `[n, 1]` reads, at `(P, u)`, the vector at `P`. -/
theorem column_apply {n : ℕ} (hn : n ≠ 1) (h : (⟨1, ![n]⟩ : Shape).BroadcastsInDim ⟨2, ![n, 1]⟩ ![0])
    (v : (⟨1, ![n]⟩ : Shape).Idx → α) (P : Fin n) (u : Fin 1) :
    broadcastInDim ⟨2, ![n, 1]⟩ ![0] h v (ix2 P u) = v (ix1 P) :=
  broadcastInDim_apply _ h v (ix2 P u) (ix1 P) (fun a => match a with
    | ⟨0, _⟩ => by show P.val = if n = 1 then 0 else P.val; rw [if_neg hn])

/-- A column `[n, 1]` repeated along the rows to `[n, b]` reads, at `(P, q)`, the column's entry of row `P`. -/
theorem spread_apply {n b : ℕ} (hn : n ≠ 1) (h : (⟨2, ![n, 1]⟩ : Shape).BroadcastsInDim ⟨2, ![n, b]⟩ ![0, 1])
    (v : (⟨2, ![n, 1]⟩ : Shape).Idx → α) (P : Fin n) (q : Fin b) :
    broadcastInDim ⟨2, ![n, b]⟩ ![0, 1] h v (ix2 P q) = v (ix2 P (0 : Fin 1)) :=
  broadcastInDim_apply _ h v (ix2 P q) (ix2 P (0 : Fin 1)) (fun a => match a with
    | ⟨0, _⟩ => by show P.val = if n = 1 then 0 else P.val; rw [if_neg hn]
    | ⟨1, _⟩ => by show 0 = if (1 : ℕ) = 1 then 0 else q.val; rw [if_pos rfl])

end Cert.Lib.ColumnInDim
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.RefValue.lean ====
/-
  The reference program's two results, read as the specification's output layer.

  Each result of the program is one second-layer convolution whose two hidden operands are first-layer
  convolutions. A convolution is laid out as: the source rows gathered through the source column and added into
  zeros at the rows the destination column names (the segment sum), divided entry by entry by the clamped counts
  spread over the matrix, multiplied by a transposed weight matrix, plus the bias row repeated down the rows, plus
  the destination rows times the other transposed weight matrix. Read at an entry this is `Spec.refLayer` of the
  segment sum; with the rectifier it is `Spec.refHidden`, without it `Spec.refOut`.
-/
import proofs.«117736_j69020124446814_2_alg».proof.Proof.Gen.ReferenceIdeal.Read
import proofs.«117736_j69020124446814_2_alg».proof.Proof.Spec
import proofs.«117736_j69020124446814_2_alg».proof.Proof.HostDefs
import proofs.«117736_j69020124446814_2_alg».proof.Proof.LibSegSum
import proofs.«117736_j69020124446814_2_alg».proof.Proof.LibContractPlain
import proofs.«117736_j69020124446814_2_alg».proof.Proof.LibColumnInDim
import proofs.«117736_j69020124446814_2_alg».proof.Proof.LibRowInDim

noncomputable section

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Value
open Cert.Spec Cert.HostDefs Cert.Lib.SegSum
open Cert.Lib.ContractPlain Cert.Lib.ColumnInDim Cert.Lib.RowInDim

/-- There is at least one row. -/
theorem pos : (0 : ℕ) < 200000 := by norm_num

/-- One layer as the host lays it out — the summed rows divided by the count column spread over the matrix, times
    `wl`, plus the bias row repeated down the rows, plus the destination rows times `wr` — read at an entry. -/
theorem layer_apply {N K C : ℕ} (hN1 : N ≠ 1) (hC1 : C ≠ 1)
    (D : DotDims ⟨2, ![N, K]⟩ ⟨2, ![K, C]⟩ ⟨2, ![N, C]⟩) (hD : D = DotDims.plain N K C)
    (hcol : (⟨1, ![N]⟩ : Shape).BroadcastsInDim ⟨2, ![N, 1]⟩ ![0])
    (hspread : (⟨2, ![N, 1]⟩ : Shape).BroadcastsInDim ⟨2, ![N, K]⟩ ![0, 1])
    (hrow : (⟨1, ![C]⟩ : Shape).BroadcastsInDim ⟨2, ![1, C]⟩ ![1])
    (hrep : (⟨2, ![1, C]⟩ : Shape).BroadcastsInDim ⟨2, ![N, C]⟩ ![0, 1])
    (ms : FVec Ideal ⟨2, ![N, K]⟩ .f32) (c : FVec Ideal ⟨1, ![N]⟩ .f32) (xd : FVec Ideal ⟨2, ![N, K]⟩ .f32)
    (wl wr : FVec Ideal ⟨2, ![K, C]⟩ .f32) (b : FVec Ideal ⟨1, ![C]⟩ .f32) (p : Fin N) (q : Fin C) :
    addf (addf (Host.dotGeneral D none
            (Host.divf ms (broadcastInDim ⟨2, ![N, K]⟩ ![0, 1] hspread (broadcastInDim ⟨2, ![N, 1]⟩ ![0] hcol c))) wl)
          (broadcastInDim ⟨2, ![N, C]⟩ ![0, 1] hrep (broadcastInDim ⟨2, ![1, C]⟩ ![1] hrow b)))
        (Host.dotGeneral D none xd wr) (ix2 p q)
      = refLayer ms c xd wl wr b p q := by
  rw [addf_apply, addf_apply, hostDot_apply D hD, hostDot_apply D hD, repeat_apply hC1, row_apply hC1]
  unfold refLayer prod
  congr 2
  refine Finset.sum_congr rfl fun k _ => ?_
  show Ideal.div (ms (ix2 p k))
      (broadcastInDim ⟨2, ![N, K]⟩ ![0, 1] hspread (broadcastInDim ⟨2, ![N, 1]⟩ ![0] hcol c) (ix2 p k)) * _ = _
  rw [spread_apply hN1, column_apply hN1]

/-- The first layer of one edge type with its rectifier, as the host lays it out: source rows `xs` gathered through
    the source column and added at the destination column's rows, divided by the clamped counts, times the transposed
    `Wl`, plus the bias, plus the destination rows `xd` times the transposed `Wr`, rectified. -/
def hiddenTerm (xs xd : FVec Ideal S200000x128 .f32) (e : IVec S2x1000000 32) (Wl Wr : FVec Ideal S256x128 .f32)
    (b : FVec Ideal S256 .f32) : FVec Ideal S200000x256 .f32 :=
  maximumf
    (addf (addf (Host.dotGeneral dot_S200000x128_S128x256_S200000x256_1_0_0_1_n_n none
        (Host.divf
          (Host.scatterAdd scatter_S200000x128_S1000000x1_S1000000x128_1_0_0_1
            (broadcastInDim S200000x128 ![] bcast_S_S200000x128 (constant (F := Ideal) S_ .f32 0x00000000#32)) (dstCol e)
            (Host.gather gather_S200000x128_S1000000x1_S1000000x128_1_0_n_n_0_1_1128 xs (srcCol e)))
          (broadcastInDim S200000x128 ![0, 1] bcast_S200000x1_S200000x128_0_1
            (broadcastInDim S200000x1 ![0] bcast_S200000_S200000x1_0 (cmax e))))
        (trA Wl))
      (broadcastInDim S200000x256 ![0, 1] bcast_S1x256_S200000x256_0_1 (broadcastInDim S1x256 ![1] bcast_S256_S1x256_1 b)))
      (Host.dotGeneral dot_S200000x128_S128x256_S200000x256_1_0_0_1_n_n none xd (trA Wr)))
    (broadcastInDim S200000x256 ![] bcast_S_S200000x256 (constant (F := Ideal) S_ .f32 0x00000000#32))

/-- The host's first layer is the specification's hidden layer. -/
theorem hiddenTerm_eq (xs xd : FVec Ideal S200000x128 .f32) (e : IVec S2x1000000 32) (Wl Wr : FVec Ideal S256x128 .f32)
    (b : FVec Ideal S256 .f32) :
    hiddenTerm xs xd e Wl Wr b = refHidden pos (srcCol e) (dstCol e) (cmax e) xs xd (trA Wl) (trA Wr) b := by
  funext i
  obtain ⟨p, q, rfl⟩ : ∃ (p : Fin 200000) (q : Fin 256), i = ix2 p q := ⟨i 0, i 1, eq_ix2 i⟩
  unfold hiddenTerm
  rw [segsum_eq pos _ rfl rfl rfl rfl rfl rfl rfl _ rfl rfl rfl rfl _ _ xs (srcCol e) (dstCol e)]
  rw [maximumf_apply, layer_apply (N := 200000) (K := 128) (C := 256) (by decide) (by decide)
    dot_S200000x128_S128x256_S200000x256_1_0_0_1_n_n rfl bcast_S200000_S200000x1_0 bcast_S200000x1_S200000x128_0_1
    bcast_S256_S1x256_1 bcast_S1x256_S200000x256_0_1]
  show max _ (Ideal.ofBits .f32 0x00000000#32) = _
  rw [Ideal.ofBits_zero_f32]
  rfl

/-- The second layer of one edge type, as the host lays it out: hidden source rows `hs` gathered through the source
    column and added at the destination column's rows, divided by the clamped counts, times the transposed `Wl`, plus
    the bias, plus the hidden destination rows `hd` times the transposed `Wr`. -/
def outTerm (hs hd : FVec Ideal S200000x256 .f32) (e : IVec S2x1000000 32) (Wl Wr : FVec Ideal S128x256 .f32)
    (b : FVec Ideal S128 .f32) : FVec Ideal S200000x128 .f32 :=
  addf (addf (Host.dotGeneral dot_S200000x256_S256x128_S200000x128_1_0_0_1_n_n none
      (Host.divf
        (Host.scatterAdd scatter_S200000x256_S1000000x1_S1000000x256_1_0_0_1
          (broadcastInDim S200000x256 ![] bcast_S_S200000x256 (constant (F := Ideal) S_ .f32 0x00000000#32)) (dstCol e)
          (Host.gather gather_S200000x256_S1000000x1_S1000000x256_1_0_n_n_0_1_1256 hs (srcCol e)))
        (broadcastInDim S200000x256 ![0, 1] bcast_S200000x1_S200000x256_0_1
          (broadcastInDim S200000x1 ![0] bcast_S200000_S200000x1_0 (cmax e))))
      (trB Wl))
    (broadcastInDim S200000x128 ![0, 1] bcast_S1x128_S200000x128_0_1 (broadcastInDim S1x128 ![1] bcast_S128_S1x128_1 b)))
    (Host.dotGeneral dot_S200000x256_S256x128_S200000x128_1_0_0_1_n_n none hd (trB Wr))

/-- The host's second layer is the specification's output layer. -/
theorem outTerm_eq (hs hd : FVec Ideal S200000x256 .f32) (e : IVec S2x1000000 32) (Wl Wr : FVec Ideal S128x256 .f32)
    (b : FVec Ideal S128 .f32) :
    outTerm hs hd e Wl Wr b = refOut pos (srcCol e) (dstCol e) (cmax e) hs hd (trB Wl) (trB Wr) b := by
  funext i
  obtain ⟨p, q, rfl⟩ : ∃ (p : Fin 200000) (q : Fin 128), i = ix2 p q := ⟨i 0, i 1, eq_ix2 i⟩
  unfold outTerm
  rw [segsum_eq pos _ rfl rfl rfl rfl rfl rfl rfl _ rfl rfl rfl rfl _ _ hs (srcCol e) (dstCol e)]
  rw [layer_apply (N := 200000) (K := 256) (C := 128) (by decide) (by decide)
    dot_S200000x256_S256x128_S200000x128_1_0_0_1_n_n rfl bcast_S200000_S200000x1_0 bcast_S200000x1_S200000x256_0_1
    bcast_S128_S1x128_1 bcast_S1x128_S200000x128_0_1]
  rfl

/-- The hidden item rows: the first layer over the user-to-item edges `a2`, from the user rows `a0` to the item rows `a1`. -/
def hItem (a0 a1 : FVec Ideal S200000x128 .f32) (a2 : IVec S2x1000000 32) (a4 a5 : FVec Ideal S256x128 .f32)
    (a6 : FVec Ideal S256 .f32) : Mat 200000 256 :=
  refHidden pos (srcCol a2) (dstCol a2) (cmax a2) a0 a1 (trA a4) (trA a5) a6

/-- The hidden user rows: the first layer over the item-to-user edges `a3`, from the item rows `a1` to the user rows `a0`. -/
def hUser (a1 a0 : FVec Ideal S200000x128 .f32) (a3 : IVec S2x1000000 32) (a7 a8 : FVec Ideal S256x128 .f32)
    (a9 : FVec Ideal S256 .f32) : Mat 200000 256 :=
  refHidden pos (srcCol a3) (dstCol a3) (cmax a3) a1 a0 (trA a7) (trA a8) a9

set_option maxRecDepth 8192 in
/-- The program's first result (the user rows of the second layer) is the specification's output layer over the
    item-to-user edges, from the hidden item rows to the hidden user rows. -/
theorem res_out0_eq (m : (ℓ : Loc nD τ sig) → Buf (Elt Ideal) ℓ) (c : Dev nD) :
    res_out0 (F := Ideal) m c
      = refOut pos (srcCol (m ((c.tc : Thread nD τ).loc main_arg3))) (dstCol (m ((c.tc : Thread nD τ).loc main_arg3))) (cmax (m ((c.tc : Thread nD τ).loc main_arg3)))
          (hItem (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
          (hUser (m ((c.tc : Thread nD τ).loc main_arg1)) (m ((c.tc : Thread nD τ).loc main_arg0)) (m ((c.tc : Thread nD τ).loc main_arg3)) (m ((c.tc : Thread nD τ).loc main_arg7)) (m ((c.tc : Thread nD τ).loc main_arg8)) (m ((c.tc : Thread nD τ).loc main_arg9)))
          (trB (m ((c.tc : Thread nD τ).loc main_arg13))) (trB (m ((c.tc : Thread nD τ).loc main_arg14))) (m ((c.tc : Thread nD τ).loc main_arg15)) := by
  have h : res_main_v125 (F := Ideal) m c
      = outTerm (hiddenTerm (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
          (hiddenTerm (m ((c.tc : Thread nD τ).loc main_arg1)) (m ((c.tc : Thread nD τ).loc main_arg0)) (m ((c.tc : Thread nD τ).loc main_arg3)) (m ((c.tc : Thread nD τ).loc main_arg7)) (m ((c.tc : Thread nD τ).loc main_arg8)) (m ((c.tc : Thread nD τ).loc main_arg9)))
          (m ((c.tc : Thread nD τ).loc main_arg3)) (m ((c.tc : Thread nD τ).loc main_arg13)) (m ((c.tc : Thread nD τ).loc main_arg14)) (m ((c.tc : Thread nD τ).loc main_arg15)) := by
    unfold res_main_v125 outTerm hiddenTerm
    rfl
  show res_main_v125 (F := Ideal) m c = _
  rw [h, outTerm_eq, hiddenTerm_eq, hiddenTerm_eq]
  rfl

set_option maxRecDepth 8192 in
/-- The program's second result (the item rows of the second layer) is the specification's output layer over the
    user-to-item edges, from the hidden user rows to the hidden item rows. -/
theorem res_out1_eq (m : (ℓ : Loc nD τ sig) → Buf (Elt Ideal) ℓ) (c : Dev nD) :
    res_out1 (F := Ideal) m c
      = refOut pos (srcCol (m ((c.tc : Thread nD τ).loc main_arg2))) (dstCol (m ((c.tc : Thread nD τ).loc main_arg2))) (cmax (m ((c.tc : Thread nD τ).loc main_arg2)))
          (hUser (m ((c.tc : Thread nD τ).loc main_arg1)) (m ((c.tc : Thread nD τ).loc main_arg0)) (m ((c.tc : Thread nD τ).loc main_arg3)) (m ((c.tc : Thread nD τ).loc main_arg7)) (m ((c.tc : Thread nD τ).loc main_arg8)) (m ((c.tc : Thread nD τ).loc main_arg9)))
          (hItem (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
          (trB (m ((c.tc : Thread nD τ).loc main_arg10))) (trB (m ((c.tc : Thread nD τ).loc main_arg11))) (m ((c.tc : Thread nD τ).loc main_arg12)) := by
  have h : res_main_v94 (F := Ideal) m c
      = outTerm (hiddenTerm (m ((c.tc : Thread nD τ).loc main_arg1)) (m ((c.tc : Thread nD τ).loc main_arg0)) (m ((c.tc : Thread nD τ).loc main_arg3)) (m ((c.tc : Thread nD τ).loc main_arg7)) (m ((c.tc : Thread nD τ).loc main_arg8)) (m ((c.tc : Thread nD τ).loc main_arg9)))
          (hiddenTerm (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
          (m ((c.tc : Thread nD τ).loc main_arg2)) (m ((c.tc : Thread nD τ).loc main_arg10)) (m ((c.tc : Thread nD τ).loc main_arg11)) (m ((c.tc : Thread nD τ).loc main_arg12)) := by
    unfold res_main_v94 outTerm hiddenTerm
    rfl
  show res_main_v94 (F := Ideal) m c = _
  rw [h, outTerm_eq, hiddenTerm_eq, hiddenTerm_eq]
  rfl

end Cert.ReferenceIdeal.RefValue

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.PreFinite.lean ====
/-
  From the precondition to finiteness of every float input.

  The precondition is the conjunction, over the fourteen float inputs, of "every entry's absolute value compares
  below +∞". A conjunction of one-bit words is 1 only when both are; an and-reduction over all entries that is 1
  met a 1 at every entry; and an extended real whose absolute value is below +∞ is a real number.
-/
import proofs.«117736_j69020124446814_2_alg».proof.Pre_finite_inputs
import proofs.«117736_j69020124446814_2_alg».proof.Proof.Gen.Pre_finite_inputs
import proofs.«117736_j69020124446814_2_alg».proof.Proof.Spec
import proofs.«117736_j69020124446814_2_alg».proof.Proof.LibFinite
import Idealize.ShloMosaic.Lib.ReduceAll

noncomputable section

namespace Cert.PreFinite

open Idealize.ShloMosaic Cert.Pre_finite_inputs Cert.Spec

/-- The scalar shape has one index. -/
instance : Subsingleton S_.Idx := ⟨fun _ _ => funext fun d => d.elim0⟩

/-- One input's test: if the and-reduction, over all entries, of "the absolute value compares below +∞" is 1,
    every entry is a real number. -/
theorem all_finite {s : Shape} {axes : List (Fin s.rank)} (h : s.ReducesTo axes S_) (hu : 0 < S_.numel)
    (hb : S_.BroadcastsInDim s (![] : Fin 0 → Fin s.rank)) (x : FVec Ideal s .f32) (init : IVec S_ 1)
    (e : Host.reduce IntOp.andi
        (cmpf .olt (Host.absf x) (broadcastInDim s ![] hb (constant (F := Ideal) S_ .f32 0x7F800000#32))) init h hu
        ValueIdx.ix0 = 1#1) :
    ∀ i, Fin' (x i) := fun i =>
  Cert.LibFinite.finite_of_abs_lt (x i) (Host.reduce_andi_all _ init h hu ValueIdx.ix0 e i)

/-- Under the precondition every entry of every float input is a real number. -/
theorem finite_of_pre [Cert.Pre_finite_inputs.Facts] (a0 a1 : FVec Ideal S200000x128 .f32) (a2 a3 : IVec S2x1000000 32)
    (a4 a5 : FVec Ideal S256x128 .f32) (a6 : FVec Ideal S256 .f32) (a7 a8 : FVec Ideal S256x128 .f32)
    (a9 : FVec Ideal S256 .f32) (a10 a11 : FVec Ideal S128x256 .f32) (a12 : FVec Ideal S128 .f32)
    (a13 a14 : FVec Ideal S128x256 .f32) (a15 : FVec Ideal S128 .f32)
    (h : Cert.Pre_finite_inputs.fn (F := Ideal) a0 a1 a2 a3 a4 a5 a6 a7 a8 a9 a10 a11 a12 a13 a14 a15 = fun _ => 1#1) :
    (∀ i, Fin' (a0 i)) ∧ (∀ i, Fin' (a1 i)) ∧ (∀ i, Fin' (a4 i)) ∧ (∀ i, Fin' (a5 i)) ∧ (∀ i, Fin' (a6 i)) ∧ (∀ i, Fin' (a7 i)) ∧ (∀ i, Fin' (a8 i)) ∧ (∀ i, Fin' (a9 i)) ∧ (∀ i, Fin' (a10 i)) ∧ (∀ i, Fin' (a11 i)) ∧ (∀ i, Fin' (a12 i)) ∧ (∀ i, Fin' (a13 i)) ∧ (∀ i, Fin' (a14 i)) ∧ (∀ i, Fin' (a15 i)) := by
  have h0 := congrFun h ValueIdx.ix0
  dsimp only [fn, fn_part1, fn_part2, fn_part3, fn_part4] at h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e1⟩ := IntOp.andi_eq_one.1 h0
  exact ⟨all_finite _ _ _ a0 _ e0, all_finite _ _ _ a1 _ e1, all_finite _ _ _ a4 _ e4, all_finite _ _ _ a5 _ e5, all_finite _ _ _ a6 _ e6, all_finite _ _ _ a7 _ e7, all_finite _ _ _ a8 _ e8, all_finite _ _ _ a9 _ e9, all_finite _ _ _ a10 _ e10, all_finite _ _ _ a11 _ e11, all_finite _ _ _ a12 _ e12, all_finite _ _ _ a13 _ e13, all_finite _ _ _ a14 _ e14, all_finite _ _ _ a15 _ e15⟩

end Cert.PreFinite

end
-- ==== Proof.LibScaleSum.lean ====
/-
  Three small facts about the extended reals as the ideal float values, for certificates where one side scales a
  matrix product's weights (or a whole sum) by a constant and the other scales afterwards, or where one side divides and
  the other multiplies by a reciprocal.

  * A nonnegative real factor moves inside a finite sum of extended reals — also when the sum meets ⊤ + ⊥, because a
    nonnegative real factor distributes over every sum of two extended reals.
  * The ideal division by a divisor that is not zero is the product with the inverse.
  * A value clamped below by one (a count, a norm with a floor) is not zero.
-/
import Idealize.ShloMosaic.PureOps.Ideal

noncomputable section

namespace Cert.Lib.ScaleSum

open Idealize.ShloMosaic

/-- A nonnegative real factor moves inside a finite sum of extended reals. -/
theorem coe_mul_sum {ι : Type} (s : Finset ι) (h : ℝ) (hh : 0 ≤ h) (f : ι → EReal) :
    (h : EReal) * ∑ k ∈ s, f k = ∑ k ∈ s, (h : EReal) * f k := by
  classical
  induction s using Finset.induction_on with
  | empty => simp
  | insert a s ha ih =>
    rw [Finset.sum_insert ha, Finset.sum_insert ha,
      EReal.left_distrib_of_nonneg_of_ne_top (by exact_mod_cast hh) (EReal.coe_ne_top h), ih]

/-- Off zero the ideal quotient is the product with the inverse. -/
theorem div_of_ne_zero (x a : EReal) (ha : a ≠ 0) : Ideal.div x a = x * a⁻¹ := by
  rw [Ideal.div, if_neg ha]

/-- A value clamped below by one is not zero. -/
theorem max_one_ne_zero (x : EReal) : max x 1 ≠ 0 :=
  ne_of_gt (lt_of_lt_of_le zero_lt_one (le_max_right x 1))

end Cert.Lib.ScaleSum

end
-- ==== Proof.Laws.lean ====
/-
  The laws that join the two arrangements of the graph convolution (Spec.lean).

  * First layer: multiplying the summed rows by `1 / c` is dividing them by `c` when `c ≥ 1`, and a sum of three
    extended reals does not depend on its order: no finiteness is needed.
  * Second layer: projecting the source rows before summing them over the edges equals projecting the sum, because
    the product with a fixed matrix is linear — on the extended reals this needs the rows and the matrix to hold real
    numbers (a sum `⊤ + ⊥` does not distribute).
  * The hidden layer of real inputs holds real numbers.
-/
import proofs.«117736_j69020124446814_2_alg».proof.Proof.Spec
import proofs.«117736_j69020124446814_2_alg».proof.Proof.LibFinite
import proofs.«117736_j69020124446814_2_alg».proof.Proof.LibScaleSum

noncomputable section

namespace Cert.Laws

open Idealize.ShloMosaic Idealize.ShloMosaic.ValueIdx Cert.Spec

/-! ## Real numbers among the extended reals -/

/-- The inclusion of a real number is a real number. -/
theorem fin_coe (r : ℝ) : Fin' (r : EReal) := ⟨EReal.coe_ne_top r, EReal.coe_ne_bot r⟩

/-- An extended real is a real number exactly when it is the inclusion of one. -/
theorem fin_iff (x : EReal) : Fin' x ↔ ∃ r : ℝ, x = (r : EReal) := by
  constructor
  · rintro ⟨h1, h2⟩
    exact ⟨x.toReal, (EReal.coe_toReal h1 h2).symm⟩
  · rintro ⟨r, rfl⟩
    exact fin_coe r

theorem fin_zero : Fin' (0 : EReal) := fin_coe 0

theorem fin_add {a b : EReal} (ha : Fin' a) (hb : Fin' b) : Fin' (a + b) := by
  obtain ⟨x, rfl⟩ := (fin_iff a).1 ha
  obtain ⟨y, rfl⟩ := (fin_iff b).1 hb
  rw [← EReal.coe_add]
  exact fin_coe _

theorem fin_mul {a b : EReal} (ha : Fin' a) (hb : Fin' b) : Fin' (a * b) := by
  obtain ⟨x, rfl⟩ := (fin_iff a).1 ha
  obtain ⟨y, rfl⟩ := (fin_iff b).1 hb
  rw [← EReal.coe_mul]
  exact fin_coe _

/-- The larger of two real numbers is one of them. -/
theorem fin_max {a b : EReal} (ha : Fin' a) (hb : Fin' b) : Fin' (max a b) := by
  rcases max_choice a b with h | h <;> rw [h] <;> assumption

theorem fin_ite {p : Prop} [Decidable p] {a b : EReal} (ha : Fin' a) (hb : Fin' b) :
    Fin' (if p then a else b) := by
  split_ifs <;> assumption

/-- A finite sum of real numbers is a real number. -/
theorem fin_sum {ι : Type} (s : Finset ι) (f : ι → EReal) (h : ∀ i ∈ s, Fin' (f i)) : Fin' (∑ i ∈ s, f i) := by
  classical
  induction s using Finset.induction_on with
  | empty => rw [Finset.sum_empty]; exact fin_zero
  | insert a s ha ih =>
    rw [Finset.sum_insert ha]
    exact fin_add (h a (Finset.mem_insert_self a s)) (ih fun i hi => h i (Finset.mem_insert_of_mem hi))

/-- The inverse of any extended real is a real number (the inverse of either infinity is `0`). -/
theorem fin_inv (c : EReal) : Fin' c⁻¹ := ⟨ne_of_lt (EReal.inv_lt_top c), ne_of_gt (EReal.bot_lt_inv c)⟩

/-- A value that is at least one is not zero. -/
theorem ne_zero_of_one_le {c : EReal} (hc : 1 ≤ c) : c ≠ 0 := ne_of_gt (lt_of_lt_of_le zero_lt_one hc)

/-- For `c ≥ 1` the quotient `1 / c` is the inverse of `c`. -/
theorem one_div_eq {c : EReal} (hc : 1 ≤ c) : Ideal.div 1 c = c⁻¹ := by
  rw [Cert.Lib.ScaleSum.div_of_ne_zero 1 c (ne_zero_of_one_le hc), one_mul]

/-! ## Projecting before or after the sum over the edges -/

/-- Over the reals: the selected rows `h e`, each projected on `w` and then summed, are the sum of the selected rows
    projected on `w`; a common factor `r` goes through both. -/
theorem real_project_sum {ι κ : Type} [Fintype ι] [Fintype κ] (P : ι → Prop) [DecidablePred P]
    (h : ι → κ → ℝ) (w : κ → ℝ) (r : ℝ) :
    (∑ e, if P e then ∑ k, h e k * w k else 0) * r = ∑ k, ((∑ e, if P e then h e k else 0) * r) * w k := by
  simp only [← Finset.sum_filter]
  rw [Finset.sum_comm]
  simp only [Finset.sum_mul]
  refine Finset.sum_congr rfl fun k _ => Finset.sum_congr rfl fun e _ => ?_
  ring

/-- The same on the extended reals, for rows, a projection and a factor that are real numbers. -/
theorem project_sum {ι κ : Type} [Fintype ι] [Fintype κ] (P : ι → Prop) [DecidablePred P]
    (h : ι → κ → EReal) (w : κ → EReal) (r : EReal)
    (hh : ∀ e k, Fin' (h e k)) (hw : ∀ k, Fin' (w k)) (hr : Fin' r) :
    (∑ e, if P e then ∑ k, h e k * w k else 0) * r = ∑ k, ((∑ e, if P e then h e k else 0) * r) * w k := by
  choose h' hh' using fun e k => (fin_iff (h e k)).1 (hh e k)
  choose w' hw' using fun k => (fin_iff (w k)).1 (hw k)
  obtain ⟨r', rfl⟩ := (fin_iff r).1 hr
  have e1 : ∀ e, (if P e then ∑ k, h e k * w k else 0)
      = ((if P e then ∑ k, h' e k * w' k else 0 : ℝ) : EReal) := by
    intro e
    split_ifs
    · rw [Cert.LibFinite.coe_sum]
      exact Finset.sum_congr rfl fun k _ => by rw [hh', hw', EReal.coe_mul]
    · rfl
  have e2 : ∀ e k, (if P e then h e k else 0) = ((if P e then h' e k else 0 : ℝ) : EReal) := by
    intro e k
    split_ifs
    · exact hh' e k
    · rfl
  simp only [e1, e2]
  simp only [hw', ← Cert.LibFinite.coe_sum, ← EReal.coe_mul]
  exact congrArg _ (real_project_sum P h' w' r')

/-! ## The two layers -/

/-- The hidden layer: the tiled arrangement is the reference's, when the column `inv` holds `1 / c` and `c ≥ 1`. -/
theorem tiledHidden_eq {E N K C : ℕ} (hN : 0 < N) (sc dc : IVec ⟨2, ![E, 1]⟩ 32) (c : Vect N) (inv : Mat N 1)
    (xs xd : Mat N K) (wl wr : Mat K C) (b : Vect C)
    (hinv : ∀ p : Fin N, inv (ix2 p (0 : Fin 1)) = Ideal.div 1 (c (ix1 p))) (hc : ∀ p : Fin N, 1 ≤ c (ix1 p)) :
    tiledHidden hN sc dc inv xs xd wl wr b = refHidden hN sc dc c xs xd wl wr b := by
  funext i
  obtain ⟨p, q, rfl⟩ : ∃ (p : Fin N) (q : Fin C), i = ix2 p q := ⟨i 0, i 1, eq_ix2 i⟩
  have hc0 : c (ix1 p) ≠ 0 := ne_zero_of_one_le (hc p)
  simp only [tiledHidden, refHidden, ofEntries_ix2, tiledFirst, refLayer]
  rw [hinv p, one_div_eq (hc p)]
  simp only [Cert.Lib.ScaleSum.div_of_ne_zero _ _ hc0]
  rw [add_right_comm]

/-- The hidden layer of real inputs holds real numbers. -/
theorem tiledHidden_fin {E N K C : ℕ} (hN : 0 < N) (sc dc : IVec ⟨2, ![E, 1]⟩ 32) (c : Vect N) (inv : Mat N 1)
    (xs xd : Mat N K) (wl wr : Mat K C) (b : Vect C)
    (hinv : ∀ p : Fin N, inv (ix2 p (0 : Fin 1)) = Ideal.div 1 (c (ix1 p))) (hc : ∀ p : Fin N, 1 ≤ c (ix1 p))
    (hxs : ∀ i, Fin' (xs i)) (hxd : ∀ i, Fin' (xd i)) (hwl : ∀ i, Fin' (wl i)) (hwr : ∀ i, Fin' (wr i))
    (hb : ∀ i, Fin' (b i)) : ∀ i, Fin' (tiledHidden hN sc dc inv xs xd wl wr b i) := by
  intro i
  obtain ⟨p, q, rfl⟩ : ∃ (p : Fin N) (q : Fin C), i = ix2 p q := ⟨i 0, i 1, eq_ix2 i⟩
  have hi : Fin' (inv (ix2 p (0 : Fin 1))) := by
    rw [hinv p, one_div_eq (hc p)]
    exact fin_inv _
  have hms : ∀ k, Fin' (segSum hN sc dc xs (ix2 p k)) := by
    intro k
    simp only [segSum, ofEntries_ix2]
    exact fin_sum _ _ fun e _ => fin_ite (hxs _) fin_zero
  have hp : Fin' (prod xd wr p q) := by
    simp only [prod]
    exact fin_sum _ _ fun k _ => fin_mul (hxd _) (hwr _)
  simp only [tiledHidden, ofEntries_ix2, tiledFirst]
  exact fin_max (fin_add (fin_add (fin_sum _ _ fun k _ => fin_mul (fin_mul (hms k) hi) (hwl _)) hp) (hb _)) fin_zero

/-- The output layer: the tiled arrangement is the reference's when the source rows and `wl` hold real numbers. -/
theorem tiledOut_eq {E N K C : ℕ} (hN : 0 < N) (sc dc : IVec ⟨2, ![E, 1]⟩ 32) (c : Vect N) (inv : Mat N 1)
    (hs hd : Mat N K) (wl wr : Mat K C) (b : Vect C)
    (hinv : ∀ p : Fin N, inv (ix2 p (0 : Fin 1)) = Ideal.div 1 (c (ix1 p))) (hc : ∀ p : Fin N, 1 ≤ c (ix1 p))
    (hhs : ∀ i, Fin' (hs i)) (hwl : ∀ i, Fin' (wl i)) :
    tiledOut hN sc dc inv hs hd wl wr b = refOut hN sc dc c hs hd wl wr b := by
  funext i
  obtain ⟨p, q, rfl⟩ : ∃ (p : Fin N) (q : Fin C), i = ix2 p q := ⟨i 0, i 1, eq_ix2 i⟩
  have hc0 : c (ix1 p) ≠ 0 := ne_zero_of_one_le (hc p)
  simp only [tiledOut, refOut, ofEntries_ix2, tiledSecond, refLayer, segSum]
  rw [hinv p, one_div_eq (hc p)]
  simp only [Cert.Lib.ScaleSum.div_of_ne_zero _ _ hc0]
  -- the summed projected rows, scaled, are the scaled summed rows, projected
  have key := project_sum (fun e : Fin E => Hits dc e p) (fun e k => hs (ix2 (rowOf N hN sc e) k))
    (fun k => wl (ix2 k q)) (c (ix1 p))⁻¹ (fun e k => hhs _) (fun k => hwl _) (fin_inv _)
  simp only [prod] at key ⊢
  rw [key, add_comm (∑ k : Fin K, hd (ix2 p k) * wr (ix2 k q)), add_right_comm]

end Cert.Laws

end
-- ==== Proof.HostFacts.lean ====
/-
  The host-side pieces of HostDefs.lean, read at an index.

  * The per-row count clamped below by one is at least one: it is the larger of a sum and the constant one.
  * The column of reciprocals holds, at row `p`, the quotient `1 / cmax p`: a vector laid as a column reads the vector at
    the row coordinate, and the host's quotient is taken entry by entry.
  * A transposed matrix reads its operand at the swapped index, so every entry of the transpose is an entry of the
    operand: a transpose of real numbers holds real numbers.
-/
import proofs.«117736_j69020124446814_2_alg».proof.Proof.Spec
import proofs.«117736_j69020124446814_2_alg».proof.Proof.HostDefs
import proofs.«117736_j69020124446814_2_alg».proof.Proof.LibColumnInDim
import Idealize.ShloMosaic.Lib.IdealHost

noncomputable section

namespace Cert.HostFacts

open Idealize.ShloMosaic Idealize.ShloMosaic.ValueIdx Cert.Spec Cert.HostDefs

/-- The f32 word `0x3F800000` is the extended real one. -/
theorem one_f32 : Ideal.ofBits .f32 0x3F800000#32 = 1 := Ideal.ofBits_one_f32

/-- The clamped count is at least one: it is the larger of the count and the constant one, entry by entry. -/
theorem cmax_ge (edge : IVec SEdge 32) (p : Fin 200000) : 1 ≤ cmax edge (ix1 p) := by
  unfold cmax
  rw [maximumf_apply, broadcastInDim_scalar_apply, constant_apply, one_f32]
  exact le_max_right _ _

/-- Row `p` of the column of reciprocals is `1 / cmax p`: the column reads the vector of quotients at `p`, the quotient
    is taken entry by entry, and its numerator is the constant one. -/
theorem invCol_apply (edge : IVec SEdge 32) (p : Fin 200000) :
    invCol edge (ix2 p (0 : Fin 1)) = Ideal.div 1 (cmax edge (ix1 p)) := by
  unfold invCol
  rw [Cert.Lib.ColumnInDim.column_apply (by omega) bcastNCol, hostDivf_apply, broadcastInDim_scalar_apply,
    constant_apply, one_f32]

/-- A transposed `[256, 128]` matrix of real numbers holds real numbers: each entry is an entry of the operand. -/
theorem trA_fin (W : FVec Ideal ⟨2, ![256, 128]⟩ .f32) (h : ∀ i, Fin' (W i)) : ∀ i, Fin' (trA W i) := by
  intro i
  unfold trA transpose
  exact h _

/-- A transposed `[128, 256]` matrix of real numbers holds real numbers: each entry is an entry of the operand. -/
theorem trB_fin (W : FVec Ideal ⟨2, ![128, 256]⟩ .f32) (h : ∀ i, Fin' (W i)) : ∀ i, Fin' (trB W i) := by
  intro i
  unfold trB transpose
  exact h _

end Cert.HostFacts

end
-- ==== Proof.Bridge.lean ====
/-
  The tiled arrangement of the two-layer graph convolution equals the reference's arrangement, on the host-side pieces
  both programs share.

  For each edge type the column of reciprocals holds `1 / c` where `c ≥ 1` is the clamped count, so the first layer of
  the two arrangements agrees with no further hypothesis (Laws.lean). The first layer of real inputs holds real numbers;
  with the second layer's left weight matrix real as well, projecting the hidden source rows before summing them over
  the edges equals projecting the sum, so the second layers agree too. Composed: the tiled output layers over the tiled
  hidden layers are the reference's output layers over the reference's hidden layers.
-/
import proofs.«117736_j69020124446814_2_alg».proof.Proof.Spec
import proofs.«117736_j69020124446814_2_alg».proof.Proof.HostDefs
import proofs.«117736_j69020124446814_2_alg».proof.Proof.Laws
import proofs.«117736_j69020124446814_2_alg».proof.Proof.HostFacts

noncomputable section

namespace Cert.Bridge

open Idealize.ShloMosaic Idealize.ShloMosaic.ValueIdx Cert.Spec Cert.HostDefs Cert.HostFacts

/-- There is at least one row. -/
theorem pos : (0 : ℕ) < 200000 := by norm_num

/-- The hidden item rows in the tiled arrangement: the first layer over the user-to-item edges `e2`, from the user rows
    `a0` (source) to the item rows `a1` (destination). -/
def hItemT (e2 : IVec SEdge 32) (a0 a1 : Mat 200000 128) (W4 W5 : FVec Ideal ⟨2, ![256, 128]⟩ .f32) (b6 : Vect 256) : Mat 200000 256 :=
  tiledHidden pos (srcCol e2) (dstCol e2) (invCol e2) a0 a1 (trA W4) (trA W5) b6

/-- The hidden user rows in the tiled arrangement: the first layer over the item-to-user edges `e3`, from the item rows
    `a1` (source) to the user rows `a0` (destination). -/
def hUserT (e3 : IVec SEdge 32) (a1 a0 : Mat 200000 128) (W7 W8 : FVec Ideal ⟨2, ![256, 128]⟩ .f32) (b9 : Vect 256) : Mat 200000 256 :=
  tiledHidden pos (srcCol e3) (dstCol e3) (invCol e3) a1 a0 (trA W7) (trA W8) b9

/-- The tiled hidden item rows are the reference's. -/
theorem hItem_eq (e2 : IVec SEdge 32) (a0 a1 : Mat 200000 128) (W4 W5 : FVec Ideal ⟨2, ![256, 128]⟩ .f32) (b6 : Vect 256) :
    hItemT e2 a0 a1 W4 W5 b6 = refHidden pos (srcCol e2) (dstCol e2) (cmax e2) a0 a1 (trA W4) (trA W5) b6 :=
  Cert.Laws.tiledHidden_eq pos (srcCol e2) (dstCol e2) (cmax e2) (invCol e2) a0 a1 (trA W4) (trA W5) b6
    (invCol_apply e2) (cmax_ge e2)

/-- The tiled hidden user rows are the reference's. -/
theorem hUser_eq (e3 : IVec SEdge 32) (a1 a0 : Mat 200000 128) (W7 W8 : FVec Ideal ⟨2, ![256, 128]⟩ .f32) (b9 : Vect 256) :
    hUserT e3 a1 a0 W7 W8 b9 = refHidden pos (srcCol e3) (dstCol e3) (cmax e3) a1 a0 (trA W7) (trA W8) b9 :=
  Cert.Laws.tiledHidden_eq pos (srcCol e3) (dstCol e3) (cmax e3) (invCol e3) a1 a0 (trA W7) (trA W8) b9
    (invCol_apply e3) (cmax_ge e3)

/-- The hidden item rows of real inputs hold real numbers. -/
theorem hItem_fin (e2 : IVec SEdge 32) (a0 a1 : Mat 200000 128) (W4 W5 : FVec Ideal ⟨2, ![256, 128]⟩ .f32) (b6 : Vect 256)
    (h0 : ∀ i, Fin' (a0 i)) (h1 : ∀ i, Fin' (a1 i)) (h4 : ∀ i, Fin' (W4 i)) (h5 : ∀ i, Fin' (W5 i))
    (h6 : ∀ i, Fin' (b6 i)) : ∀ i, Fin' (hItemT e2 a0 a1 W4 W5 b6 i) :=
  Cert.Laws.tiledHidden_fin pos (srcCol e2) (dstCol e2) (cmax e2) (invCol e2) a0 a1 (trA W4) (trA W5) b6
    (invCol_apply e2) (cmax_ge e2) h0 h1 (trA_fin W4 h4) (trA_fin W5 h5) h6

/-- The hidden user rows of real inputs hold real numbers. -/
theorem hUser_fin (e3 : IVec SEdge 32) (a1 a0 : Mat 200000 128) (W7 W8 : FVec Ideal ⟨2, ![256, 128]⟩ .f32) (b9 : Vect 256)
    (h1 : ∀ i, Fin' (a1 i)) (h0 : ∀ i, Fin' (a0 i)) (h7 : ∀ i, Fin' (W7 i)) (h8 : ∀ i, Fin' (W8 i))
    (h9 : ∀ i, Fin' (b9 i)) : ∀ i, Fin' (hUserT e3 a1 a0 W7 W8 b9 i) :=
  Cert.Laws.tiledHidden_fin pos (srcCol e3) (dstCol e3) (cmax e3) (invCol e3) a1 a0 (trA W7) (trA W8) b9
    (invCol_apply e3) (cmax_ge e3) h1 h0 (trA_fin W7 h7) (trA_fin W8 h8) h9

/-- The user rows of the second layer (over the item-to-user edges, from the hidden item rows to the hidden user
    rows): the tiled arrangement over the tiled hidden layers is the reference's over the reference's. -/
theorem outUser_eq (e2 e3 : IVec SEdge 32) (a0 a1 : Mat 200000 128) (W4 W5 : FVec Ideal ⟨2, ![256, 128]⟩ .f32) (b6 : Vect 256)
    (W7 W8 : FVec Ideal ⟨2, ![256, 128]⟩ .f32) (b9 : Vect 256) (W13 W14 : FVec Ideal ⟨2, ![128, 256]⟩ .f32) (b15 : Vect 128)
    (h0 : ∀ i, Fin' (a0 i)) (h1 : ∀ i, Fin' (a1 i)) (h4 : ∀ i, Fin' (W4 i)) (h5 : ∀ i, Fin' (W5 i))
    (h6 : ∀ i, Fin' (b6 i)) (h13 : ∀ i, Fin' (W13 i)) :
    tiledOut pos (srcCol e3) (dstCol e3) (invCol e3) (hItemT e2 a0 a1 W4 W5 b6) (hUserT e3 a1 a0 W7 W8 b9)
        (trB W13) (trB W14) b15
      = refOut pos (srcCol e3) (dstCol e3) (cmax e3)
          (refHidden pos (srcCol e2) (dstCol e2) (cmax e2) a0 a1 (trA W4) (trA W5) b6)
          (refHidden pos (srcCol e3) (dstCol e3) (cmax e3) a1 a0 (trA W7) (trA W8) b9) (trB W13) (trB W14) b15 := by
  rw [Cert.Laws.tiledOut_eq pos (srcCol e3) (dstCol e3) (cmax e3) (invCol e3) (hItemT e2 a0 a1 W4 W5 b6)
    (hUserT e3 a1 a0 W7 W8 b9) (trB W13) (trB W14) b15 (invCol_apply e3) (cmax_ge e3)
    (hItem_fin e2 a0 a1 W4 W5 b6 h0 h1 h4 h5 h6) (trB_fin W13 h13)]
  rw [hItem_eq, hUser_eq]

/-- The item rows of the second layer (over the user-to-item edges, from the hidden user rows to the hidden item
    rows): the tiled arrangement over the tiled hidden layers is the reference's over the reference's. -/
theorem outItem_eq (e2 e3 : IVec SEdge 32) (a0 a1 : Mat 200000 128) (W4 W5 : FVec Ideal ⟨2, ![256, 128]⟩ .f32) (b6 : Vect 256)
    (W7 W8 : FVec Ideal ⟨2, ![256, 128]⟩ .f32) (b9 : Vect 256) (W10 W11 : FVec Ideal ⟨2, ![128, 256]⟩ .f32) (b12 : Vect 128)
    (h0 : ∀ i, Fin' (a0 i)) (h1 : ∀ i, Fin' (a1 i)) (h7 : ∀ i, Fin' (W7 i)) (h8 : ∀ i, Fin' (W8 i))
    (h9 : ∀ i, Fin' (b9 i)) (h10 : ∀ i, Fin' (W10 i)) :
    tiledOut pos (srcCol e2) (dstCol e2) (invCol e2) (hUserT e3 a1 a0 W7 W8 b9) (hItemT e2 a0 a1 W4 W5 b6)
        (trB W10) (trB W11) b12
      = refOut pos (srcCol e2) (dstCol e2) (cmax e2)
          (refHidden pos (srcCol e3) (dstCol e3) (cmax e3) a1 a0 (trA W7) (trA W8) b9)
          (refHidden pos (srcCol e2) (dstCol e2) (cmax e2) a0 a1 (trA W4) (trA W5) b6) (trB W10) (trB W11) b12 := by
  rw [Cert.Laws.tiledOut_eq pos (srcCol e2) (dstCol e2) (cmax e2) (invCol e2) (hUserT e3 a1 a0 W7 W8 b9)
    (hItemT e2 a0 a1 W4 W5 b6) (trB W10) (trB W11) b12 (invCol_apply e2) (cmax_ge e2)
    (hUser_fin e3 a1 a0 W7 W8 b9 h1 h0 h7 h8 h9) (trB_fin W10 h10)]
  rw [hItem_eq, hUser_eq]

end Cert.Bridge

end
-- ==== Proof.lean ====
/-
  A two-layer mean-aggregating graph convolution over two edge types (users → items, items → users), tiled against
  its array-level reference, compared on the extended reals.

  For one edge type let `S x` be the segment sum of the rows of `x` over the edges (row `p` of `S x` adds the source rows
  of the edges that point at `p`) and `c p ≥ 1` the number of those edges clamped below by one. Each program computes,
  for each edge type, a hidden layer `relu((S x / c) · Wl + b + x' · Wr)` and an output layer of the same form over the
  hidden rows. The tiled program multiplies by `1 / c` instead of dividing (the same number, since `c ≥ 1`), adds its
  three terms in another order (addition of extended reals is commutative and associative), and in the output layer
  projects the hidden rows by `Wl` BEFORE summing them over the edges: `S (h · Wl) · (1/c) = (S h / c) · Wl`, which is the
  linearity of the product with a fixed matrix and holds because, every float input being finite, the hidden rows
  and the weights are real numbers.

  The pieces: the tiled program's run with its results named (KRun), each of its six regions' output array as one
  function of the arrays the region finds (KReg0 … KReg5), the buffer contents followed through the run (KCarry,
  KVals), the reference's results read entry by entry (RefValue), finiteness from the precondition (PreFinite), and
  the laws that join the two arrangements (Laws, HostFacts, Bridge).
-/
import proofs.«117736_j69020124446814_2_alg».proof.Defs
import proofs.«117736_j69020124446814_2_alg».proof.Proof.Gen.Kernel
import proofs.«117736_j69020124446814_2_alg».proof.Proof.Gen.Kernel.Skeleton
import proofs.«117736_j69020124446814_2_alg».proof.Proof.Gen.Kernel.Launch
import proofs.«117736_j69020124446814_2_alg».proof.Proof.Gen.Kernel.Points
import proofs.«117736_j69020124446814_2_alg».proof.Proof.Gen.Kernel.Frame
import proofs.«117736_j69020124446814_2_alg».proof.Proof.Gen.KernelIdeal
import proofs.«117736_j69020124446814_2_alg».proof.Proof.Gen.KernelIdeal.Skeleton
import proofs.«117736_j69020124446814_2_alg».proof.Proof.Gen.KernelIdeal.Launch
import proofs.«117736_j69020124446814_2_alg».proof.Proof.Gen.KernelIdeal.Points
import proofs.«117736_j69020124446814_2_alg».proof.Proof.Gen.KernelIdeal.Frame
import proofs.«117736_j69020124446814_2_alg».proof.Proof.Gen.ReferenceIdeal
import proofs.«117736_j69020124446814_2_alg».proof.Proof.Gen.Pre_finite_inputs
import proofs.«117736_j69020124446814_2_alg».proof.Proof.Gen.ReferenceIdeal.Read
import proofs.«117736_j69020124446814_2_alg».proof.Proof.KRun
import proofs.«117736_j69020124446814_2_alg».proof.Proof.KVals
import proofs.«117736_j69020124446814_2_alg».proof.Proof.RefValue
import proofs.«117736_j69020124446814_2_alg».proof.Proof.PreFinite
import proofs.«117736_j69020124446814_2_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- The idealized tiled program runs and leaves its arguments as launched. -/
theorem frame_ki : Cert.frame_KernelIdeal := fun m ρ _ => Cert.KernelIdeal.Gen.frame m ρ

/-- The idealized reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments, both idealized programs end with the same two result arrays: the
    tiled arrangement of the two output layers, which under finite inputs is the reference's arrangement. -/
theorem algebraic : Cert.algebraic_KernelIdeal_ReferenceIdeal := by
  intro m ρ m' ρ' hpre hagree
  refine ⟨fun c => Cert.KernelIdeal.Chain.outUserK m c, fun c => Cert.KernelIdeal.Chain.outItemK m c, ?_, ?_⟩
  · exact (θ_run Cert.KernelIdeal.defs _ _).mono
      (fun r h c => ⟨(h c).1.trans (Cert.KernelIdeal.Chain.w12_v79 m ρ c),
        (h c).2.1.trans (Cert.KernelIdeal.Chain.w12_v67 m ρ c), (h c).2.2⟩)
      (Cert.KernelIdeal.Tiled.run_results m ρ)
  · refine (θ_run Cert.ReferenceIdeal.defs _ _).mono (fun r h c => ?_)
      (Cert.ReferenceIdeal.Value.run (F := Ideal) m' ρ')
    obtain ⟨e0, e1, e2, e3, e4, e5, e6, e7, e8, e9, e10, e11, e12, e13, e14, e15⟩ := hagree c
    obtain ⟨f0, f1, f4, f5, f6, f7, f8, f9, f10, f11, f12, f13, f14, f15⟩ :=
      Cert.PreFinite.finite_of_pre _ _ _ _ _ _ _ _ _ _ _ _ _ _ _ _ (hpre c)
    refine ⟨((h c).1.trans (Cert.ReferenceIdeal.RefValue.res_out0_eq m' c)).trans ?_,
      ((h c).2.1.trans (Cert.ReferenceIdeal.RefValue.res_out1_eq m' c)).trans ?_, (h c).2.2⟩
    · rw [e0, e1, e2, e3, e4, e5, e6, e7, e8, e9, e13, e14, e15]
      exact (Cert.Bridge.outUser_eq _ _ _ _ _ _ _ _ _ _ _ _ _ f0 f1 f4 f5 f6 f13).symm
    · rw [e0, e1, e2, e3, e4, e5, e6, e7, e8, e9, e10, e11, e12]
      exact (Cert.Bridge.outItem_eq _ _ _ _ _ _ _ _ _ _ _ _ _ f0 f1 f7 f8 f9 f10).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
